-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S128x512 : Shape := ⟨2, ![128, 512]⟩
abbrev S128 : Shape := ⟨1, ![128]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S128 .f32) (main_arg5 : FVec F S512x512 .f32) (main_arg6 : FVec F S512 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8192x512 .f32) (main_arg1 : FVec F S128x512 .f32) (main_arg2 : FVec F S128 .f32) (main_arg3 : FVec F S128x512 .f32) (main_arg4 : FVec F S128 .f32) (main_arg5 : FVec F S512x512 .f32) (main_arg6 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_v13 main_v16
-- ==== Kernel.lean ====
abbrev S8192x512 : Shape := ⟨2, ![8192, 512]⟩
abbrev S128x512 : Shape := ⟨2, ![128, 512]⟩
abbrev S128 : Shape := ⟨1, ![128]⟩
abbrev S512x512 : Shape := ⟨2, ![512, 512]⟩
abbrev S512 : Shape := ⟨1, ![512]⟩
abbrev S1x128 : Shape := ⟨2, ![1, 128]⟩
abbrev S1x512 : Shape := ⟨2, ![1, 512]⟩
abbrev S8192x128 : Shape := ⟨2, ![8192, 128]⟩
abbrev S1024x512 : Shape := ⟨2, ![1024, 512]⟩
abbrev S1024x128 : Shape := ⟨2, ![1024, 128]⟩
abbrev S512x128 : Shape := ⟨2, ![512, 128]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 14
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S128x512, .f32⟩
  | .hbm, ⟨2, _⟩ => ⟨S128, .f32⟩
  | .hbm, ⟨3, _⟩ => ⟨S128x512, .f32⟩
  | .hbm, ⟨4, _⟩ => ⟨S128, .f32⟩
  | .hbm, ⟨5, _⟩ => ⟨S512x512, .f32⟩
  | .hbm, ⟨6, _⟩ => ⟨S512, .f32⟩
  | .hbm, ⟨7, _⟩ => ⟨S1x128, .f32⟩
  | .hbm, ⟨8, _⟩ => ⟨S1x128, .f32⟩
  | .hbm, ⟨9, _⟩ => ⟨S1x512, .f32⟩
  | .hbm, ⟨10, _⟩ => ⟨S8192x128, .bf16⟩
  | .hbm, ⟨11, _⟩ => ⟨S8192x128, .bf16⟩
  | .hbm, ⟨12, _⟩ => ⟨S8192x512, .f32⟩
  | .hbm, ⟨13, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S128x512, .f32⟩
  | .local _ .vmem, ⟨3, _⟩ => ⟨S1x128, .f32⟩
  | .local _ .vmem, ⟨4, _⟩ => ⟨S128x512, .f32⟩
  | .local _ .vmem, ⟨5, _⟩ => ⟨S1x128, .f32⟩
  | .local _ .vmem, ⟨6, _⟩ => ⟨S512x512, .f32⟩
  | .local _ .vmem, ⟨7, _⟩ => ⟨S1x512, .f32⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x512, .f32⟩
  | .local _ .vmem, ⟨13, _⟩ => ⟨S1024x512, .f32⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_16 : BitVec 32 := 0#32
  let v29 : BitVec 1 := Scalar.cmpi .ne v28 c0_i32_16
  v29

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S128_S1x128 : S128.ShapeCasts S1x128
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S512x512_S512x512_0_0 : ∀ a, (![0, 0] : Fin 2 → Nat) a + S512x512.size a ≤ S512x512.size a
  h_S512x512 : 0 < S512x512.numel
  transposes_S128x512_p1_0_S512x128 : S128x512.Transposes [1, 0] S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x128_S1024x128 : S1024x128.ShapeCasts S1024x128
  transposes_S1024x128_p1_0_S128x1024 : S1024x128.Transposes [1, 0] S128x1024
  reduces_S1024x1024_S1024 : S1024x1024.Reduces [1] S1024
  shapeCasts_S1024_S1024x1 : S1024.ShapeCasts S1024x1
  broadcasts_S1024x1_S1024x512 : S1024x1.Broadcasts S1024x512
  dot_S1024x512_S512x128_S1024x128_1_0_0_1_n_n_wf : DotDims.WF S1024x512 S512x128 S1024x128 [1] [0] [0] [1] [] []
  dot_S1024x512_S512x512_S1024x512_1_0_0_1_n_n_wf : DotDims.WF S1024x512 S512x512 S1024x512 [1] [0] [0] [1] [] []
  dot_S1024x128_S128x1024_S1024x1024_1_0_0_1_n_n_wf : DotDims.WF S1024x128 S128x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S8192x128.size a
  hwx0_7 : ∀ i : grid0.Coords, EltTy.bits .bf16 = 32 ∨ (Rect.block (s := S8192x128) S1024x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S8192x128.size a
  hwx0_8 : ∀ i : grid0.Coords, EltTy.bits .bf16 = 32 ∨ (Rect.block (s := S8192x128) S1024x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S8192x512.size a
  hwx0_9 : ∀ i : grid0.Coords, EltTy.bits .f32 = 32 ∨ (Rect.block (s := S8192x512) S1024x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S8192x512.size a
  hwx1_4 : ∀ i : grid1.Coords, EltTy.bits .f32 = 32 ∨ (Rect.block (s := S8192x512) S1024x512.size (cc1_transform_4 i) (hinb1_4 i)).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1024x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1024x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v3_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_2) S1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S128x512 : Shape := ⟨2, ![128, 512]⟩
abbrev S128 : Shape := ⟨1, ![128]⟩
abbrev S512x512 : Shape := ⟨2, ![512, 512]⟩
abbrev S512 : Shape := ⟨1, ![512]⟩
abbrev S512x128 : Shape := ⟨2, ![512, 128]⟩
abbrev S8192x128 : Shape := ⟨2, ![8192, 128]⟩
abbrev S1x128 : Shape := ⟨2, ![1, 128]⟩
abbrev S1x512 : Shape := ⟨2, ![1, 512]⟩
abbrev S128x8192 : Shape := ⟨2, ![128, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S128x512, .f32⟩
  | .hbm, ⟨2, _⟩ => ⟨S128, .f32⟩
  | .hbm, ⟨3, _⟩ => ⟨S128x512, .f32⟩
  | .hbm, ⟨4, _⟩ => ⟨S128, .f32⟩
  | .hbm, ⟨5, _⟩ => ⟨S512x512, .f32⟩
  | .hbm, ⟨6, _⟩ => ⟨S512, .f32⟩
  | .hbm, ⟨7, _⟩ => ⟨S512x128, .f32⟩
  | .hbm, ⟨8, _⟩ => ⟨S8192x128, .f32⟩
  | .hbm, ⟨9, _⟩ => ⟨S1x128, .f32⟩
  | .hbm, ⟨10, _⟩ => ⟨S8192x128, .f32⟩
  | .hbm, ⟨11, _⟩ => ⟨S8192x128, .f32⟩
  | .hbm, ⟨12, _⟩ => ⟨S512x128, .f32⟩
  | .hbm, ⟨13, _⟩ => ⟨S8192x128, .f32⟩
  | .hbm, ⟨14, _⟩ => ⟨S1x128, .f32⟩
  | .hbm, ⟨15, _⟩ => ⟨S8192x128, .f32⟩
  | .hbm, ⟨16, _⟩ => ⟨S8192x128, .f32⟩
  | .hbm, ⟨17, _⟩ => ⟨S512x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S128x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x512, .f32⟩
  | .hbm, ⟨35, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  transposes_S128x512_S512x128_1_0 : S128x512.Transposes [1, 0] S512x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S8192x128_S128x8192_1_0 : S8192x128.Transposes [1, 0] S128x8192
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  dot_S8192x512_S512x128_S8192x128_1_0_0_1_n_n_wf : DotDims.WF S8192x512 S512x128 S8192x128 [1] [0] [0] [1] [] []
  dot_S8192x512_S512x512_S8192x512_1_0_0_1_n_n_wf : DotDims.WF S8192x512 S512x512 S8192x512 [1] [0] [0] [1] [] []
  dot_S8192x128_S128x8192_S8192x8192_1_0_0_1_n_n_wf : DotDims.WF S8192x128 S128x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.ProjFrame.lean ====
/-
  The projection call (the first of the two kernels): on a grid of 8 row blocks it reads a block of 1024 rows
  of x and the three weight matrices with their biases, and writes the same 1024 rows of k = x·Wkᵀ + bk,
  q = x·Wqᵀ + bq and v = x·Wvᵀ + bv. Its body has one control path: seven whole-buffer loads, then for each
  output one whole-buffer store of a value computed from the loaded blocks only. So what the body leaves in
  an output's buffer is that value — whatever the buffer held —, and what it finds in an input's buffer is
  that input's block at the point, freshly fetched or not (the weights and biases have one block, fetched at
  the first point and kept).

  Everything here is stated at a PARAMETER V: the core's buffer contents when this call is entered.
-/
import proofs.«178563_j25151328485711_1_alg».proof.Proof.Gen.KernelIdeal.Launch
import proofs.«178563_j25151328485711_1_alg».proof.Proof.Gen.KernelIdeal.Skeleton
import proofs.«178563_j25151328485711_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the projection call is entered
variable (V : (c : Dev nD) → (b : Ref sig .tc) → Buf (Elt F) ((c : Thread nD τ).loc b))

/-! ## A window's block at a grid point -/

/-- The block of window w at point t, cut out of the window's array as the call finds it. For x and the three
    outputs that is rows 1024·t … 1024·t + 1023; for a weight matrix or a bias it is the whole array. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body on whole buffers -/

/-- Every access of the body is at offset (0, 0) and of the buffer's full extent. -/
theorem origin2 : (![0, 0] : Fin 2 → Nat) = fun _ => 0 := funext fun a => by fin_cases a <;> rfl

/-- One store of the full extent covers a 1024 × 128 buffer, -/
theorem covers_k (p : Vec F S1024x128 .bf16) (y : S1024x128.Idx) :
    ∃ pc ∈ ([⟨Rect.unit (s := S1024x128) ![0, 0] S1024x128.size inb_S1024x128_S1024x128_0_0, p⟩] : List (View.Piece (Elt F) S1024x128 .bf16)), y ∈ pc.1.set :=
  View.cover_of_tiled [⟨Rect.unit (s := S1024x128) ![0, 0] S1024x128.size inb_S1024x128_S1024x128_0_0, p⟩] S1024x128.size (by rfl) y

/-- and a 1024 × 512 one. -/
theorem covers_v (p : Vec F S1024x512 .f32) (y : S1024x512.Idx) :
    ∃ pc ∈ ([⟨Rect.unit (s := S1024x512) ![0, 0] S1024x512.size inb_S1024x512_S1024x512_0_0, p⟩] : List (View.Piece (Elt F) S1024x512 .f32)), y ∈ pc.1.set :=
  View.cover_of_tiled [⟨Rect.unit (s := S1024x512) ![0, 0] S1024x512.size inb_S1024x512_S1024x512_0_0, p⟩] S1024x512.size (by rfl) y

/-- A load of the full extent at the origin reads the buffer's whole contents. -/
theorem load_all {S : Shape} {e : EltTy} (hS : S.rank = 2) {κ : Kind} {sp : Space} (v : View sig κ sp S e) (f : v.ty.Contents (Elt F))
    (off : Fin S.rank → Nat) (hoff : off = fun _ => 0) (inb : ∀ a, off a + S.size a ≤ S.size a) :
    View.readAt (Elt F) v (Rect.unit off S.size inb).toLoadRect f = View.read (Elt F) v f :=
  show View.ld (View.read (Elt F) v f) (Rect.unit off S.size inb) = _ from View.ld_unit_zero (S := S) hoff inb _

set_option maxHeartbeats 4000000 in
/-- The body run on ten whole buffers: the seven inputs hold x0 … x6 and keep them; the three outputs hold anything
    and end holding the three projections of the inputs' contents. -/
theorem body_run (c : Dev nD) (E : Set ℕ) (i : grid0.Coords)
    (a0 : Memref sig .tc .vmem S1024x512 .f32) (h0 : a0.IsWhole) (a1 : Memref sig .tc .vmem S128x512 .f32) (h1 : a1.IsWhole)
    (a2 : Memref sig .tc .vmem S1x128 .f32) (h2 : a2.IsWhole) (a3 : Memref sig .tc .vmem S128x512 .f32) (h3 : a3.IsWhole)
    (a4 : Memref sig .tc .vmem S1x128 .f32) (h4 : a4.IsWhole) (a5 : Memref sig .tc .vmem S512x512 .f32) (h5 : a5.IsWhole)
    (a6 : Memref sig .tc .vmem S1x512 .f32) (h6 : a6.IsWhole) (a7 : Memref sig .tc .vmem S1024x128 .bf16) (h7 : a7.IsWhole)
    (a8 : Memref sig .tc .vmem S1024x128 .bf16) (h8 : a8.IsWhole) (a9 : Memref sig .tc .vmem S1024x512 .f32) (h9 : a9.IsWhole)
    (x0 : Vec F S1024x512 .f32) (x1 : Vec F S128x512 .f32) (x2 : Vec F S1x128 .f32) (x3 : Vec F S128x512 .f32)
    (x4 : Vec F S1x128 .f32) (x5 : Vec F S512x512 .f32) (x6 : Vec F S1x512 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6
        ∗ (∃ d, owns (c : Thread nD τ) a7 fullShare d) ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6
            ∗ owns (c : Thread nD τ) a7 fullShare (k0_pay3 x0 x1 x2) ∗ owns (c : Thread nD τ) a8 fullShare (k0_pay4 x0 x3 x4)
            ∗ owns (c : Thread nD τ) a9 fullShare (k0_pay2 x0 x5 x6)) -∗ K ⟨⟩))
      ⊢ wp frame (wpE (defs₀ (F := F)) Variants.none c none) E (cc0_proj_kernel i a0 h0 a1 h1 a2 h2 a3 h3 a4 h4 a5 h5 a6 h6 a7 h7 a8 h8 a9 h9) K := by
  simp only [cc0_proj_kernel_eq_skeleton]; unfold cc0_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  -- the loads read the inputs' whole contents
  have e0 := load_all (F := F) rfl a0.view f0 ![0, 0] origin2 inb_S1024x512_S1024x512_0_0
  have e1 := load_all (F := F) rfl a1.view f1 ![0, 0] origin2 inb_S128x512_S128x512_0_0
  have e2 := load_all (F := F) rfl a2.view f2 ![0, 0] origin2 inb_S1x128_S1x128_0_0
  have e3 := load_all (F := F) rfl a3.view f3 ![0, 0] origin2 inb_S128x512_S128x512_0_0
  have e4 := load_all (F := F) rfl a4.view f4 ![0, 0] origin2 inb_S1x128_S1x128_0_0
  have e5 := load_all (F := F) rfl a5.view f5 ![0, 0] origin2 inb_S512x512_S512x512_0_0
  have e6 := load_all (F := F) rfl a6.view f6 ![0, 0] origin2 inb_S1x512_S1x512_0_0
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (covers_k _)).trans ?_
    refine (View.canon_unit_zero origin2 _ _).trans ?_
    rw [e0, e1, e2]
  isplitl [H8]
  · iexists _; isplitr
    swap; · iexact H8
    ipureintro
    refine (View.read_writes_eq_canon _ _ _ (covers_k _)).trans ?_
    refine (View.canon_unit_zero origin2 _ _).trans ?_
    rw [e0, e3, e4]
  iexists _; isplitr
  swap; · iexact H9
  ipureintro
  refine (View.read_writes_eq_canon _ _ _ (covers_v _)).trans ?_
  refine (View.canon_unit_zero origin2 _ _).trans ?_
  rw [e0, e5, e6]

/-! ## The proof data of the call -/

/-- On core c: the arrays as the call finds them; after the body at point t every input's buffer still at its block
    and the three outputs' at the projections of the blocks of x, of the weight matrix and of the bias; the scoped
    rest and the generator register untouched; full shares; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => k0_pay3 (blk V c 0 t) (blk V c 1 t) (blk V c 2 t)
    | ⟨8, _⟩ => k0_pay4 (blk V c 0 t) (blk V c 3 t) (blk V c 4 t)
    | ⟨9, _⟩ => k0_pay2 (blk V c 0 t) (blk V c 5 t) (blk V c 6 t)
  Φ _ := Pipeline.ΦA spec0 c
  q _ := fullShare
  owed _ := 0

/-- The arrays of the proof data are the entry contents. -/
theorem dat_A (c : Dev nD) (w : Fin cfg0.W) : (dat V c).A w = V c (Pipeline.arrRef spec0 w) := by
  dsimp only [dat]

/-- The invariant is the same at every point. -/
theorem dat_Phi (c : Dev nD) (t : Fin (cfg0.N + 1)) : (dat (F := F) V c).Φ t = Pipeline.ΦA spec0 c := rfl

/-- What the body leaves in the three outputs' buffers: k, q and v of the blocks at the point. -/
theorem dat_after_k (c : Dev nD) (t : Fin cfg0.N) : (dat V c).after 7 t = k0_pay3 (blk V c 0 t) (blk V c 1 t) (blk V c 2 t) := by dsimp only [dat]
theorem dat_after_q (c : Dev nD) (t : Fin cfg0.N) : (dat V c).after 8 t = k0_pay4 (blk V c 0 t) (blk V c 3 t) (blk V c 4 t) := by dsimp only [dat]
theorem dat_after_v (c : Dev nD) (t : Fin cfg0.N) : (dat V c).after 9 t = k0_pay2 (blk V c 0 t) (blk V c 5 t) (blk V c 6 t) := by dsimp only [dat]

/-- The inputs' buffers are left as found. -/
theorem dat_after_in0 (c : Dev nD) (t : Fin cfg0.N) : (dat V c).after 0 t = blk V c 0 t := by dsimp only [dat]
theorem dat_after_in1 (c : Dev nD) (t : Fin cfg0.N) : (dat V c).after 1 t = blk V c 1 t := by dsimp only [dat]
theorem dat_after_in2 (c : Dev nD) (t : Fin cfg0.N) : (dat V c).after 2 t = blk V c 2 t := by dsimp only [dat]
theorem dat_after_in3 (c : Dev nD) (t : Fin cfg0.N) : (dat V c).after 3 t = blk V c 3 t := by dsimp only [dat]
theorem dat_after_in4 (c : Dev nD) (t : Fin cfg0.N) : (dat V c).after 4 t = blk V c 4 t := by dsimp only [dat]
theorem dat_after_in5 (c : Dev nD) (t : Fin cfg0.N) : (dat V c).after 5 t = blk V c 5 t := by dsimp only [dat]
theorem dat_after_in6 (c : Dev nD) (t : Fin cfg0.N) : (dat V c).after 6 t = blk V c 6 t := by dsimp only [dat]

/-- An input's buffer holds its block at every point, fetched there or not: where it is not fetched its block index has
    not moved since the point before, and the body left the block in place. -/
theorem before_0 (c : Dev nD) (t : Fin cfg0.N) (d) : (dat V c).before 0 t d = blk V c 0 t :=
  ((dat V c).before_in_eq_fetched 0 rfl (fun _ => rfl) (fun _ _ _ => rfl)
    (fun t => by rw [dat_after_in0]; unfold Dat.blockOf blk; rw [dat_A]; try rfl) t d).trans
    (by unfold Dat.fetched Dat.blockOf blk; rw [dat_A]; try rfl)
theorem before_1 (c : Dev nD) (t : Fin cfg0.N) (d) : (dat V c).before 1 t d = blk V c 1 t :=
  ((dat V c).before_in_eq_fetched 1 rfl (fun _ => rfl) (fun _ _ _ => rfl)
    (fun t => by rw [dat_after_in1]; unfold Dat.blockOf blk; rw [dat_A]; try rfl) t d).trans
    (by unfold Dat.fetched Dat.blockOf blk; rw [dat_A]; try rfl)
theorem before_2 (c : Dev nD) (t : Fin cfg0.N) (d) : (dat V c).before 2 t d = blk V c 2 t :=
  ((dat V c).before_in_eq_fetched 2 rfl (fun _ => rfl) (fun _ _ _ => rfl)
    (fun t => by rw [dat_after_in2]; unfold Dat.blockOf blk; rw [dat_A]; try rfl) t d).trans
    (by unfold Dat.fetched Dat.blockOf blk; rw [dat_A]; try rfl)
theorem before_3 (c : Dev nD) (t : Fin cfg0.N) (d) : (dat V c).before 3 t d = blk V c 3 t :=
  ((dat V c).before_in_eq_fetched 3 rfl (fun _ => rfl) (fun _ _ _ => rfl)
    (fun t => by rw [dat_after_in3]; unfold Dat.blockOf blk; rw [dat_A]; try rfl) t d).trans
    (by unfold Dat.fetched Dat.blockOf blk; rw [dat_A]; try rfl)
theorem before_4 (c : Dev nD) (t : Fin cfg0.N) (d) : (dat V c).before 4 t d = blk V c 4 t :=
  ((dat V c).before_in_eq_fetched 4 rfl (fun _ => rfl) (fun _ _ _ => rfl)
    (fun t => by rw [dat_after_in4]; unfold Dat.blockOf blk; rw [dat_A]; try rfl) t d).trans
    (by unfold Dat.fetched Dat.blockOf blk; rw [dat_A]; try rfl)
theorem before_5 (c : Dev nD) (t : Fin cfg0.N) (d) : (dat V c).before 5 t d = blk V c 5 t :=
  ((dat V c).before_in_eq_fetched 5 rfl (fun _ => rfl) (fun _ _ _ => rfl)
    (fun t => by rw [dat_after_in5]; unfold Dat.blockOf blk; rw [dat_A]; try rfl) t d).trans
    (by unfold Dat.fetched Dat.blockOf blk; rw [dat_A]; try rfl)
theorem before_6 (c : Dev nD) (t : Fin cfg0.N) (d) : (dat V c).before 6 t d = blk V c 6 t :=
  ((dat V c).before_in_eq_fetched 6 rfl (fun _ => rfl) (fun _ _ _ => rfl)
    (fun t => by rw [dat_after_in6]; unfold Dat.blockOf blk; rw [dat_A]; try rfl) t d).trans
    (by unfold Dat.fetched Dat.blockOf blk; rw [dat_A]; try rfl)

/-! ## The body at a grid point -/

/-- What the body is handed at point t, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

set_option maxHeartbeats 4000000 in
/-- The body at any point: the inputs' buffers hold their blocks, so the run above applies; the invariant and what
    the core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    dat_after_in0, dat_after_in1, dat_after_in2, dat_after_in3, dat_after_in4, dat_after_in5, dat_after_in6,
    dat_after_k, dat_after_q, dat_after_v]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c Set.univ _ _ _ _ _ _ _ _ _ _ _ _ _ _ _ _ _ _ _ _ _
    (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation for the body, at every point. -/
theorem obligation (c : Dev nD) : BodyObligation (dat (F := F) V c) (defs₀ (F := F)) Variants.none () Set.univ := fun t => by
  rw [bigSep_W0, bigSep_W0]
  exact body_at V c t

end Cert.KernelIdeal.Proj

end
-- ==== Proof.AccShared.lean ====
/-
  The second kernel region: what its three control cases share.

  The region's grid is 8 × 8, point `t` at row tile `t / 8` and column tile `t % 8`.  The body zeroes its two
  accumulators at the first column tile of a row tile, adds the tile's contribution at every column tile, and at the last
  column tile divides and stores the output block, which is idle at the other seven.  Here: the two branch conditions
  in closed form over the grid, where the output window is idle and where it is written back, the staging and scratch
  memrefs as the pipeline passes them, and the scoped buffers the body does not touch.
-/
import proofs.«178563_j25151328485711_1_alg».proof.Proof.Gen.KernelIdeal.Launch
import proofs.«178563_j25151328485711_1_alg».proof.Proof.Gen.KernelIdeal.Skeleton
import proofs.«178563_j25151328485711_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The point is at the first column tile of its row tile (the printed scalar chain of the first conditional). -/
abbrev atFirst (i : grid1.Coords) : Prop :=
  (Scalar.cmpi .ne (Scalar.extui (Scalar.cmpi .eq (BitVec.ofNat 32 (i 1).val) 0#32)) 0#32) = 1#1
/-- It holds at the points ≡ 0 (mod 8). -/
theorem atFirst_iff : ∀ t : Fin cfg1.N, atFirst (grid1.coords t) ↔ t.val % 8 = 0 :=
  (by decide +kernel : ∀ t : Fin grid1.N, atFirst (grid1.coords t) ↔ t.val % 8 = 0)

/-- The point is at the last column tile of its row tile (the second conditional). -/
abbrev atLast (i : grid1.Coords) : Prop := k1_cond2 i = 1#1
/-- It holds at the points ≡ 7 (mod 8). -/
theorem atLast_iff : ∀ t : Fin cfg1.N, atLast (grid1.coords t) ↔ t.val % 8 = 7 :=
  (by decide +kernel : ∀ t : Fin grid1.N, atLast (grid1.coords t) ↔ t.val % 8 = 7)

/-- The grid has 64 points. -/
theorem N_eq : cfg1.N = 64 := N_1

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
/-- Away from the last column tile the output block is idle: nothing is stored into it. -/
theorem idleOut : ∀ t : Fin cfg1.N, ¬atLast (grid1.coords t) → cfg1.idle 4 (grid1.coords t) = true := by decide +kernel
/-- and it is not written back there. -/
theorem noFlushOut : ∀ t : Fin cfg1.N, ¬atLast (grid1.coords t) → (cfg1.win 4).flush t = false := by decide +kernel
/-- At the last column tile it is live. -/
theorem liveOut : ∀ t : Fin cfg1.N, atLast (grid1.coords t) → cfg1.idle 4 (grid1.coords t) = false := by decide +kernel

/-! ## The memrefs the body is called with -/

abbrev mK (t : Fin cfg1.N) : Memref sig .tc .vmem S1024x128 .bf16 := win1_0.stage (cfg1.slots t 0)
abbrev hK (t : Fin cfg1.N) : (mK t).IsWhole := hstage1_0 ((cfg1.slots t 0).cast nbuf1_0)
abbrev mQ (t : Fin cfg1.N) : Memref sig .tc .vmem S1024x128 .bf16 := win1_1.stage (cfg1.slots t 1)
abbrev hQ (t : Fin cfg1.N) : (mQ t).IsWhole := hstage1_1 ((cfg1.slots t 1).cast nbuf1_1)
abbrev mVj (t : Fin cfg1.N) : Memref sig .tc .vmem S1024x512 .f32 := win1_2.stage (cfg1.slots t 2)
abbrev hVj (t : Fin cfg1.N) : (mVj t).IsWhole := hstage1_2 ((cfg1.slots t 2).cast nbuf1_2)
abbrev mVi (t : Fin cfg1.N) : Memref sig .tc .vmem S1024x512 .f32 := win1_3.stage (cfg1.slots t 3)
abbrev hVi (t : Fin cfg1.N) : (mVi t).IsWhole := hstage1_3 ((cfg1.slots t 3).cast nbuf1_3)
abbrev mO (t : Fin cfg1.N) : Memref sig .tc .vmem S1024x512 .f32 := win1_4.stage (cfg1.slots t 4)
abbrev hO (t : Fin cfg1.N) : (mO t).IsWhole := hstage1_4 ((cfg1.slots t 4).cast nbuf1_4)
/-- The accumulator of the scores-times-values product, and of the rows' sums of squares: scoped buffers of the kernel's own. -/
abbrev mAcc : Memref sig .tc .vmem S1024x512 .f32 := Memref.whole cc1_scratch0
abbrev mSs : Memref sig .tc .vmem S1024x1 .f32 := Memref.whole cc1_scratch1
/-- Views through which the buffers' contents are stated. -/
abbrev vAcc : View sig .tc .vmem S1024x512 .f32 := mAcc.view
abbrev vSs : View sig .tc .vmem S1024x1 .f32 := mSs.view
abbrev vO : View sig .tc .vmem S1024x512 .f32 := (Memref.whole cc1_stg4_0 : Memref sig .tc .vmem S1024x512 .f32).view

/-! ## The scoped buffers the body does not touch -/

/-- A scoped buffer whole at some contents. -/
abbrev anyBuf (c : Dev nD) (b : Ref sig .tc) : sProp 𝕄 :=
  iprop(∃ f : Buf (Elt F) ((c : Thread nD τ).loc b), ((c : Thread nD τ).loc b) ↦{fullShare} f)

/-- The region's class invariant, the scoped buffers one by one: the first region's fourteen staging buffers at anything,
    the two accumulators at anything, and the generator register at some state. -/
theorem PhiA_eq (c : Dev nD) :
    (Pipeline.ΦA spec1 c : sProp 𝕄)
      = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ anyBuf (F := F) c cc1_scratch0 ∗ anyBuf (F := F) c cc1_scratch1) ∗ (∃ r, prngReg c r)) := by
  unfold Pipeline.ΦA; rw [scopedRest1_eq]

end Cert.KernelIdeal.Acc

end
-- ==== Proof.AccRunA.lean ====
/-
  The second kernel's body in one of its three control cases, run on whole memrefs.
-/
import proofs.«178563_j25151328485711_1_alg».proof.Proof.Gen.KernelIdeal.Launch
import proofs.«178563_j25151328485711_1_alg».proof.Proof.Gen.KernelIdeal.Skeleton
import proofs.«178563_j25151328485711_1_alg».proof.Proof.Gen.KernelIdeal.Points
import proofs.«178563_j25151328485711_1_alg».proof.Proof.AccShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the FIRST column tile of a row tile (and not the last): both accumulators are zeroed and then take this tile's
    contribution; the output block is left as found.
    What the stores leave in each stored buffer is a list of pieces, last first, which the run of the body finds;
    the statement is that list together with the body's triple: from the four input blocks at their contents, the output
    block and the accumulators as the case finds them, the body runs to the continuation with the inputs as they were and
    each stored buffer at its pieces written over what it held. -/
noncomputable def runA (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x1 .f32) (harg8 : arg8.IsWhole) (hf : atFirst i) (hl : ¬atLast i)
    (xk : Vec F S1024x128 .bf16) (xq : Vec F S1024x128 .bf16) (xvj : Vec F S1024x512 .f32) (xvi : Vec F S1024x512 .f32) :
    Σ' (LA : List (View.Piece (Elt F) S1024x512 .f32)), { LS : List (View.Piece (Elt F) S1024x1 .f32) //
      ∀ (xo : Vec F S1024x512 .f32) (E : Set ℕ) (K : PUnit → sProp 𝕄),
        iprop(owns (c : Thread nD τ) arg2 fullShare xk ∗ owns (c : Thread nD τ) arg3 fullShare xq ∗ owns (c : Thread nD τ) arg4 fullShare xvj ∗ owns (c : Thread nD τ) arg5 fullShare xvi ∗ owns (c : Thread nD τ) arg6 fullShare xo ∗ (∃ d, owns (c : Thread nD τ) arg7 fullShare d) ∗ (∃ d, owns (c : Thread nD τ) arg8 fullShare d)
            ∗ (iprop(owns (c : Thread nD τ) arg2 fullShare xk ∗ owns (c : Thread nD τ) arg3 fullShare xq ∗ owns (c : Thread nD τ) arg4 fullShare xvj ∗ owns (c : Thread nD τ) arg5 fullShare xvi ∗ owns (c : Thread nD τ) arg6 fullShare xo ∗ (∃ f, arg7.view.loc (c : Thread nD τ) ↦[arg7.view.set]{fullShare} arg7.view.writes (Elt F) f LA) ∗ (∃ f, arg8.view.loc (c : Thread nD τ) ↦[arg8.view.set]{fullShare} arg8.view.writes (Elt F) f LS)) -∗ K ⟨⟩))
          ⊢ wp frame (wpE (defs₀ (F := F)) Variants.none c none) E (cc1_attn_kernel i arg2 harg2 arg3 harg3 arg4 harg4 arg5 harg5 arg6 harg6 arg7 harg7 arg8 harg8) K } := by
  refine ⟨?_, ?_, fun xo E K => ?run⟩
  case run =>
    simp only [cc1_attn_kernel_eq_skeleton]; unfold cc1_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf2; obtain rfl := harg3.eq_unread hf3; obtain rfl := harg4.eq_unread hf4; obtain rfl := harg5.eq_unread hf5; obtain rfl := harg6.eq_unread hf6
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

end Cert.KernelIdeal.Acc

end
-- ==== Proof.AccRunB.lean ====
/-
  The second kernel's body in one of its three control cases, run on whole memrefs.
-/
import proofs.«178563_j25151328485711_1_alg».proof.Proof.Gen.KernelIdeal.Launch
import proofs.«178563_j25151328485711_1_alg».proof.Proof.Gen.KernelIdeal.Skeleton
import proofs.«178563_j25151328485711_1_alg».proof.Proof.Gen.KernelIdeal.Points
import proofs.«178563_j25151328485711_1_alg».proof.Proof.AccShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a MIDDLE column tile of a row tile: both accumulators, at what the tile before left, take this tile's contribution;
    the output block is left as found.
    What the stores leave in each stored buffer is a list of pieces, last first, which the run of the body finds;
    the statement is that list together with the body's triple: from the four input blocks at their contents, the output
    block and the accumulators as the case finds them, the body runs to the continuation with the inputs as they were and
    each stored buffer at its pieces written over what it held. -/
noncomputable def runB (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x1 .f32) (harg8 : arg8.IsWhole) (hf : ¬atFirst i) (hl : ¬atLast i)
    (xk : Vec F S1024x128 .bf16) (xq : Vec F S1024x128 .bf16) (xvj : Vec F S1024x512 .f32) (xvi : Vec F S1024x512 .f32) (xa : Vec F S1024x512 .f32) (xs : Vec F S1024x1 .f32) :
    Σ' (LA : List (View.Piece (Elt F) S1024x512 .f32)), { LS : List (View.Piece (Elt F) S1024x1 .f32) //
      ∀ (xo : Vec F S1024x512 .f32) (E : Set ℕ) (K : PUnit → sProp 𝕄),
        iprop(owns (c : Thread nD τ) arg2 fullShare xk ∗ owns (c : Thread nD τ) arg3 fullShare xq ∗ owns (c : Thread nD τ) arg4 fullShare xvj ∗ owns (c : Thread nD τ) arg5 fullShare xvi ∗ owns (c : Thread nD τ) arg6 fullShare xo ∗ owns (c : Thread nD τ) arg7 fullShare xa ∗ owns (c : Thread nD τ) arg8 fullShare xs
            ∗ (iprop(owns (c : Thread nD τ) arg2 fullShare xk ∗ owns (c : Thread nD τ) arg3 fullShare xq ∗ owns (c : Thread nD τ) arg4 fullShare xvj ∗ owns (c : Thread nD τ) arg5 fullShare xvi ∗ owns (c : Thread nD τ) arg6 fullShare xo ∗ (∃ f, arg7.view.loc (c : Thread nD τ) ↦[arg7.view.set]{fullShare} arg7.view.writes (Elt F) f LA) ∗ (∃ f, arg8.view.loc (c : Thread nD τ) ↦[arg8.view.set]{fullShare} arg8.view.writes (Elt F) f LS)) -∗ K ⟨⟩))
          ⊢ wp frame (wpE (defs₀ (F := F)) Variants.none c none) E (cc1_attn_kernel i arg2 harg2 arg3 harg3 arg4 harg4 arg5 harg5 arg6 harg6 arg7 harg7 arg8 harg8) K } := by
  refine ⟨?_, ?_, fun xo E K => ?run⟩
  case run =>
    simp only [cc1_attn_kernel_eq_skeleton]; unfold cc1_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

end Cert.KernelIdeal.Acc

end
-- ==== Proof.AccRunC.lean ====
/-
  The second kernel's body in one of its three control cases, run on whole memrefs.
-/
import proofs.«178563_j25151328485711_1_alg».proof.Proof.Gen.KernelIdeal.Launch
import proofs.«178563_j25151328485711_1_alg».proof.Proof.Gen.KernelIdeal.Skeleton
import proofs.«178563_j25151328485711_1_alg».proof.Proof.Gen.KernelIdeal.Points
import proofs.«178563_j25151328485711_1_alg».proof.Proof.AccShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the LAST column tile of a row tile (and not the first): both accumulators, at what the tile before left, take this
    tile's contribution, and the output block is stored from them.
    What the stores leave in each stored buffer is a list of pieces, last first, which the run of the body finds;
    the statement is that list together with the body's triple: from the four input blocks at their contents, the output
    block and the accumulators as the case finds them, the body runs to the continuation with the inputs as they were and
    each stored buffer at its pieces written over what it held. -/
noncomputable def runC (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x1 .f32) (harg8 : arg8.IsWhole) (hf : ¬atFirst i) (hl : atLast i)
    (xk : Vec F S1024x128 .bf16) (xq : Vec F S1024x128 .bf16) (xvj : Vec F S1024x512 .f32) (xvi : Vec F S1024x512 .f32) (xa : Vec F S1024x512 .f32) (xs : Vec F S1024x1 .f32) :
    Σ' (LO : List (View.Piece (Elt F) S1024x512 .f32)) (LA : List (View.Piece (Elt F) S1024x512 .f32)), { LS : List (View.Piece (Elt F) S1024x1 .f32) //
      ∀ (E : Set ℕ) (K : PUnit → sProp 𝕄),
        iprop(owns (c : Thread nD τ) arg2 fullShare xk ∗ owns (c : Thread nD τ) arg3 fullShare xq ∗ owns (c : Thread nD τ) arg4 fullShare xvj ∗ owns (c : Thread nD τ) arg5 fullShare xvi ∗ (∃ d, owns (c : Thread nD τ) arg6 fullShare d) ∗ owns (c : Thread nD τ) arg7 fullShare xa ∗ owns (c : Thread nD τ) arg8 fullShare xs
            ∗ (iprop(owns (c : Thread nD τ) arg2 fullShare xk ∗ owns (c : Thread nD τ) arg3 fullShare xq ∗ owns (c : Thread nD τ) arg4 fullShare xvj ∗ owns (c : Thread nD τ) arg5 fullShare xvi ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LA) ∗ (∃ f, arg8.view.loc (c : Thread nD τ) ↦[arg8.view.set]{fullShare} arg8.view.writes (Elt F) f LS)) -∗ K ⟨⟩))
          ⊢ wp frame (wpE (defs₀ (F := F)) Variants.none c none) E (cc1_attn_kernel i arg2 harg2 arg3 harg3 arg4 harg4 arg5 harg5 arg6 harg6 arg7 harg7 arg8 harg8) K } := by
  refine ⟨?_, ?_, ?_, fun E K => ?run⟩
  case run =>
    simp only [cc1_attn_kernel_eq_skeleton]; unfold cc1_attn_kernel_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

end Cert.KernelIdeal.Acc

end
-- ==== Proof.AccData.lean ====
/-
  The second kernel region: what the accumulators and the output block hold after every grid point, and the region's
  proof data.

  Row tile `t / 8` is processed in eight consecutive points.  After point `t` the product accumulator holds the sum of
  the contributions of column tiles `0 … t % 8` of that row tile and the squares accumulator the sum of their rows' squares
  (`stateAt`, by recursion on the point: the first column tile starts from zero, every other from what the point
  before left); the output block holds, after the last column tile, the quotient plus the residual block, and is idle
  before.  Between points the region keeps the two accumulators at those contents (`PhiS`).
-/
import proofs.«178563_j25151328485711_1_alg».proof.Proof.Gen.KernelIdeal.Launch
import proofs.«178563_j25151328485711_1_alg».proof.Proof.Gen.KernelIdeal.Skeleton
import proofs.«178563_j25151328485711_1_alg».proof.Proof.Gen.KernelIdeal.Points
import proofs.«178563_j25151328485711_1_alg».proof.Proof.AccRunA
import proofs.«178563_j25151328485711_1_alg».proof.Proof.AccRunB
import proofs.«178563_j25151328485711_1_alg».proof.Proof.AccRunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The three cases at a grid point, on the memrefs the pipeline passes there -/

abbrev stepA (c : Dev nD) (t : Fin cfg1.N) (hf : atFirst (grid1.coords t)) (hl : ¬atLast (grid1.coords t))
    (xk : Vec F S1024x128 .bf16) (xq : Vec F S1024x128 .bf16) (xvj : Vec F S1024x512 .f32) (xvi : Vec F S1024x512 .f32) :=
  runA (F := F) c (grid1.coords t) (mK t) (hK t) (mQ t) (hQ t) (mVj t) (hVj t) (mVi t) (hVi t) (mO t) (hO t) mAcc (Memref.isWhole_whole _) mSs (Memref.isWhole_whole _) hf hl xk xq xvj xvi
abbrev stepB (c : Dev nD) (t : Fin cfg1.N) (hf : ¬atFirst (grid1.coords t)) (hl : ¬atLast (grid1.coords t))
    (xk : Vec F S1024x128 .bf16) (xq : Vec F S1024x128 .bf16) (xvj : Vec F S1024x512 .f32) (xvi : Vec F S1024x512 .f32)
    (xa : Vec F S1024x512 .f32) (xs : Vec F S1024x1 .f32) :=
  runB (F := F) c (grid1.coords t) (mK t) (hK t) (mQ t) (hQ t) (mVj t) (hVj t) (mVi t) (hVi t) (mO t) (hO t) mAcc (Memref.isWhole_whole _) mSs (Memref.isWhole_whole _) hf hl xk xq xvj xvi xa xs
abbrev stepC (c : Dev nD) (t : Fin cfg1.N) (hf : ¬atFirst (grid1.coords t)) (hl : atLast (grid1.coords t))
    (xk : Vec F S1024x128 .bf16) (xq : Vec F S1024x128 .bf16) (xvj : Vec F S1024x512 .f32) (xvi : Vec F S1024x512 .f32)
    (xa : Vec F S1024x512 .f32) (xs : Vec F S1024x1 .f32) :=
  runC (F := F) c (grid1.coords t) (mK t) (hK t) (mQ t) (hQ t) (mVj t) (hVj t) (mVi t) (hVi t) (mO t) (hO t) mAcc (Memref.isWhole_whole _) mSs (Memref.isWhole_whole _) hf hl xk xq xvj xvi xa xs

/-- A buffer's contents once a list of pieces has been written over anything. -/
abbrev accOf (L : List (View.Piece (Elt F) S1024x512 .f32)) : Vec F S1024x512 .f32 := vAcc.read (Elt F) (vAcc.writes (Elt F) vAcc.junk L)
abbrev ssOf (L : List (View.Piece (Elt F) S1024x1 .f32)) : Vec F S1024x1 .f32 := vSs.read (Elt F) (vSs.writes (Elt F) vSs.junk L)
abbrev outOf (L : List (View.Piece (Elt F) S1024x512 .f32)) : Vec F S1024x512 .f32 := vO.read (Elt F) (vO.writes (Elt F) vO.junk L)

/-! ## Every case's stores cover the buffers they are made into -/

theorem coverA_acc (c : Dev nD) (t : Fin cfg1.N) (hf) (hl) (xk xq xvj xvi) (y : S1024x512.Idx) :
    ∃ pc ∈ (stepA (F := F) c t hf hl xk xq xvj xvi).1, y ∈ pc.1.set :=
  View.cover_of_tiledL (stepA (F := F) c t hf hl xk xq xvj xvi).1 S1024x512.size (by sl_kernel_rfl) y
theorem coverA_ss (c : Dev nD) (t : Fin cfg1.N) (hf) (hl) (xk xq xvj xvi) (y : S1024x1.Idx) :
    ∃ pc ∈ (stepA (F := F) c t hf hl xk xq xvj xvi).2.1, y ∈ pc.1.set :=
  View.cover_of_tiledL (stepA (F := F) c t hf hl xk xq xvj xvi).2.1 S1024x1.size (by sl_kernel_rfl) y
theorem coverB_acc (c : Dev nD) (t : Fin cfg1.N) (hf) (hl) (xk xq xvj xvi xa xs) (y : S1024x512.Idx) :
    ∃ pc ∈ (stepB (F := F) c t hf hl xk xq xvj xvi xa xs).1, y ∈ pc.1.set :=
  View.cover_of_tiledL (stepB (F := F) c t hf hl xk xq xvj xvi xa xs).1 S1024x512.size (by sl_kernel_rfl) y
theorem coverB_ss (c : Dev nD) (t : Fin cfg1.N) (hf) (hl) (xk xq xvj xvi xa xs) (y : S1024x1.Idx) :
    ∃ pc ∈ (stepB (F := F) c t hf hl xk xq xvj xvi xa xs).2.1, y ∈ pc.1.set :=
  View.cover_of_tiledL (stepB (F := F) c t hf hl xk xq xvj xvi xa xs).2.1 S1024x1.size (by sl_kernel_rfl) y
theorem coverC_out (c : Dev nD) (t : Fin cfg1.N) (hf) (hl) (xk xq xvj xvi xa xs) (y : S1024x512.Idx) :
    ∃ pc ∈ (stepC (F := F) c t hf hl xk xq xvj xvi xa xs).1, y ∈ pc.1.set :=
  View.cover_of_tiledL (stepC (F := F) c t hf hl xk xq xvj xvi xa xs).1 S1024x512.size (by sl_kernel_rfl) y
theorem coverC_acc (c : Dev nD) (t : Fin cfg1.N) (hf) (hl) (xk xq xvj xvi xa xs) (y : S1024x512.Idx) :
    ∃ pc ∈ (stepC (F := F) c t hf hl xk xq xvj xvi xa xs).2.1, y ∈ pc.1.set :=
  View.cover_of_tiledL (stepC (F := F) c t hf hl xk xq xvj xvi xa xs).2.1 S1024x512.size (by sl_kernel_rfl) y
theorem coverC_ss (c : Dev nD) (t : Fin cfg1.N) (hf) (hl) (xk xq xvj xvi xa xs) (y : S1024x1.Idx) :
    ∃ pc ∈ (stepC (F := F) c t hf hl xk xq xvj xvi xa xs).2.2.1, y ∈ pc.1.set :=
  View.cover_of_tiledL (stepC (F := F) c t hf hl xk xq xvj xvi xa xs).2.2.1 S1024x1.size (by sl_kernel_rfl) y

/-! ## What the output block and the two accumulators hold after each point -/

/-- After the body at position `n`: the output block, the product accumulator, the squares accumulator.  The first column
    tile of a row tile (`n % 8 = 0`) starts the accumulators afresh; every other takes what position `n - 1` left; the
    output block is stored at the last column tile (`n % 8 = 7`) and is a placeholder elsewhere (the window is idle there:
    nothing consults it). -/
def stateAt (c : Dev nD) : (n : ℕ) → n < cfg1.N → Vec F S1024x512 .f32 × Vec F S1024x512 .f32 × Vec F S1024x1 .f32
  | 0, hn =>
    let t : Fin cfg1.N := ⟨0, hn⟩
    let hf : atFirst (grid1.coords t) := (atFirst_iff t).mpr (Nat.zero_mod _)
    let hl : ¬atLast (grid1.coords t) := fun h => absurd ((atLast_iff t).mp h) (by show ¬ (0 : ℕ) % 8 = 7; decide)
    (outOf [], accOf (stepA (F := F) c t hf hl (blk V c 0 t) (blk V c 1 t) (blk V c 2 t) (blk V c 3 t)).1, ssOf (stepA (F := F) c t hf hl (blk V c 0 t) (blk V c 1 t) (blk V c 2 t) (blk V c 3 t)).2.1)
  | n + 1, hn =>
    let t : Fin cfg1.N := ⟨n + 1, hn⟩
    if h0 : (n + 1) % 8 = 0 then
      let hf : atFirst (grid1.coords t) := (atFirst_iff t).mpr h0
      let hl : ¬atLast (grid1.coords t) := fun h => absurd ((atLast_iff t).mp h) (by show ¬ (n + 1) % 8 = 7; omega)
      (outOf [], accOf (stepA (F := F) c t hf hl (blk V c 0 t) (blk V c 1 t) (blk V c 2 t) (blk V c 3 t)).1, ssOf (stepA (F := F) c t hf hl (blk V c 0 t) (blk V c 1 t) (blk V c 2 t) (blk V c 3 t)).2.1)
    else
      let hf : ¬atFirst (grid1.coords t) := fun h => h0 ((atFirst_iff t).mp h)
      let prev := stateAt c n (Nat.lt_of_succ_lt hn)
      if h1 : (n + 1) % 8 = 7 then
        let hl : atLast (grid1.coords t) := (atLast_iff t).mpr h1
        (outOf (stepC (F := F) c t hf hl (blk V c 0 t) (blk V c 1 t) (blk V c 2 t) (blk V c 3 t) prev.2.1 prev.2.2).1,
         accOf (stepC (F := F) c t hf hl (blk V c 0 t) (blk V c 1 t) (blk V c 2 t) (blk V c 3 t) prev.2.1 prev.2.2).2.1,
         ssOf (stepC (F := F) c t hf hl (blk V c 0 t) (blk V c 1 t) (blk V c 2 t) (blk V c 3 t) prev.2.1 prev.2.2).2.2.1)
      else
        let hl : ¬atLast (grid1.coords t) := fun h => h1 ((atLast_iff t).mp h)
        (outOf [], accOf (stepB (F := F) c t hf hl (blk V c 0 t) (blk V c 1 t) (blk V c 2 t) (blk V c 3 t) prev.2.1 prev.2.2).1,
         ssOf (stepB (F := F) c t hf hl (blk V c 0 t) (blk V c 1 t) (blk V c 2 t) (blk V c 3 t) prev.2.1 prev.2.2).2.1)

/-- What the point before `t` left (for `t` not the first point). -/
abbrev prevAt (c : Dev nD) (t : Fin cfg1.N) : Vec F S1024x512 .f32 × Vec F S1024x512 .f32 × Vec F S1024x1 .f32 :=
  stateAt V c (t.val - 1) (Nat.lt_of_le_of_lt (Nat.sub_le _ _) t.isLt)

/-- At a first column tile. -/
theorem stateAt_first (c : Dev nD) (t : Fin cfg1.N) (h0 : t.val % 8 = 0) (hf : atFirst (grid1.coords t)) (hl : ¬atLast (grid1.coords t)) :
    stateAt V c t.val t.isLt
      = (outOf [], accOf (stepA (F := F) c t hf hl (blk V c 0 t) (blk V c 1 t) (blk V c 2 t) (blk V c 3 t)).1, ssOf (stepA (F := F) c t hf hl (blk V c 0 t) (blk V c 1 t) (blk V c 2 t) (blk V c 3 t)).2.1) := by
  obtain ⟨n, hn⟩ := t
  cases n with
  | zero => rfl
  | succ n => exact (dif_pos h0).trans rfl

/-- At a middle column tile. -/
theorem stateAt_middle (c : Dev nD) (t : Fin cfg1.N) (h0 : ¬t.val % 8 = 0) (h1 : ¬t.val % 8 = 7) (hf : ¬atFirst (grid1.coords t)) (hl : ¬atLast (grid1.coords t)) :
    stateAt V c t.val t.isLt
      = (outOf [], accOf (stepB (F := F) c t hf hl (blk V c 0 t) (blk V c 1 t) (blk V c 2 t) (blk V c 3 t) (prevAt V c t).2.1 (prevAt V c t).2.2).1,
         ssOf (stepB (F := F) c t hf hl (blk V c 0 t) (blk V c 1 t) (blk V c 2 t) (blk V c 3 t) (prevAt V c t).2.1 (prevAt V c t).2.2).2.1) := by
  obtain ⟨n, hn⟩ := t
  cases n with
  | zero => exact absurd (Nat.zero_mod _) h0
  | succ n => exact (dif_neg h0).trans ((dif_neg h1).trans rfl)

/-- At a last column tile. -/
theorem stateAt_last (c : Dev nD) (t : Fin cfg1.N) (h0 : ¬t.val % 8 = 0) (h1 : t.val % 8 = 7) (hf : ¬atFirst (grid1.coords t)) (hl : atLast (grid1.coords t)) :
    stateAt V c t.val t.isLt
      = (outOf (stepC (F := F) c t hf hl (blk V c 0 t) (blk V c 1 t) (blk V c 2 t) (blk V c 3 t) (prevAt V c t).2.1 (prevAt V c t).2.2).1,
         accOf (stepC (F := F) c t hf hl (blk V c 0 t) (blk V c 1 t) (blk V c 2 t) (blk V c 3 t) (prevAt V c t).2.1 (prevAt V c t).2.2).2.1,
         ssOf (stepC (F := F) c t hf hl (blk V c 0 t) (blk V c 1 t) (blk V c 2 t) (blk V c 3 t) (prevAt V c t).2.1 (prevAt V c t).2.2).2.2.1) := by
  obtain ⟨n, hn⟩ := t
  cases n with
  | zero => exact absurd (Nat.zero_mod _) h0
  | succ n => exact (dif_neg h0).trans ((dif_pos h1).trans rfl)

/-! ## The region's invariant between points -/

/-- Before position `n`: at the region's entry the class invariant (every scoped buffer at anything); afterwards the
    first region's staging buffers at anything, the two accumulators at what position `n - 1` left, and the generator
    register at some state. -/
def PhiS (c : Dev nD) : (n : ℕ) → n ≤ cfg1.N → sProp 𝕄
  | 0, _ => Pipeline.ΦA spec1 c
  | n + 1, hn => iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ (((c : Thread nD τ).loc cc1_scratch0) ↦{fullShare} (stateAt V c n hn).2.1) ∗ (((c : Thread nD τ).loc cc1_scratch1) ↦{fullShare} (stateAt V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ (((c : Thread nD τ).loc cc1_scratch0) ↦{fullShare} (stateAt V c n hn).2.1) ∗ (((c : Thread nD τ).loc cc1_scratch1) ↦{fullShare} (stateAt V c n hn).2.2)) ∗ (∃ r, prngReg c r)) := rfl

theorem PhiS_pos (c : Dev nD) (n : ℕ) (h : n ≤ cfg1.N) (hz : n ≠ 0) :
    PhiS V c n h = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ (((c : Thread nD τ).loc cc1_scratch0) ↦{fullShare} (stateAt V c (n - 1) (by omega)).2.1) ∗ (((c : Thread nD τ).loc cc1_scratch1) ↦{fullShare} (stateAt V c (n - 1) (by omega)).2.2)) ∗ (∃ r, prngReg c r)) := by
  cases n with
  | zero => exact absurd rfl hz
  | succ n => rfl

/-! ## The proof data -/

/-- The region's proof data on core `c`: the arrays as the region finds them; after the body each input's buffer at its
    block and the output's at `stateAt`'s first component; the invariant `PhiS`; the array the two value windows share
    held half and half; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (stateAt V c t.val t.isLt).1
  Φ t := PhiS V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
  owed _ := 0

theorem dat_A (c : Dev nD) (w : Fin cfg1.W) : (dat V c).A w = V c (Pipeline.arrRef spec1 w) := by dsimp only [dat]
theorem dat_after0 (c : Dev nD) (t : Fin cfg1.N) : (dat V c).after 0 t = blk V c 0 t := by dsimp only [dat]
theorem dat_after1 (c : Dev nD) (t : Fin cfg1.N) : (dat V c).after 1 t = blk V c 1 t := by dsimp only [dat]
theorem dat_after2 (c : Dev nD) (t : Fin cfg1.N) : (dat V c).after 2 t = blk V c 2 t := by dsimp only [dat]
theorem dat_after3 (c : Dev nD) (t : Fin cfg1.N) : (dat V c).after 3 t = blk V c 3 t := by dsimp only [dat]
theorem dat_after4 (c : Dev nD) (t : Fin cfg1.N) : (dat V c).after 4 t = (stateAt V c t.val t.isLt).1 := by dsimp only [dat]

theorem dat_Phi_castSucc (c : Dev nD) (t : Fin cfg1.N) : (dat V c).Φ t.castSucc = PhiS V c t.val (Nat.le_of_lt t.isLt) := by
  dsimp only [dat]; simp only [Fin.coe_castSucc]

/-- Each input's current staging buffer holds its block at every point, fetched there or not: between two fetches the
    block index does not move and the body leaves the block in place. -/
theorem before0 (c : Dev nD) (t : Fin cfg1.N) (d) : (dat V c).before 0 t d = blk V c 0 t :=
  ((dat V c).before_in_eq_fetched 0 rfl (fun _ => rfl) (fun _ _ _ => rfl) (fun t => by rw [dat_after0]; unfold Dat.blockOf blk; rw [dat_A]; try rfl) t d).trans
    (by unfold Dat.fetched Dat.blockOf blk; rw [dat_A]; try rfl)
theorem before1 (c : Dev nD) (t : Fin cfg1.N) (d) : (dat V c).before 1 t d = blk V c 1 t :=
  ((dat V c).before_in_eq_fetched 1 rfl (fun _ => rfl) (fun _ _ _ => rfl) (fun t => by rw [dat_after1]; unfold Dat.blockOf blk; rw [dat_A]; try rfl) t d).trans
    (by unfold Dat.fetched Dat.blockOf blk; rw [dat_A]; try rfl)
theorem before2 (c : Dev nD) (t : Fin cfg1.N) (d) : (dat V c).before 2 t d = blk V c 2 t :=
  ((dat V c).before_in_eq_fetched 2 rfl (fun _ => rfl) (fun _ _ _ => rfl) (fun t => by rw [dat_after2]; unfold Dat.blockOf blk; rw [dat_A]; try rfl) t d).trans
    (by unfold Dat.fetched Dat.blockOf blk; rw [dat_A]; try rfl)
theorem before3 (c : Dev nD) (t : Fin cfg1.N) (d) : (dat V c).before 3 t d = blk V c 3 t :=
  ((dat V c).before_in_eq_fetched 3 rfl (fun _ => rfl) (fun _ _ _ => rfl) (fun t => by rw [dat_after3]; unfold Dat.blockOf blk; rw [dat_A]; try rfl) t d).trans
    (by unfold Dat.fetched Dat.blockOf blk; rw [dat_A]; try rfl)

end Cert.KernelIdeal.Acc

end
-- ==== Proof.AccBody.lean ====
/-
  The second kernel region: the body obligation at every grid point, and the invariant at the region's two ends.

  At a point the closed forms of the two branch conditions say which of the three cases it is; the inputs' buffers hold
  their blocks; the invariant hands the body the two accumulators — at anything when the region is entered, else at
  what the point before left — and takes them back at this point's contents; the output block is handed back as found
  away from the last column tile and stored at it.
-/
import proofs.«178563_j25151328485711_1_alg».proof.Proof.Gen.KernelIdeal.Launch
import proofs.«178563_j25151328485711_1_alg».proof.Proof.Gen.KernelIdeal.Skeleton
import proofs.«178563_j25151328485711_1_alg».proof.Proof.Gen.KernelIdeal.Points
import proofs.«178563_j25151328485711_1_alg».proof.Proof.AccData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A scratch buffer whole at some contents, as a memref owned at some contents. -/
theorem any_acc (c : Dev nD) : (anyBuf (F := F) c cc1_scratch0 : sProp 𝕄) = iprop(∃ d, owns (c : Thread nD τ) mAcc fullShare d) := by
  simp only [mAcc, owns_whole]; rfl
theorem any_ss (c : Dev nD) : (anyBuf (F := F) c cc1_scratch1 : sProp 𝕄) = iprop(∃ d, owns (c : Thread nD τ) mSs fullShare d) := by
  simp only [mSs, owns_whole]; rfl
/-- A scratch buffer whole at named contents, as a memref owned at them. -/
theorem acc_pt (c : Dev nD) (X : Vec F S1024x512 .f32) :
    ((((c : Thread nD τ).loc cc1_scratch0) ↦{fullShare} X) : sProp 𝕄) = owns (c : Thread nD τ) mAcc fullShare X := by
  simp only [mAcc, owns_whole]
theorem ss_pt (c : Dev nD) (X : Vec F S1024x1 .f32) :
    ((((c : Thread nD τ).loc cc1_scratch1) ↦{fullShare} X) : sProp 𝕄) = owns (c : Thread nD τ) mSs fullShare X := by
  simp only [mSs, owns_whole]

/-- What the body is called with at point `t`: the invariant, the core's dues, every window's current buffer. -/
def bodyPre (c : Dev nD) (t : Fin cfg1.N) : sProp 𝕄 :=
  iprop((dat V c).Φ t.castSucc ∗ (dat V c).owesAt () t.castSucc
    ∗ (∃ d, owns (c : Thread nD τ) (mK t) fullShare ((dat V c).before 0 t d))
    ∗ (∃ d, owns (c : Thread nD τ) (mQ t) fullShare ((dat V c).before 1 t d))
    ∗ (∃ d, owns (c : Thread nD τ) (mVj t) fullShare ((dat V c).before 2 t d))
    ∗ (∃ d, owns (c : Thread nD τ) (mVi t) fullShare ((dat V c).before 3 t d))
    ∗ (∃ d, owns (c : Thread nD τ) (mO t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt N_eq
  rw [show (dat V c).leavesExact 0 t = owns (c : Thread nD τ) (mK t) fullShare ((dat V c).after 0 t) from by
    unfold Dat.leavesExact; rw [live0 t], dat_after0]
  rw [show (dat V c).leavesExact 1 t = owns (c : Thread nD τ) (mQ t) fullShare ((dat V c).after 1 t) from by
    unfold Dat.leavesExact; rw [live1 t], dat_after1]
  rw [show (dat V c).leavesExact 2 t = owns (c : Thread nD τ) (mVj t) fullShare ((dat V c).after 2 t) from by
    unfold Dat.leavesExact; rw [live2 t], dat_after2]
  rw [show (dat V c).leavesExact 3 t = owns (c : Thread nD τ) (mVi t) fullShare ((dat V c).after 3 t) from by
    unfold Dat.leavesExact; rw [live3 t], dat_after3]
  by_cases h0 : t.val % 8 = 0
  · -- the first column tile of a row tile
    have hf : atFirst (grid1.coords t) := (atFirst_iff t).mpr h0
    have hl : ¬atLast (grid1.coords t) := fun h => by have := (atLast_iff t).mp h; omega
    rw [Dat.leavesExact_idle (dat V c) 4 t (idleOut t hl) (noFlushOut t hl)]
    rw [stateAt_first V c t h0 hf hl]
    (try dsimp only)
    by_cases hz : t.val = 0
    · rw [dat_Phi_castSucc, PhiS_zero V c _ _ hz, PhiA_eq, any_acc, any_ss]
      iintro ⟨⟨⟨R1, R2, R3, R4, R5, R6, R7, R8, R9, R10, R11, R12, R13, R14, HS0, HS1⟩, Hg⟩, Ho, ⟨%d0, H0⟩, ⟨%d1, H1⟩, ⟨%d2, H2⟩, ⟨%d3, H3⟩, ⟨%d4, H4⟩⟩
      · iapply ((stepA (F := F) c t hf hl (blk V c 0 t) (blk V c 1 t) (blk V c 2 t) (blk V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%e7, HS0⟩, ⟨%e8, HS1⟩⟩
        isplitl [R1 R2 R3 R4 R5 R6 R7 R8 R9 R10 R11 R12 R13 R14 HS0 HS1 Hg]
        · isplitr [Hg]
          swap; · iexact Hg
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [HS0]
          · rw [acc_pt]; unfold owns; iexists _; isplitr
            swap; · iexact HS0
            ipureintro; exact View.read_writes_of_cover _ _ _ _ _ (coverA_acc (F := F) c t hf hl _ _ _ _)
          rw [ss_pt]; unfold owns; iexists _; isplitr
          swap; · iexact HS1
          ipureintro; exact View.read_writes_of_cover _ _ _ _ _ (coverA_ss (F := F) c t hf hl _ _ _ _)
        isplitl [Ho]; · iexact Ho
        isplitl [H0]; · iexact H0
        isplitl [H1]; · iexact H1
        isplitl [H2]; · iexact H2
        isplitl [H3]; · iexact H3
        iexists _; iexact H4
    · rw [dat_Phi_castSucc, PhiS_pos V c _ _ hz, acc_pt, ss_pt]
      iintro ⟨⟨⟨R1, R2, R3, R4, R5, R6, R7, R8, R9, R10, R11, R12, R13, R14, HS0, HS1⟩, Hg⟩, Ho, ⟨%d0, H0⟩, ⟨%d1, H1⟩, ⟨%d2, H2⟩, ⟨%d3, H3⟩, ⟨%d4, H4⟩⟩
      · iapply ((stepA (F := F) c t hf hl (blk V c 0 t) (blk V c 1 t) (blk V c 2 t) (blk V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%e7, HS0⟩, ⟨%e8, HS1⟩⟩
        isplitl [R1 R2 R3 R4 R5 R6 R7 R8 R9 R10 R11 R12 R13 R14 HS0 HS1 Hg]
        · isplitr [Hg]
          swap; · iexact Hg
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [HS0]
          · rw [acc_pt]; unfold owns; iexists _; isplitr
            swap; · iexact HS0
            ipureintro; exact View.read_writes_of_cover _ _ _ _ _ (coverA_acc (F := F) c t hf hl _ _ _ _)
          rw [ss_pt]; unfold owns; iexists _; isplitr
          swap; · iexact HS1
          ipureintro; exact View.read_writes_of_cover _ _ _ _ _ (coverA_ss (F := F) c t hf hl _ _ _ _)
        isplitl [Ho]; · iexact Ho
        isplitl [H0]; · iexact H0
        isplitl [H1]; · iexact H1
        isplitl [H2]; · iexact H2
        isplitl [H3]; · iexact H3
        iexists _; iexact H4
  · have hf : ¬atFirst (grid1.coords t) := fun h => h0 ((atFirst_iff t).mp h)
    have hz : t.val ≠ 0 := fun e => h0 (by rw [e])
    by_cases h1 : t.val % 8 = 7
    · -- the last column tile
      have hl : atLast (grid1.coords t) := (atLast_iff t).mpr h1
      rw [show (dat V c).leavesExact 4 t = owns (c : Thread nD τ) (mO t) fullShare ((dat V c).after 4 t) from by
        unfold Dat.leavesExact; rw [liveOut t hl], dat_after4]
      rw [stateAt_last V c t h0 h1 hf hl]
      (try dsimp only)
      rw [dat_Phi_castSucc, PhiS_pos V c _ _ hz, acc_pt, ss_pt]
      iintro ⟨⟨⟨R1, R2, R3, R4, R5, R6, R7, R8, R9, R10, R11, R12, R13, R14, HS0, HS1⟩, Hg⟩, Ho, ⟨%d0, H0⟩, ⟨%d1, H1⟩, ⟨%d2, H2⟩, ⟨%d3, H3⟩, ⟨%d4, H4⟩⟩
      · iapply ((stepC (F := F) c t hf hl (blk V c 0 t) (blk V c 1 t) (blk V c 2 t) (blk V c 3 t) (prevAt V c t).2.1 (prevAt V c t).2.2).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%e7, HS0⟩, ⟨%e8, HS1⟩⟩
        isplitl [R1 R2 R3 R4 R5 R6 R7 R8 R9 R10 R11 R12 R13 R14 HS0 HS1 Hg]
        · isplitr [Hg]
          swap; · iexact Hg
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [HS0]
          · rw [acc_pt]; unfold owns; iexists _; isplitr
            swap; · iexact HS0
            ipureintro; exact View.read_writes_of_cover _ _ _ _ _ (coverC_acc (F := F) c t hf hl _ _ _ _ _ _)
          rw [ss_pt]; unfold owns; iexists _; isplitr
          swap; · iexact HS1
          ipureintro; exact View.read_writes_of_cover _ _ _ _ _ (coverC_ss (F := F) c t hf hl _ _ _ _ _ _)
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverC_out (F := F) c t hf hl _ _ _ _ _ _)
    · -- a middle column tile
      have hl : ¬atLast (grid1.coords t) := fun h => h1 ((atLast_iff t).mp h)
      rw [Dat.leavesExact_idle (dat V c) 4 t (idleOut t hl) (noFlushOut t hl)]
      rw [stateAt_middle V c t h0 h1 hf hl]
      (try dsimp only)
      rw [dat_Phi_castSucc, PhiS_pos V c _ _ hz, acc_pt, ss_pt]
      iintro ⟨⟨⟨R1, R2, R3, R4, R5, R6, R7, R8, R9, R10, R11, R12, R13, R14, HS0, HS1⟩, Hg⟩, Ho, ⟨%d0, H0⟩, ⟨%d1, H1⟩, ⟨%d2, H2⟩, ⟨%d3, H3⟩, ⟨%d4, H4⟩⟩
      · iapply ((stepB (F := F) c t hf hl (blk V c 0 t) (blk V c 1 t) (blk V c 2 t) (blk V c 3 t) (prevAt V c t).2.1 (prevAt V c t).2.2).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%e7, HS0⟩, ⟨%e8, HS1⟩⟩
        isplitl [R1 R2 R3 R4 R5 R6 R7 R8 R9 R10 R11 R12 R13 R14 HS0 HS1 Hg]
        · isplitr [Hg]
          swap; · iexact Hg
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [HS0]
          · rw [acc_pt]; unfold owns; iexists _; isplitr
            swap; · iexact HS0
            ipureintro; exact View.read_writes_of_cover _ _ _ _ _ (coverB_acc (F := F) c t hf hl _ _ _ _ _ _)
          rw [ss_pt]; unfold owns; iexists _; isplitr
          swap; · iexact HS1
          ipureintro; exact View.read_writes_of_cover _ _ _ _ _ (coverB_ss (F := F) c t hf hl _ _ _ _ _ _)
        isplitl [Ho]; · iexact Ho
        isplitl [H0]; · iexact H0
        isplitl [H1]; · iexact H1
        isplitl [H2]; · iexact H2
        isplitl [H3]; · iexact H3
        iexists _; iexact H4

/-- The library's body obligation, at every point. -/
theorem obligation (c : Dev nD) : BodyObligation (dat (F := F) V c) (defs₀ (F := F)) Variants.none () Set.univ := fun t => by
  rw [bigSep_W1, bigSep_W1]
  exact sound_body V c t

/-- What the launch hands the region is the invariant before the first point. -/
theorem phi_in (c : Dev nD) : (Pipeline.ΦA spec1 c : sProp 𝕄) ⊢ (dat (F := F) V c).Φ 0 := by
  rw [show (dat V c).Φ 0 = PhiS V c 0 (Nat.zero_le _) from rfl, PhiS_zero V c 0 _ rfl]
  try exact Idealize.SL.BI.Entails.refl _

/-- After the last point the invariant gives the class invariant back: the accumulators' contents are forgotten. -/
theorem phi_out (c : Dev nD) : (dat (F := F) V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 64 := N_eq; omega), PhiA_eq]
  iintro ⟨⟨R1, R2, R3, R4, R5, R6, R7, R8, R9, R10, R11, R12, R13, R14, HS0, HS1⟩, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [HS0]; · iexists _; iexact HS0
  iexists _; iexact HS1

end Cert.KernelIdeal.Acc

end
-- ==== Proof.RunVals.lean ====
/-
  The whole program: what the core's buffers hold between its items, and the array two windows share.

  @main is a stretch of three reshapes, the projection region and the accumulation region.  Between items every unscoped
  buffer of a core is held at a valuation: the launch memory, then the reshapes' results, then the three projected arrays
  at what the first region's write-backs leave, then the result array at what the second region's write-backs leave.
  The second region reads the projected values array through TWO windows; at its entry the array's full share is dealt
  half to each, and at its exit the halves, which still hold the same contents, are joined again.
-/
import proofs.«178563_j25151328485711_1_alg».proof.Proof.Gen.KernelIdeal.Launch
import proofs.«178563_j25151328485711_1_alg».proof.Proof.Gen.KernelIdeal.Skeleton
import proofs.«178563_j25151328485711_1_alg».proof.Proof.Gen.KernelIdeal.Points
import proofs.«178563_j25151328485711_1_alg».proof.Proof.Gen.KernelIdeal.Regions
import proofs.«178563_j25151328485711_1_alg».proof.Proof.ProjFrame
import proofs.«178563_j25151328485711_1_alg».proof.Proof.AccBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents between items -/

/-- After the reshapes (the first region's entry), read at the TensorCore's references. -/
abbrev E1 : (c : Dev nD) → (b : Ref sig .tc) → Buf (Elt F) ((c : Thread nD τ).loc b) := fun c b => V1 m c b

/-- At the first region's exit: its arrays at what its write-backs leave, every other buffer as entered. -/
def W2 (c : Dev nD) : Valuation τ sig (Elt F) :=
  Pipeline.withArrays spec0 c (V1 m c) fun w => (Proj.dat (E1 m) c).arrAt w cfg0.N
theorem W2_arr (c : Dev nD) (w : Fin cfg0.W) :
    W2 m c (Proc.devRef .tc (Pipeline.arrRef spec0 w)) = (Proj.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
/-- The same read at the TensorCore's references (the second region's entry). -/
abbrev E2 : (c : Dev nD) → (b : Ref sig .tc) → Buf (Elt F) ((c : Thread nD τ).loc b) := fun c b => W2 m c b
theorem E2_arr (c : Dev nD) (w : Fin cfg0.W) : (Proj.dat (E1 m) c).arrAt w cfg0.N = E2 m c (Pipeline.arrRef spec0 w) :=
  (W2_arr m c w).symm
theorem E2_rest (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the second region's exit: the result array at what its write-backs leave, every other buffer as entered. -/
def W3 (c : Dev nD) : Valuation τ sig (Elt F) :=
  Function.update (W2 m c) main_v4 ((Acc.dat (E2 m) c).arrAt 4 cfg1.N)
abbrev E3 : (c : Dev nD) → (b : Ref sig .tc) → Buf (Elt F) ((c : Thread nD τ).loc b) := fun c b => W3 m c b
theorem E3_out (c : Dev nD) : E3 m c main_v4 = (Acc.dat (E2 m) c).arrAt 4 cfg1.N := by
  show W3 m c (Proc.devRef .tc main_v4) = _
  unfold W3; exact Function.update_self ..
theorem E3_of_ne (c : Dev nD) (b : Ref sig .tc) (hb : b ≠ main_v4) : E3 m c b = E2 m c b := by
  show W3 m c (Proc.devRef .tc b) = W2 m c (Proc.devRef .tc b)
  unfold W3; exact Function.update_of_ne (StableHlo.devRef_ne_of_ne hb) ..

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (E1 m) c
  | ⟨1, _⟩ => fun c => Acc.dat (E2 m) c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The array two windows share -/

/-- The second region's arrays at contents `G`, window by window: the keys, the queries, the values twice at half the
    full share each, the result. -/
theorem arrays1_eq (c : Dev nD) (G : (w : Fin cfg1.W) → Buf (Elt F) ((cfg1.win w).arr.view.loc (c : Thread nD τ))) :
    ((Acc.dat (E2 m) c).arrays G : sProp 𝕄)
      = iprop((((c : Thread nD τ).loc main_v3_0) ↦{fullShare} G 0) ∗ (((c : Thread nD τ).loc main_v3_1) ↦{fullShare} G 1)
          ∗ (((c : Thread nD τ).loc main_v3_2) ↦{fullShare.left} G 2) ∗ (((c : Thread nD τ).loc main_v3_2) ↦{fullShare.right} G 3)
          ∗ (((c : Thread nD τ).loc main_v4) ↦{fullShare} G 4)) := by
  unfold Dat.arrays
  rw [bigSep_W1, (arr_whole1 0).set_eq_univ, (arr_whole1 1).set_eq_univ, (arr_whole1 2).set_eq_univ, (arr_whole1 4).set_eq_univ]
  rfl

/-- The distinct buffers behind the second region's windows, one by one. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v3_0) ↦{fullShare} X main_v3_0) ∗ (((c : Thread nD τ).loc main_v3_1) ↦{fullShare} X main_v3_1)
          ∗ (((c : Thread nD τ).loc main_v3_2) ↦{fullShare} X main_v3_2) ∗ (((c : Thread nD τ).loc main_v4) ↦{fullShare} X main_v4)) := by
  unfold Pipeline.arrBufs
  exact bigSep_eq_bigSepL_of_eq [main_v3_0, main_v3_1, main_v3_2, main_v4] (by decide) (by decide) _

/-- ENTRY: a core's unscoped buffers at the second region's entry contents are its arrays at those contents, the shared
    array's share dealt half and half, and the unscoped rest. -/
theorem arrays_in1 (c : Dev nD) :
    (unscopedBufs c (E2 m c) : sProp 𝕄)
      ⊢ iprop((Acc.dat (E2 m) c).arrays ((Acc.dat (E2 m) c).arrAt · 0) ∗ Pipeline.unscopedRest spec1 c (E2 m c)) := by
  rw [Pipeline.unscopedBufs_split₀ (Pipeline.pin (pcfgs (F := F)) adm) 1 winFacts₀1.arr_unscoped c (E2 m c)]
  refine sep_mono ?_ .rfl
  show (Pipeline.arrBufs spec1 c (E2 m c) : sProp 𝕄) ⊢ _
  rw [arrBufs1_eq, arrays1_eq]
  iintro ⟨Hk, Hq, Hv, Ho⟩
  ihave Hv2 := (pointsTo_share (PosShare.mem_left_op_right fullShare)).1 $$ Hv
  icases Hv2 with ⟨Hl, Hr⟩
  isplitl [Hk]; · iexact Hk
  isplitl [Hq]; · iexact Hq
  isplitl [Hl]; · iexact Hl
  isplitl [Hr]; · iexact Hr
  iexact Ho

/-- EXIT: the arrays at what the region leaves — the inputs as entered, the halves of the shared array still at one
    contents, the result at its write-backs — and the unscoped rest are the core's unscoped buffers at the exit contents. -/
theorem arrays_out1 (c : Dev nD) :
    iprop((Acc.dat (E2 m) c).arrays ((Acc.dat (E2 m) c).arrAt · cfg1.N) ∗ Pipeline.unscopedRest spec1 c (E2 m c))
      ⊢ (unscopedBufs c (E3 m c) : sProp 𝕄) := by
  rw [Pipeline.unscopedBufs_split₀ (Pipeline.pin (pcfgs (F := F)) adm) 1 winFacts₀1.arr_unscoped c (E3 m c)]
  refine sep_mono ?_ (Entails.of_eq ?_)
  · show _ ⊢ (Pipeline.arrBufs spec1 c (E3 m c) : sProp 𝕄)
    rw [arrBufs1_eq, arrays1_eq,
      (Acc.dat (E2 m) c).arrAt_in 0 rfl _, (Acc.dat (E2 m) c).arrAt_in 1 rfl _, (Acc.dat (E2 m) c).arrAt_in 2 rfl _, (Acc.dat (E2 m) c).arrAt_in 3 rfl _,
      Acc.dat_A, Acc.dat_A, Acc.dat_A, Acc.dat_A, E3_out, E3_of_ne m c main_v3_0 (by decide), E3_of_ne m c main_v3_1 (by decide), E3_of_ne m c main_v3_2 (by decide)]
    iintro ⟨Hk, Hq, Hl, Hr, Ho⟩
    isplitl [Hk]; · iexact Hk
    isplitl [Hq]; · iexact Hq
    isplitl [Hl Hr]
    · iapply (pointsTo_share (PosShare.mem_left_op_right fullShare)).2
      isplitl [Hl]; · iexact Hl
      iexact Hr
    iexact Ho
  · unfold Pipeline.unscopedRest
    exact bigSep_congr fun b hb => by
      rw [E3_of_ne m c b (fun e => (Finset.mem_sdiff.mp hb).2 (Finset.mem_image.mpr ⟨4, Finset.mem_univ _, e.symm⟩))]

end Cert.KernelIdeal.Whole

end
-- ==== Proof.RunSegs.lean ====
/-
  The whole program: its two kernel regions as segments between the thread states of RunVals, and the run.

  Every weakly fair execution of @main from a memory with zero counters terminates without a fault, and in every final
  memory the result array holds what the second region's write-backs leave and every argument array what it held at
  launch.
-/
import proofs.«178563_j25151328485711_1_alg».proof.Proof.Gen.KernelIdeal.Launch
import proofs.«178563_j25151328485711_1_alg».proof.Proof.Gen.KernelIdeal.Skeleton
import proofs.«178563_j25151328485711_1_alg».proof.Proof.Gen.KernelIdeal.Points
import proofs.«178563_j25151328485711_1_alg».proof.Proof.RunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The reshapes as a segment: from every unscoped buffer at the launch contents, `R` riding along. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

/-- The last thread state without the dues: every unscoped buffer at the last contents, the generator register at some state. -/
abbrev Tₙ (c : Dev nD) : sProp 𝕄 := iprop(StableHlo.held (c : Thread nD τ) (Pipeline.ucRefs τ sig) (W3 m c) ∗ ∃ r, prngReg c r)

set_option backward.isDefEq.respectTransparency.types false in
/-- The projection region: entered from every unscoped buffer at the reshapes' results, left with its three result arrays at
    what its write-backs leave.  Its arrays are distinct, each held whole; the generator register goes into the class
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.obligation (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Proj.dat_Phi (E1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Proj.dat_Phi (E1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (E2_arr m c) (E2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulation region: entered from every unscoped buffer at the first region's exit contents, left with the result
    array at what its write-backs leave.  Two of its windows read one array: the entry deals that array's share between
    them and the exit joins the halves (RunVals); the rest as for the projection region. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Acc.obligation (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄)
        ⊢ iprop((pdats m 1 c).arrays ((pdats m 1 c).arrAt · 0) ∗ Pipeline.unscopedRest (Ix := Unit) (Name := ℕ) (U := UR sig nD τ) (Lvl := ℕ) spec1 c (E2 m c)) := arrays_in1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Acc.phi_in (E2 m) c)
    unfold Pipeline.ΦA
    iintro ⟨Hp, -, Hr⟩
    isplitl [Hr]; · iexact Hr
    iexact Hp
  hout c := by
    refine (show (pdats m 1 c).Φ (Fin.last (Pipeline.pin (pcfgs (F := F)) adm 1).N) ⊢ (Pipeline.ΦA spec1 c : sProp 𝕄) from Acc.phi_out (E2 m) c).trans ?_
    rw [Pipeline.ownSems0_none]; unfold Pipeline.ΦA
    iintro ⟨Hr, Hp⟩
    isplitl [Hp]; · iexact Hp
    isplitr; · iempintro
    iexact Hr
  hexit c := by
    have hjoin : iprop((pdats m 1 c).arrays ((pdats m 1 c).arrAt · (Pipeline.pin (pcfgs (F := F)) adm 1).N) ∗ Pipeline.unscopedRest (Ix := Unit) (Name := ℕ) (U := UR sig nD τ) (Lvl := ℕ) spec1 c (E2 m c))
        ⊢ (unscopedBufs c (E3 m c) : sProp 𝕄) := arrays_out1 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments in order. -/
abbrev segs : List (Pipeline.Seg (pcfgs (F := F)) adm (pdats m) () defs₀ 𝒱₀ L lv) :=
  [ .host (hseg0 m), .region (reg0 m), .region (reg1 m) ]

/-- @main IS the run of the segments. -/
theorem main_run (c : Dev nD) : main (F := F) c = Pipeline.Seg.run (segs m) := (main_chain c).trans (by chain_rfl)

/-- No host operation and no region writes an argument array: the last valuation at an argument is the launch memory. -/
theorem W3_arg (c : Dev nD) (b : Ref sig .tc) (h4 : b ≠ main_v4) (h0 : ∀ w, Pipeline.arrRef spec0 w ≠ b) (hh : b ∉ hostOps0_W) :
    W3 m c (Proc.devRef .tc b) = m ((c : Thread nD τ).loc b) :=
  (E3_of_ne m c b h4).trans ((W2_of_ne m c b h0).trans ((V1_of m c b hh).trans rfl))

/-- An argument the first region reads through an input window is not written there either: an input array ends as entered. -/
theorem W3_argIn (c : Dev nD) (w : Fin cfg0.W) (hin : (cfg0.win w).isOut = false) (h4 : Pipeline.arrRef spec0 w ≠ main_v4)
    (hh : Pipeline.arrRef spec0 w ∉ hostOps0_W) :
    W3 m c (Proc.devRef .tc (Pipeline.arrRef spec0 w)) = m ((c : Thread nD τ).loc (Pipeline.arrRef spec0 w)) :=
  (E3_of_ne m c _ h4).trans ((W2_arr m c w).trans (((Proj.dat (E1 m) c).arrAt_in w hin _).trans
    ((Proj.dat_A (E1 m) c w).trans ((V1_of m c _ hh).trans rfl))))

variable (ρ : Dev nD → PrngReg)

set_option backward.isDefEq.respectTransparency.types false in
/-- THE RUN. -/
theorem run : θ_run defs (onTc (τ := τ) (main (F := F))) ⟨m, fun _ => 0, ρ⟩ (fun r => ∀ c : Dev nD,
      r.2.mem ((c.tc : Thread nD τ).loc main_v4) = (Acc.dat (E2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v4 (by decide))).trans (E3_out m c),
       (h c _ (mem_uc main_arg0 (by decide))).trans (W3_argIn m c 0 rfl (by decide) (by decide)),
       (h c _ (mem_uc main_arg1 (by decide))).trans (W3_argIn m c 1 rfl (by decide) (by decide)),
       (h c _ (mem_uc main_arg2 (by decide))).trans (W3_arg m c main_arg2 (by decide) (by decide) (by decide)),
       (h c _ (mem_uc main_arg3 (by decide))).trans (W3_argIn m c 3 rfl (by decide) (by decide)),
       (h c _ (mem_uc main_arg4 (by decide))).trans (W3_arg m c main_arg4 (by decide) (by decide) (by decide)),
       (h c _ (mem_uc main_arg5 (by decide))).trans (W3_argIn m c 5 rfl (by decide) (by decide)),
       (h c _ (mem_uc main_arg6 (by decide))).trans (W3_arg m c main_arg6 (by decide) (by decide) (by decide))⟩)

end Cert.KernelIdeal.Whole

end
-- ==== Proof.KProjFrame.lean ====
/-
  The projection call (the first of the two kernels): on a grid of 8 row blocks it reads a block of 1024 rows
  of x and the three weight matrices with their biases, and writes the same 1024 rows of k = x·Wkᵀ + bk,
  q = x·Wqᵀ + bq and v = x·Wvᵀ + bv. Its body has one control path: seven whole-buffer loads, then for each
  output one whole-buffer store of a value computed from the loaded blocks only. So what the body leaves in
  an output's buffer is that value — whatever the buffer held —, and what it finds in an input's buffer is
  that input's block at the point, freshly fetched or not (the weights and biases have one block, fetched at
  the first point and kept).

  Everything here is stated at a PARAMETER V: the core's buffer contents when this call is entered.
-/
import proofs.«178563_j25151328485711_1_alg».proof.Proof.Gen.Kernel.Launch
import proofs.«178563_j25151328485711_1_alg».proof.Proof.Gen.Kernel.Skeleton
import proofs.«178563_j25151328485711_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the projection call is entered
variable (V : (c : Dev nD) → (b : Ref sig .tc) → Buf (Elt F) ((c : Thread nD τ).loc b))

/-! ## A window's block at a grid point -/

/-- The block of window w at point t, cut out of the window's array as the call finds it. For x and the three
    outputs that is rows 1024·t … 1024·t + 1023; for a weight matrix or a bias it is the whole array. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body on whole buffers -/

/-- Every access of the body is at offset (0, 0) and of the buffer's full extent. -/
theorem origin2 : (![0, 0] : Fin 2 → Nat) = fun _ => 0 := funext fun a => by fin_cases a <;> rfl

/-- One store of the full extent covers a 1024 × 128 buffer, -/
theorem covers_k (p : Vec F S1024x128 .bf16) (y : S1024x128.Idx) :
    ∃ pc ∈ ([⟨Rect.unit (s := S1024x128) ![0, 0] S1024x128.size inb_S1024x128_S1024x128_0_0, p⟩] : List (View.Piece (Elt F) S1024x128 .bf16)), y ∈ pc.1.set :=
  View.cover_of_tiled [⟨Rect.unit (s := S1024x128) ![0, 0] S1024x128.size inb_S1024x128_S1024x128_0_0, p⟩] S1024x128.size (by rfl) y

/-- and a 1024 × 512 one. -/
theorem covers_v (p : Vec F S1024x512 .f32) (y : S1024x512.Idx) :
    ∃ pc ∈ ([⟨Rect.unit (s := S1024x512) ![0, 0] S1024x512.size inb_S1024x512_S1024x512_0_0, p⟩] : List (View.Piece (Elt F) S1024x512 .f32)), y ∈ pc.1.set :=
  View.cover_of_tiled [⟨Rect.unit (s := S1024x512) ![0, 0] S1024x512.size inb_S1024x512_S1024x512_0_0, p⟩] S1024x512.size (by rfl) y

/-- A load of the full extent at the origin reads the buffer's whole contents. -/
theorem load_all {S : Shape} {e : EltTy} (hS : S.rank = 2) {κ : Kind} {sp : Space} (v : View sig κ sp S e) (f : v.ty.Contents (Elt F))
    (off : Fin S.rank → Nat) (hoff : off = fun _ => 0) (inb : ∀ a, off a + S.size a ≤ S.size a) :
    View.readAt (Elt F) v (Rect.unit off S.size inb).toLoadRect f = View.read (Elt F) v f :=
  show View.ld (View.read (Elt F) v f) (Rect.unit off S.size inb) = _ from View.ld_unit_zero (S := S) hoff inb _

set_option maxHeartbeats 4000000 in
/-- The body run on ten whole buffers: the seven inputs hold x0 … x6 and keep them; the three outputs hold anything
    and end holding the three projections of the inputs' contents. -/
theorem body_run (c : Dev nD) (E : Set ℕ) (i : grid0.Coords)
    (a0 : Memref sig .tc .vmem S1024x512 .f32) (h0 : a0.IsWhole) (a1 : Memref sig .tc .vmem S128x512 .f32) (h1 : a1.IsWhole)
    (a2 : Memref sig .tc .vmem S1x128 .f32) (h2 : a2.IsWhole) (a3 : Memref sig .tc .vmem S128x512 .f32) (h3 : a3.IsWhole)
    (a4 : Memref sig .tc .vmem S1x128 .f32) (h4 : a4.IsWhole) (a5 : Memref sig .tc .vmem S512x512 .f32) (h5 : a5.IsWhole)
    (a6 : Memref sig .tc .vmem S1x512 .f32) (h6 : a6.IsWhole) (a7 : Memref sig .tc .vmem S1024x128 .bf16) (h7 : a7.IsWhole)
    (a8 : Memref sig .tc .vmem S1024x128 .bf16) (h8 : a8.IsWhole) (a9 : Memref sig .tc .vmem S1024x512 .f32) (h9 : a9.IsWhole)
    (x0 : Vec F S1024x512 .f32) (x1 : Vec F S128x512 .f32) (x2 : Vec F S1x128 .f32) (x3 : Vec F S128x512 .f32)
    (x4 : Vec F S1x128 .f32) (x5 : Vec F S512x512 .f32) (x6 : Vec F S1x512 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6
        ∗ (∃ d, owns (c : Thread nD τ) a7 fullShare d) ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6
            ∗ owns (c : Thread nD τ) a7 fullShare (k0_pay3 x0 x1 x2) ∗ owns (c : Thread nD τ) a8 fullShare (k0_pay4 x0 x3 x4)
            ∗ owns (c : Thread nD τ) a9 fullShare (k0_pay2 x0 x5 x6)) -∗ K ⟨⟩))
      ⊢ wp frame (wpE (defs₀ (F := F)) Variants.none c none) E (cc0_proj_kernel i a0 h0 a1 h1 a2 h2 a3 h3 a4 h4 a5 h5 a6 h6 a7 h7 a8 h8 a9 h9) K := by
  simp only [cc0_proj_kernel_eq_skeleton]; unfold cc0_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  -- the loads read the inputs' whole contents
  have e0 := load_all (F := F) rfl a0.view f0 ![0, 0] origin2 inb_S1024x512_S1024x512_0_0
  have e1 := load_all (F := F) rfl a1.view f1 ![0, 0] origin2 inb_S128x512_S128x512_0_0
  have e2 := load_all (F := F) rfl a2.view f2 ![0, 0] origin2 inb_S1x128_S1x128_0_0
  have e3 := load_all (F := F) rfl a3.view f3 ![0, 0] origin2 inb_S128x512_S128x512_0_0
  have e4 := load_all (F := F) rfl a4.view f4 ![0, 0] origin2 inb_S1x128_S1x128_0_0
  have e5 := load_all (F := F) rfl a5.view f5 ![0, 0] origin2 inb_S512x512_S512x512_0_0
  have e6 := load_all (F := F) rfl a6.view f6 ![0, 0] origin2 inb_S1x512_S1x512_0_0
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (covers_k _)).trans ?_
    refine (View.canon_unit_zero origin2 _ _).trans ?_
    rw [e0, e1, e2]
  isplitl [H8]
  · iexists _; isplitr
    swap; · iexact H8
    ipureintro
    refine (View.read_writes_eq_canon _ _ _ (covers_k _)).trans ?_
    refine (View.canon_unit_zero origin2 _ _).trans ?_
    rw [e0, e3, e4]
  iexists _; isplitr
  swap; · iexact H9
  ipureintro
  refine (View.read_writes_eq_canon _ _ _ (covers_v _)).trans ?_
  refine (View.canon_unit_zero origin2 _ _).trans ?_
  rw [e0, e5, e6]

/-! ## The proof data of the call -/

/-- On core c: the arrays as the call finds them; after the body at point t every input's buffer still at its block
    and the three outputs' at the projections of the blocks of x, of the weight matrix and of the bias; the scoped
    rest and the generator register untouched; full shares; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => k0_pay3 (blk V c 0 t) (blk V c 1 t) (blk V c 2 t)
    | ⟨8, _⟩ => k0_pay4 (blk V c 0 t) (blk V c 3 t) (blk V c 4 t)
    | ⟨9, _⟩ => k0_pay2 (blk V c 0 t) (blk V c 5 t) (blk V c 6 t)
  Φ _ := Pipeline.ΦA spec0 c
  q _ := fullShare
  owed _ := 0

/-- The arrays of the proof data are the entry contents. -/
theorem dat_A (c : Dev nD) (w : Fin cfg0.W) : (dat V c).A w = V c (Pipeline.arrRef spec0 w) := by
  dsimp only [dat]

/-- The invariant is the same at every point. -/
theorem dat_Phi (c : Dev nD) (t : Fin (cfg0.N + 1)) : (dat (F := F) V c).Φ t = Pipeline.ΦA spec0 c := rfl

/-- What the body leaves in the three outputs' buffers: k, q and v of the blocks at the point. -/
theorem dat_after_k (c : Dev nD) (t : Fin cfg0.N) : (dat V c).after 7 t = k0_pay3 (blk V c 0 t) (blk V c 1 t) (blk V c 2 t) := by dsimp only [dat]
theorem dat_after_q (c : Dev nD) (t : Fin cfg0.N) : (dat V c).after 8 t = k0_pay4 (blk V c 0 t) (blk V c 3 t) (blk V c 4 t) := by dsimp only [dat]
theorem dat_after_v (c : Dev nD) (t : Fin cfg0.N) : (dat V c).after 9 t = k0_pay2 (blk V c 0 t) (blk V c 5 t) (blk V c 6 t) := by dsimp only [dat]

/-- The inputs' buffers are left as found. -/
theorem dat_after_in0 (c : Dev nD) (t : Fin cfg0.N) : (dat V c).after 0 t = blk V c 0 t := by dsimp only [dat]
theorem dat_after_in1 (c : Dev nD) (t : Fin cfg0.N) : (dat V c).after 1 t = blk V c 1 t := by dsimp only [dat]
theorem dat_after_in2 (c : Dev nD) (t : Fin cfg0.N) : (dat V c).after 2 t = blk V c 2 t := by dsimp only [dat]
theorem dat_after_in3 (c : Dev nD) (t : Fin cfg0.N) : (dat V c).after 3 t = blk V c 3 t := by dsimp only [dat]
theorem dat_after_in4 (c : Dev nD) (t : Fin cfg0.N) : (dat V c).after 4 t = blk V c 4 t := by dsimp only [dat]
theorem dat_after_in5 (c : Dev nD) (t : Fin cfg0.N) : (dat V c).after 5 t = blk V c 5 t := by dsimp only [dat]
theorem dat_after_in6 (c : Dev nD) (t : Fin cfg0.N) : (dat V c).after 6 t = blk V c 6 t := by dsimp only [dat]

/-- An input's buffer holds its block at every point, fetched there or not: where it is not fetched its block index has
    not moved since the point before, and the body left the block in place. -/
theorem before_0 (c : Dev nD) (t : Fin cfg0.N) (d) : (dat V c).before 0 t d = blk V c 0 t :=
  ((dat V c).before_in_eq_fetched 0 rfl (fun _ => rfl) (fun _ _ _ => rfl)
    (fun t => by rw [dat_after_in0]; unfold Dat.blockOf blk; rw [dat_A]; try rfl) t d).trans
    (by unfold Dat.fetched Dat.blockOf blk; rw [dat_A]; try rfl)
theorem before_1 (c : Dev nD) (t : Fin cfg0.N) (d) : (dat V c).before 1 t d = blk V c 1 t :=
  ((dat V c).before_in_eq_fetched 1 rfl (fun _ => rfl) (fun _ _ _ => rfl)
    (fun t => by rw [dat_after_in1]; unfold Dat.blockOf blk; rw [dat_A]; try rfl) t d).trans
    (by unfold Dat.fetched Dat.blockOf blk; rw [dat_A]; try rfl)
theorem before_2 (c : Dev nD) (t : Fin cfg0.N) (d) : (dat V c).before 2 t d = blk V c 2 t :=
  ((dat V c).before_in_eq_fetched 2 rfl (fun _ => rfl) (fun _ _ _ => rfl)
    (fun t => by rw [dat_after_in2]; unfold Dat.blockOf blk; rw [dat_A]; try rfl) t d).trans
    (by unfold Dat.fetched Dat.blockOf blk; rw [dat_A]; try rfl)
theorem before_3 (c : Dev nD) (t : Fin cfg0.N) (d) : (dat V c).before 3 t d = blk V c 3 t :=
  ((dat V c).before_in_eq_fetched 3 rfl (fun _ => rfl) (fun _ _ _ => rfl)
    (fun t => by rw [dat_after_in3]; unfold Dat.blockOf blk; rw [dat_A]; try rfl) t d).trans
    (by unfold Dat.fetched Dat.blockOf blk; rw [dat_A]; try rfl)
theorem before_4 (c : Dev nD) (t : Fin cfg0.N) (d) : (dat V c).before 4 t d = blk V c 4 t :=
  ((dat V c).before_in_eq_fetched 4 rfl (fun _ => rfl) (fun _ _ _ => rfl)
    (fun t => by rw [dat_after_in4]; unfold Dat.blockOf blk; rw [dat_A]; try rfl) t d).trans
    (by unfold Dat.fetched Dat.blockOf blk; rw [dat_A]; try rfl)
theorem before_5 (c : Dev nD) (t : Fin cfg0.N) (d) : (dat V c).before 5 t d = blk V c 5 t :=
  ((dat V c).before_in_eq_fetched 5 rfl (fun _ => rfl) (fun _ _ _ => rfl)
    (fun t => by rw [dat_after_in5]; unfold Dat.blockOf blk; rw [dat_A]; try rfl) t d).trans
    (by unfold Dat.fetched Dat.blockOf blk; rw [dat_A]; try rfl)
theorem before_6 (c : Dev nD) (t : Fin cfg0.N) (d) : (dat V c).before 6 t d = blk V c 6 t :=
  ((dat V c).before_in_eq_fetched 6 rfl (fun _ => rfl) (fun _ _ _ => rfl)
    (fun t => by rw [dat_after_in6]; unfold Dat.blockOf blk; rw [dat_A]; try rfl) t d).trans
    (by unfold Dat.fetched Dat.blockOf blk; rw [dat_A]; try rfl)

/-! ## The body at a grid point -/

/-- What the body is handed at point t, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

set_option maxHeartbeats 4000000 in
/-- The body at any point: the inputs' buffers hold their blocks, so the run above applies; the invariant and what
    the core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    dat_after_in0, dat_after_in1, dat_after_in2, dat_after_in3, dat_after_in4, dat_after_in5, dat_after_in6,
    dat_after_k, dat_after_q, dat_after_v]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c Set.univ _ _ _ _ _ _ _ _ _ _ _ _ _ _ _ _ _ _ _ _ _
    (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation for the body, at every point. -/
theorem obligation (c : Dev nD) : BodyObligation (dat (F := F) V c) (defs₀ (F := F)) Variants.none () Set.univ := fun t => by
  rw [bigSep_W0, bigSep_W0]
  exact body_at V c t

end Cert.Kernel.Proj

end
-- ==== Proof.KAccShared.lean ====
/-
  The second kernel region: what its three control cases share.

  The region's grid is 8 × 8, point `t` at row tile `t / 8` and column tile `t % 8`.  The body zeroes its two
  accumulators at the first column tile of a row tile, adds the tile's contribution at every column tile, and at the last
  column tile divides and stores the output block, which is idle at the other seven.  Here: the two branch conditions
  in closed form over the grid, where the output window is idle and where it is written back, the staging and scratch
  memrefs as the pipeline passes them, and the scoped buffers the body does not touch.
-/
import proofs.«178563_j25151328485711_1_alg».proof.Proof.Gen.Kernel.Launch
import proofs.«178563_j25151328485711_1_alg».proof.Proof.Gen.Kernel.Skeleton
import proofs.«178563_j25151328485711_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The point is at the first column tile of its row tile (the printed scalar chain of the first conditional). -/
abbrev atFirst (i : grid1.Coords) : Prop :=
  (Scalar.cmpi .ne (Scalar.extui (Scalar.cmpi .eq (BitVec.ofNat 32 (i 1).val) 0#32)) 0#32) = 1#1
/-- It holds at the points ≡ 0 (mod 8). -/
theorem atFirst_iff : ∀ t : Fin cfg1.N, atFirst (grid1.coords t) ↔ t.val % 8 = 0 :=
  (by decide +kernel : ∀ t : Fin grid1.N, atFirst (grid1.coords t) ↔ t.val % 8 = 0)

/-- The point is at the last column tile of its row tile (the second conditional). -/
abbrev atLast (i : grid1.Coords) : Prop := k1_cond2 i = 1#1
/-- It holds at the points ≡ 7 (mod 8). -/
theorem atLast_iff : ∀ t : Fin cfg1.N, atLast (grid1.coords t) ↔ t.val % 8 = 7 :=
  (by decide +kernel : ∀ t : Fin grid1.N, atLast (grid1.coords t) ↔ t.val % 8 = 7)

/-- The grid has 64 points. -/
theorem N_eq : cfg1.N = 64 := N_1

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
/-- Away from the last column tile the output block is idle: nothing is stored into it. -/
theorem idleOut : ∀ t : Fin cfg1.N, ¬atLast (grid1.coords t) → cfg1.idle 4 (grid1.coords t) = true := by decide +kernel
/-- and it is not written back there. -/
theorem noFlushOut : ∀ t : Fin cfg1.N, ¬atLast (grid1.coords t) → (cfg1.win 4).flush t = false := by decide +kernel
/-- At the last column tile it is live. -/
theorem liveOut : ∀ t : Fin cfg1.N, atLast (grid1.coords t) → cfg1.idle 4 (grid1.coords t) = false := by decide +kernel

/-! ## The memrefs the body is called with -/

abbrev mK (t : Fin cfg1.N) : Memref sig .tc .vmem S1024x128 .bf16 := win1_0.stage (cfg1.slots t 0)
abbrev hK (t : Fin cfg1.N) : (mK t).IsWhole := hstage1_0 ((cfg1.slots t 0).cast nbuf1_0)
abbrev mQ (t : Fin cfg1.N) : Memref sig .tc .vmem S1024x128 .bf16 := win1_1.stage (cfg1.slots t 1)
abbrev hQ (t : Fin cfg1.N) : (mQ t).IsWhole := hstage1_1 ((cfg1.slots t 1).cast nbuf1_1)
abbrev mVj (t : Fin cfg1.N) : Memref sig .tc .vmem S1024x512 .f32 := win1_2.stage (cfg1.slots t 2)
abbrev hVj (t : Fin cfg1.N) : (mVj t).IsWhole := hstage1_2 ((cfg1.slots t 2).cast nbuf1_2)
abbrev mVi (t : Fin cfg1.N) : Memref sig .tc .vmem S1024x512 .f32 := win1_3.stage (cfg1.slots t 3)
abbrev hVi (t : Fin cfg1.N) : (mVi t).IsWhole := hstage1_3 ((cfg1.slots t 3).cast nbuf1_3)
abbrev mO (t : Fin cfg1.N) : Memref sig .tc .vmem S1024x512 .f32 := win1_4.stage (cfg1.slots t 4)
abbrev hO (t : Fin cfg1.N) : (mO t).IsWhole := hstage1_4 ((cfg1.slots t 4).cast nbuf1_4)
/-- The accumulator of the scores-times-values product, and of the rows' sums of squares: scoped buffers of the kernel's own. -/
abbrev mAcc : Memref sig .tc .vmem S1024x512 .f32 := Memref.whole cc1_scratch0
abbrev mSs : Memref sig .tc .vmem S1024x1 .f32 := Memref.whole cc1_scratch1
/-- Views through which the buffers' contents are stated. -/
abbrev vAcc : View sig .tc .vmem S1024x512 .f32 := mAcc.view
abbrev vSs : View sig .tc .vmem S1024x1 .f32 := mSs.view
abbrev vO : View sig .tc .vmem S1024x512 .f32 := (Memref.whole cc1_stg4_0 : Memref sig .tc .vmem S1024x512 .f32).view

/-! ## The scoped buffers the body does not touch -/

/-- A scoped buffer whole at some contents. -/
abbrev anyBuf (c : Dev nD) (b : Ref sig .tc) : sProp 𝕄 :=
  iprop(∃ f : Buf (Elt F) ((c : Thread nD τ).loc b), ((c : Thread nD τ).loc b) ↦{fullShare} f)

/-- The region's class invariant, the scoped buffers one by one: the first region's fourteen staging buffers at anything,
    the two accumulators at anything, and the generator register at some state. -/
theorem PhiA_eq (c : Dev nD) :
    (Pipeline.ΦA spec1 c : sProp 𝕄)
      = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ anyBuf (F := F) c cc1_scratch0 ∗ anyBuf (F := F) c cc1_scratch1) ∗ (∃ r, prngReg c r)) := by
  unfold Pipeline.ΦA; rw [scopedRest1_eq]

end Cert.Kernel.Acc

end
-- ==== Proof.KAccRunA.lean ====
/-
  The second kernel's body in one of its three control cases, run on whole memrefs.
-/
import proofs.«178563_j25151328485711_1_alg».proof.Proof.Gen.Kernel.Launch
import proofs.«178563_j25151328485711_1_alg».proof.Proof.Gen.Kernel.Skeleton
import proofs.«178563_j25151328485711_1_alg».proof.Proof.Gen.Kernel.Points
import proofs.«178563_j25151328485711_1_alg».proof.Proof.KAccShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the FIRST column tile of a row tile (and not the last): both accumulators are zeroed and then take this tile's
    contribution; the output block is left as found.
    What the stores leave in each stored buffer is a list of pieces, last first, which the run of the body finds;
    the statement is that list together with the body's triple: from the four input blocks at their contents, the output
    block and the accumulators as the case finds them, the body runs to the continuation with the inputs as they were and
    each stored buffer at its pieces written over what it held. -/
noncomputable def runA (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x1 .f32) (harg8 : arg8.IsWhole) (hf : atFirst i) (hl : ¬atLast i)
    (xk : Vec F S1024x128 .bf16) (xq : Vec F S1024x128 .bf16) (xvj : Vec F S1024x512 .f32) (xvi : Vec F S1024x512 .f32) :
    Σ' (LA : List (View.Piece (Elt F) S1024x512 .f32)), { LS : List (View.Piece (Elt F) S1024x1 .f32) //
      ∀ (xo : Vec F S1024x512 .f32) (E : Set ℕ) (K : PUnit → sProp 𝕄),
        iprop(owns (c : Thread nD τ) arg2 fullShare xk ∗ owns (c : Thread nD τ) arg3 fullShare xq ∗ owns (c : Thread nD τ) arg4 fullShare xvj ∗ owns (c : Thread nD τ) arg5 fullShare xvi ∗ owns (c : Thread nD τ) arg6 fullShare xo ∗ (∃ d, owns (c : Thread nD τ) arg7 fullShare d) ∗ (∃ d, owns (c : Thread nD τ) arg8 fullShare d)
            ∗ (iprop(owns (c : Thread nD τ) arg2 fullShare xk ∗ owns (c : Thread nD τ) arg3 fullShare xq ∗ owns (c : Thread nD τ) arg4 fullShare xvj ∗ owns (c : Thread nD τ) arg5 fullShare xvi ∗ owns (c : Thread nD τ) arg6 fullShare xo ∗ (∃ f, arg7.view.loc (c : Thread nD τ) ↦[arg7.view.set]{fullShare} arg7.view.writes (Elt F) f LA) ∗ (∃ f, arg8.view.loc (c : Thread nD τ) ↦[arg8.view.set]{fullShare} arg8.view.writes (Elt F) f LS)) -∗ K ⟨⟩))
          ⊢ wp frame (wpE (defs₀ (F := F)) Variants.none c none) E (cc1_attn_kernel i arg2 harg2 arg3 harg3 arg4 harg4 arg5 harg5 arg6 harg6 arg7 harg7 arg8 harg8) K } := by
  refine ⟨?_, ?_, fun xo E K => ?run⟩
  case run =>
    simp only [cc1_attn_kernel_eq_skeleton]; unfold cc1_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf2; obtain rfl := harg3.eq_unread hf3; obtain rfl := harg4.eq_unread hf4; obtain rfl := harg5.eq_unread hf5; obtain rfl := harg6.eq_unread hf6
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

end Cert.Kernel.Acc

end
-- ==== Proof.KAccRunB.lean ====
/-
  The second kernel's body in one of its three control cases, run on whole memrefs.
-/
import proofs.«178563_j25151328485711_1_alg».proof.Proof.Gen.Kernel.Launch
import proofs.«178563_j25151328485711_1_alg».proof.Proof.Gen.Kernel.Skeleton
import proofs.«178563_j25151328485711_1_alg».proof.Proof.Gen.Kernel.Points
import proofs.«178563_j25151328485711_1_alg».proof.Proof.KAccShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a MIDDLE column tile of a row tile: both accumulators, at what the tile before left, take this tile's contribution;
    the output block is left as found.
    What the stores leave in each stored buffer is a list of pieces, last first, which the run of the body finds;
    the statement is that list together with the body's triple: from the four input blocks at their contents, the output
    block and the accumulators as the case finds them, the body runs to the continuation with the inputs as they were and
    each stored buffer at its pieces written over what it held. -/
noncomputable def runB (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x1 .f32) (harg8 : arg8.IsWhole) (hf : ¬atFirst i) (hl : ¬atLast i)
    (xk : Vec F S1024x128 .bf16) (xq : Vec F S1024x128 .bf16) (xvj : Vec F S1024x512 .f32) (xvi : Vec F S1024x512 .f32) (xa : Vec F S1024x512 .f32) (xs : Vec F S1024x1 .f32) :
    Σ' (LA : List (View.Piece (Elt F) S1024x512 .f32)), { LS : List (View.Piece (Elt F) S1024x1 .f32) //
      ∀ (xo : Vec F S1024x512 .f32) (E : Set ℕ) (K : PUnit → sProp 𝕄),
        iprop(owns (c : Thread nD τ) arg2 fullShare xk ∗ owns (c : Thread nD τ) arg3 fullShare xq ∗ owns (c : Thread nD τ) arg4 fullShare xvj ∗ owns (c : Thread nD τ) arg5 fullShare xvi ∗ owns (c : Thread nD τ) arg6 fullShare xo ∗ owns (c : Thread nD τ) arg7 fullShare xa ∗ owns (c : Thread nD τ) arg8 fullShare xs
            ∗ (iprop(owns (c : Thread nD τ) arg2 fullShare xk ∗ owns (c : Thread nD τ) arg3 fullShare xq ∗ owns (c : Thread nD τ) arg4 fullShare xvj ∗ owns (c : Thread nD τ) arg5 fullShare xvi ∗ owns (c : Thread nD τ) arg6 fullShare xo ∗ (∃ f, arg7.view.loc (c : Thread nD τ) ↦[arg7.view.set]{fullShare} arg7.view.writes (Elt F) f LA) ∗ (∃ f, arg8.view.loc (c : Thread nD τ) ↦[arg8.view.set]{fullShare} arg8.view.writes (Elt F) f LS)) -∗ K ⟨⟩))
          ⊢ wp frame (wpE (defs₀ (F := F)) Variants.none c none) E (cc1_attn_kernel i arg2 harg2 arg3 harg3 arg4 harg4 arg5 harg5 arg6 harg6 arg7 harg7 arg8 harg8) K } := by
  refine ⟨?_, ?_, fun xo E K => ?run⟩
  case run =>
    simp only [cc1_attn_kernel_eq_skeleton]; unfold cc1_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

end Cert.Kernel.Acc

end
-- ==== Proof.KAccRunC.lean ====
/-
  The second kernel's body in one of its three control cases, run on whole memrefs.
-/
import proofs.«178563_j25151328485711_1_alg».proof.Proof.Gen.Kernel.Launch
import proofs.«178563_j25151328485711_1_alg».proof.Proof.Gen.Kernel.Skeleton
import proofs.«178563_j25151328485711_1_alg».proof.Proof.Gen.Kernel.Points
import proofs.«178563_j25151328485711_1_alg».proof.Proof.KAccShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the LAST column tile of a row tile (and not the first): both accumulators, at what the tile before left, take this
    tile's contribution, and the output block is stored from them.
    What the stores leave in each stored buffer is a list of pieces, last first, which the run of the body finds;
    the statement is that list together with the body's triple: from the four input blocks at their contents, the output
    block and the accumulators as the case finds them, the body runs to the continuation with the inputs as they were and
    each stored buffer at its pieces written over what it held. -/
noncomputable def runC (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x1 .f32) (harg8 : arg8.IsWhole) (hf : ¬atFirst i) (hl : atLast i)
    (xk : Vec F S1024x128 .bf16) (xq : Vec F S1024x128 .bf16) (xvj : Vec F S1024x512 .f32) (xvi : Vec F S1024x512 .f32) (xa : Vec F S1024x512 .f32) (xs : Vec F S1024x1 .f32) :
    Σ' (LO : List (View.Piece (Elt F) S1024x512 .f32)) (LA : List (View.Piece (Elt F) S1024x512 .f32)), { LS : List (View.Piece (Elt F) S1024x1 .f32) //
      ∀ (E : Set ℕ) (K : PUnit → sProp 𝕄),
        iprop(owns (c : Thread nD τ) arg2 fullShare xk ∗ owns (c : Thread nD τ) arg3 fullShare xq ∗ owns (c : Thread nD τ) arg4 fullShare xvj ∗ owns (c : Thread nD τ) arg5 fullShare xvi ∗ (∃ d, owns (c : Thread nD τ) arg6 fullShare d) ∗ owns (c : Thread nD τ) arg7 fullShare xa ∗ owns (c : Thread nD τ) arg8 fullShare xs
            ∗ (iprop(owns (c : Thread nD τ) arg2 fullShare xk ∗ owns (c : Thread nD τ) arg3 fullShare xq ∗ owns (c : Thread nD τ) arg4 fullShare xvj ∗ owns (c : Thread nD τ) arg5 fullShare xvi ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LA) ∗ (∃ f, arg8.view.loc (c : Thread nD τ) ↦[arg8.view.set]{fullShare} arg8.view.writes (Elt F) f LS)) -∗ K ⟨⟩))
          ⊢ wp frame (wpE (defs₀ (F := F)) Variants.none c none) E (cc1_attn_kernel i arg2 harg2 arg3 harg3 arg4 harg4 arg5 harg5 arg6 harg6 arg7 harg7 arg8 harg8) K } := by
  refine ⟨?_, ?_, ?_, fun E K => ?run⟩
  case run =>
    simp only [cc1_attn_kernel_eq_skeleton]; unfold cc1_attn_kernel_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

end Cert.Kernel.Acc

end
-- ==== Proof.KAccData.lean ====
/-
  The second kernel region: what the accumulators and the output block hold after every grid point, and the region's
  proof data.

  Row tile `t / 8` is processed in eight consecutive points.  After point `t` the product accumulator holds the sum of
  the contributions of column tiles `0 … t % 8` of that row tile and the squares accumulator the sum of their rows' squares
  (`stateAt`, by recursion on the point: the first column tile starts from zero, every other from what the point
  before left); the output block holds, after the last column tile, the quotient plus the residual block, and is idle
  before.  Between points the region keeps the two accumulators at those contents (`PhiS`).
-/
import proofs.«178563_j25151328485711_1_alg».proof.Proof.Gen.Kernel.Launch
import proofs.«178563_j25151328485711_1_alg».proof.Proof.Gen.Kernel.Skeleton
import proofs.«178563_j25151328485711_1_alg».proof.Proof.Gen.Kernel.Points
import proofs.«178563_j25151328485711_1_alg».proof.Proof.KAccRunA
import proofs.«178563_j25151328485711_1_alg».proof.Proof.KAccRunB
import proofs.«178563_j25151328485711_1_alg».proof.Proof.KAccRunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The three cases at a grid point, on the memrefs the pipeline passes there -/

abbrev stepA (c : Dev nD) (t : Fin cfg1.N) (hf : atFirst (grid1.coords t)) (hl : ¬atLast (grid1.coords t))
    (xk : Vec F S1024x128 .bf16) (xq : Vec F S1024x128 .bf16) (xvj : Vec F S1024x512 .f32) (xvi : Vec F S1024x512 .f32) :=
  runA (F := F) c (grid1.coords t) (mK t) (hK t) (mQ t) (hQ t) (mVj t) (hVj t) (mVi t) (hVi t) (mO t) (hO t) mAcc (Memref.isWhole_whole _) mSs (Memref.isWhole_whole _) hf hl xk xq xvj xvi
abbrev stepB (c : Dev nD) (t : Fin cfg1.N) (hf : ¬atFirst (grid1.coords t)) (hl : ¬atLast (grid1.coords t))
    (xk : Vec F S1024x128 .bf16) (xq : Vec F S1024x128 .bf16) (xvj : Vec F S1024x512 .f32) (xvi : Vec F S1024x512 .f32)
    (xa : Vec F S1024x512 .f32) (xs : Vec F S1024x1 .f32) :=
  runB (F := F) c (grid1.coords t) (mK t) (hK t) (mQ t) (hQ t) (mVj t) (hVj t) (mVi t) (hVi t) (mO t) (hO t) mAcc (Memref.isWhole_whole _) mSs (Memref.isWhole_whole _) hf hl xk xq xvj xvi xa xs
abbrev stepC (c : Dev nD) (t : Fin cfg1.N) (hf : ¬atFirst (grid1.coords t)) (hl : atLast (grid1.coords t))
    (xk : Vec F S1024x128 .bf16) (xq : Vec F S1024x128 .bf16) (xvj : Vec F S1024x512 .f32) (xvi : Vec F S1024x512 .f32)
    (xa : Vec F S1024x512 .f32) (xs : Vec F S1024x1 .f32) :=
  runC (F := F) c (grid1.coords t) (mK t) (hK t) (mQ t) (hQ t) (mVj t) (hVj t) (mVi t) (hVi t) (mO t) (hO t) mAcc (Memref.isWhole_whole _) mSs (Memref.isWhole_whole _) hf hl xk xq xvj xvi xa xs

/-- A buffer's contents once a list of pieces has been written over anything. -/
abbrev accOf (L : List (View.Piece (Elt F) S1024x512 .f32)) : Vec F S1024x512 .f32 := vAcc.read (Elt F) (vAcc.writes (Elt F) vAcc.junk L)
abbrev ssOf (L : List (View.Piece (Elt F) S1024x1 .f32)) : Vec F S1024x1 .f32 := vSs.read (Elt F) (vSs.writes (Elt F) vSs.junk L)
abbrev outOf (L : List (View.Piece (Elt F) S1024x512 .f32)) : Vec F S1024x512 .f32 := vO.read (Elt F) (vO.writes (Elt F) vO.junk L)

/-! ## Every case's stores cover the buffers they are made into -/

theorem coverA_acc (c : Dev nD) (t : Fin cfg1.N) (hf) (hl) (xk xq xvj xvi) (y : S1024x512.Idx) :
    ∃ pc ∈ (stepA (F := F) c t hf hl xk xq xvj xvi).1, y ∈ pc.1.set :=
  View.cover_of_tiledL (stepA (F := F) c t hf hl xk xq xvj xvi).1 S1024x512.size (by sl_kernel_rfl) y
theorem coverA_ss (c : Dev nD) (t : Fin cfg1.N) (hf) (hl) (xk xq xvj xvi) (y : S1024x1.Idx) :
    ∃ pc ∈ (stepA (F := F) c t hf hl xk xq xvj xvi).2.1, y ∈ pc.1.set :=
  View.cover_of_tiledL (stepA (F := F) c t hf hl xk xq xvj xvi).2.1 S1024x1.size (by sl_kernel_rfl) y
theorem coverB_acc (c : Dev nD) (t : Fin cfg1.N) (hf) (hl) (xk xq xvj xvi xa xs) (y : S1024x512.Idx) :
    ∃ pc ∈ (stepB (F := F) c t hf hl xk xq xvj xvi xa xs).1, y ∈ pc.1.set :=
  View.cover_of_tiledL (stepB (F := F) c t hf hl xk xq xvj xvi xa xs).1 S1024x512.size (by sl_kernel_rfl) y
theorem coverB_ss (c : Dev nD) (t : Fin cfg1.N) (hf) (hl) (xk xq xvj xvi xa xs) (y : S1024x1.Idx) :
    ∃ pc ∈ (stepB (F := F) c t hf hl xk xq xvj xvi xa xs).2.1, y ∈ pc.1.set :=
  View.cover_of_tiledL (stepB (F := F) c t hf hl xk xq xvj xvi xa xs).2.1 S1024x1.size (by sl_kernel_rfl) y
theorem coverC_out (c : Dev nD) (t : Fin cfg1.N) (hf) (hl) (xk xq xvj xvi xa xs) (y : S1024x512.Idx) :
    ∃ pc ∈ (stepC (F := F) c t hf hl xk xq xvj xvi xa xs).1, y ∈ pc.1.set :=
  View.cover_of_tiledL (stepC (F := F) c t hf hl xk xq xvj xvi xa xs).1 S1024x512.size (by sl_kernel_rfl) y
theorem coverC_acc (c : Dev nD) (t : Fin cfg1.N) (hf) (hl) (xk xq xvj xvi xa xs) (y : S1024x512.Idx) :
    ∃ pc ∈ (stepC (F := F) c t hf hl xk xq xvj xvi xa xs).2.1, y ∈ pc.1.set :=
  View.cover_of_tiledL (stepC (F := F) c t hf hl xk xq xvj xvi xa xs).2.1 S1024x512.size (by sl_kernel_rfl) y
theorem coverC_ss (c : Dev nD) (t : Fin cfg1.N) (hf) (hl) (xk xq xvj xvi xa xs) (y : S1024x1.Idx) :
    ∃ pc ∈ (stepC (F := F) c t hf hl xk xq xvj xvi xa xs).2.2.1, y ∈ pc.1.set :=
  View.cover_of_tiledL (stepC (F := F) c t hf hl xk xq xvj xvi xa xs).2.2.1 S1024x1.size (by sl_kernel_rfl) y

/-! ## What the output block and the two accumulators hold after each point -/

/-- After the body at position `n`: the output block, the product accumulator, the squares accumulator.  The first column
    tile of a row tile (`n % 8 = 0`) starts the accumulators afresh; every other takes what position `n - 1` left; the
    output block is stored at the last column tile (`n % 8 = 7`) and is a placeholder elsewhere (the window is idle there:
    nothing consults it). -/
def stateAt (c : Dev nD) : (n : ℕ) → n < cfg1.N → Vec F S1024x512 .f32 × Vec F S1024x512 .f32 × Vec F S1024x1 .f32
  | 0, hn =>
    let t : Fin cfg1.N := ⟨0, hn⟩
    let hf : atFirst (grid1.coords t) := (atFirst_iff t).mpr (Nat.zero_mod _)
    let hl : ¬atLast (grid1.coords t) := fun h => absurd ((atLast_iff t).mp h) (by show ¬ (0 : ℕ) % 8 = 7; decide)
    (outOf [], accOf (stepA (F := F) c t hf hl (blk V c 0 t) (blk V c 1 t) (blk V c 2 t) (blk V c 3 t)).1, ssOf (stepA (F := F) c t hf hl (blk V c 0 t) (blk V c 1 t) (blk V c 2 t) (blk V c 3 t)).2.1)
  | n + 1, hn =>
    let t : Fin cfg1.N := ⟨n + 1, hn⟩
    if h0 : (n + 1) % 8 = 0 then
      let hf : atFirst (grid1.coords t) := (atFirst_iff t).mpr h0
      let hl : ¬atLast (grid1.coords t) := fun h => absurd ((atLast_iff t).mp h) (by show ¬ (n + 1) % 8 = 7; omega)
      (outOf [], accOf (stepA (F := F) c t hf hl (blk V c 0 t) (blk V c 1 t) (blk V c 2 t) (blk V c 3 t)).1, ssOf (stepA (F := F) c t hf hl (blk V c 0 t) (blk V c 1 t) (blk V c 2 t) (blk V c 3 t)).2.1)
    else
      let hf : ¬atFirst (grid1.coords t) := fun h => h0 ((atFirst_iff t).mp h)
      let prev := stateAt c n (Nat.lt_of_succ_lt hn)
      if h1 : (n + 1) % 8 = 7 then
        let hl : atLast (grid1.coords t) := (atLast_iff t).mpr h1
        (outOf (stepC (F := F) c t hf hl (blk V c 0 t) (blk V c 1 t) (blk V c 2 t) (blk V c 3 t) prev.2.1 prev.2.2).1,
         accOf (stepC (F := F) c t hf hl (blk V c 0 t) (blk V c 1 t) (blk V c 2 t) (blk V c 3 t) prev.2.1 prev.2.2).2.1,
         ssOf (stepC (F := F) c t hf hl (blk V c 0 t) (blk V c 1 t) (blk V c 2 t) (blk V c 3 t) prev.2.1 prev.2.2).2.2.1)
      else
        let hl : ¬atLast (grid1.coords t) := fun h => h1 ((atLast_iff t).mp h)
        (outOf [], accOf (stepB (F := F) c t hf hl (blk V c 0 t) (blk V c 1 t) (blk V c 2 t) (blk V c 3 t) prev.2.1 prev.2.2).1,
         ssOf (stepB (F := F) c t hf hl (blk V c 0 t) (blk V c 1 t) (blk V c 2 t) (blk V c 3 t) prev.2.1 prev.2.2).2.1)

/-- What the point before `t` left (for `t` not the first point). -/
abbrev prevAt (c : Dev nD) (t : Fin cfg1.N) : Vec F S1024x512 .f32 × Vec F S1024x512 .f32 × Vec F S1024x1 .f32 :=
  stateAt V c (t.val - 1) (Nat.lt_of_le_of_lt (Nat.sub_le _ _) t.isLt)

/-- At a first column tile. -/
theorem stateAt_first (c : Dev nD) (t : Fin cfg1.N) (h0 : t.val % 8 = 0) (hf : atFirst (grid1.coords t)) (hl : ¬atLast (grid1.coords t)) :
    stateAt V c t.val t.isLt
      = (outOf [], accOf (stepA (F := F) c t hf hl (blk V c 0 t) (blk V c 1 t) (blk V c 2 t) (blk V c 3 t)).1, ssOf (stepA (F := F) c t hf hl (blk V c 0 t) (blk V c 1 t) (blk V c 2 t) (blk V c 3 t)).2.1) := by
  obtain ⟨n, hn⟩ := t
  cases n with
  | zero => rfl
  | succ n => exact (dif_pos h0).trans rfl

/-- At a middle column tile. -/
theorem stateAt_middle (c : Dev nD) (t : Fin cfg1.N) (h0 : ¬t.val % 8 = 0) (h1 : ¬t.val % 8 = 7) (hf : ¬atFirst (grid1.coords t)) (hl : ¬atLast (grid1.coords t)) :
    stateAt V c t.val t.isLt
      = (outOf [], accOf (stepB (F := F) c t hf hl (blk V c 0 t) (blk V c 1 t) (blk V c 2 t) (blk V c 3 t) (prevAt V c t).2.1 (prevAt V c t).2.2).1,
         ssOf (stepB (F := F) c t hf hl (blk V c 0 t) (blk V c 1 t) (blk V c 2 t) (blk V c 3 t) (prevAt V c t).2.1 (prevAt V c t).2.2).2.1) := by
  obtain ⟨n, hn⟩ := t
  cases n with
  | zero => exact absurd (Nat.zero_mod _) h0
  | succ n => exact (dif_neg h0).trans ((dif_neg h1).trans rfl)

/-- At a last column tile. -/
theorem stateAt_last (c : Dev nD) (t : Fin cfg1.N) (h0 : ¬t.val % 8 = 0) (h1 : t.val % 8 = 7) (hf : ¬atFirst (grid1.coords t)) (hl : atLast (grid1.coords t)) :
    stateAt V c t.val t.isLt
      = (outOf (stepC (F := F) c t hf hl (blk V c 0 t) (blk V c 1 t) (blk V c 2 t) (blk V c 3 t) (prevAt V c t).2.1 (prevAt V c t).2.2).1,
         accOf (stepC (F := F) c t hf hl (blk V c 0 t) (blk V c 1 t) (blk V c 2 t) (blk V c 3 t) (prevAt V c t).2.1 (prevAt V c t).2.2).2.1,
         ssOf (stepC (F := F) c t hf hl (blk V c 0 t) (blk V c 1 t) (blk V c 2 t) (blk V c 3 t) (prevAt V c t).2.1 (prevAt V c t).2.2).2.2.1) := by
  obtain ⟨n, hn⟩ := t
  cases n with
  | zero => exact absurd (Nat.zero_mod _) h0
  | succ n => exact (dif_neg h0).trans ((dif_pos h1).trans rfl)

/-! ## The region's invariant between points -/

/-- Before position `n`: at the region's entry the class invariant (every scoped buffer at anything); afterwards the
    first region's staging buffers at anything, the two accumulators at what position `n - 1` left, and the generator
    register at some state. -/
def PhiS (c : Dev nD) : (n : ℕ) → n ≤ cfg1.N → sProp 𝕄
  | 0, _ => Pipeline.ΦA spec1 c
  | n + 1, hn => iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ (((c : Thread nD τ).loc cc1_scratch0) ↦{fullShare} (stateAt V c n hn).2.1) ∗ (((c : Thread nD τ).loc cc1_scratch1) ↦{fullShare} (stateAt V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ (((c : Thread nD τ).loc cc1_scratch0) ↦{fullShare} (stateAt V c n hn).2.1) ∗ (((c : Thread nD τ).loc cc1_scratch1) ↦{fullShare} (stateAt V c n hn).2.2)) ∗ (∃ r, prngReg c r)) := rfl

theorem PhiS_pos (c : Dev nD) (n : ℕ) (h : n ≤ cfg1.N) (hz : n ≠ 0) :
    PhiS V c n h = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ (((c : Thread nD τ).loc cc1_scratch0) ↦{fullShare} (stateAt V c (n - 1) (by omega)).2.1) ∗ (((c : Thread nD τ).loc cc1_scratch1) ↦{fullShare} (stateAt V c (n - 1) (by omega)).2.2)) ∗ (∃ r, prngReg c r)) := by
  cases n with
  | zero => exact absurd rfl hz
  | succ n => rfl

/-! ## The proof data -/

/-- The region's proof data on core `c`: the arrays as the region finds them; after the body each input's buffer at its
    block and the output's at `stateAt`'s first component; the invariant `PhiS`; the array the two value windows share
    held half and half; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (stateAt V c t.val t.isLt).1
  Φ t := PhiS V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
  owed _ := 0

theorem dat_A (c : Dev nD) (w : Fin cfg1.W) : (dat V c).A w = V c (Pipeline.arrRef spec1 w) := by dsimp only [dat]
theorem dat_after0 (c : Dev nD) (t : Fin cfg1.N) : (dat V c).after 0 t = blk V c 0 t := by dsimp only [dat]
theorem dat_after1 (c : Dev nD) (t : Fin cfg1.N) : (dat V c).after 1 t = blk V c 1 t := by dsimp only [dat]
theorem dat_after2 (c : Dev nD) (t : Fin cfg1.N) : (dat V c).after 2 t = blk V c 2 t := by dsimp only [dat]
theorem dat_after3 (c : Dev nD) (t : Fin cfg1.N) : (dat V c).after 3 t = blk V c 3 t := by dsimp only [dat]
theorem dat_after4 (c : Dev nD) (t : Fin cfg1.N) : (dat V c).after 4 t = (stateAt V c t.val t.isLt).1 := by dsimp only [dat]

theorem dat_Phi_castSucc (c : Dev nD) (t : Fin cfg1.N) : (dat V c).Φ t.castSucc = PhiS V c t.val (Nat.le_of_lt t.isLt) := by
  dsimp only [dat]; simp only [Fin.coe_castSucc]

/-- Each input's current staging buffer holds its block at every point, fetched there or not: between two fetches the
    block index does not move and the body leaves the block in place. -/
theorem before0 (c : Dev nD) (t : Fin cfg1.N) (d) : (dat V c).before 0 t d = blk V c 0 t :=
  ((dat V c).before_in_eq_fetched 0 rfl (fun _ => rfl) (fun _ _ _ => rfl) (fun t => by rw [dat_after0]; unfold Dat.blockOf blk; rw [dat_A]; try rfl) t d).trans
    (by unfold Dat.fetched Dat.blockOf blk; rw [dat_A]; try rfl)
theorem before1 (c : Dev nD) (t : Fin cfg1.N) (d) : (dat V c).before 1 t d = blk V c 1 t :=
  ((dat V c).before_in_eq_fetched 1 rfl (fun _ => rfl) (fun _ _ _ => rfl) (fun t => by rw [dat_after1]; unfold Dat.blockOf blk; rw [dat_A]; try rfl) t d).trans
    (by unfold Dat.fetched Dat.blockOf blk; rw [dat_A]; try rfl)
theorem before2 (c : Dev nD) (t : Fin cfg1.N) (d) : (dat V c).before 2 t d = blk V c 2 t :=
  ((dat V c).before_in_eq_fetched 2 rfl (fun _ => rfl) (fun _ _ _ => rfl) (fun t => by rw [dat_after2]; unfold Dat.blockOf blk; rw [dat_A]; try rfl) t d).trans
    (by unfold Dat.fetched Dat.blockOf blk; rw [dat_A]; try rfl)
theorem before3 (c : Dev nD) (t : Fin cfg1.N) (d) : (dat V c).before 3 t d = blk V c 3 t :=
  ((dat V c).before_in_eq_fetched 3 rfl (fun _ => rfl) (fun _ _ _ => rfl) (fun t => by rw [dat_after3]; unfold Dat.blockOf blk; rw [dat_A]; try rfl) t d).trans
    (by unfold Dat.fetched Dat.blockOf blk; rw [dat_A]; try rfl)

end Cert.Kernel.Acc

end
-- ==== Proof.KAccBody.lean ====
/-
  The second kernel region: the body obligation at every grid point, and the invariant at the region's two ends.

  At a point the closed forms of the two branch conditions say which of the three cases it is; the inputs' buffers hold
  their blocks; the invariant hands the body the two accumulators — at anything when the region is entered, else at
  what the point before left — and takes them back at this point's contents; the output block is handed back as found
  away from the last column tile and stored at it.
-/
import proofs.«178563_j25151328485711_1_alg».proof.Proof.Gen.Kernel.Launch
import proofs.«178563_j25151328485711_1_alg».proof.Proof.Gen.Kernel.Skeleton
import proofs.«178563_j25151328485711_1_alg».proof.Proof.Gen.Kernel.Points
import proofs.«178563_j25151328485711_1_alg».proof.Proof.KAccData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A scratch buffer whole at some contents, as a memref owned at some contents. -/
theorem any_acc (c : Dev nD) : (anyBuf (F := F) c cc1_scratch0 : sProp 𝕄) = iprop(∃ d, owns (c : Thread nD τ) mAcc fullShare d) := by
  simp only [mAcc, owns_whole]; rfl
theorem any_ss (c : Dev nD) : (anyBuf (F := F) c cc1_scratch1 : sProp 𝕄) = iprop(∃ d, owns (c : Thread nD τ) mSs fullShare d) := by
  simp only [mSs, owns_whole]; rfl
/-- A scratch buffer whole at named contents, as a memref owned at them. -/
theorem acc_pt (c : Dev nD) (X : Vec F S1024x512 .f32) :
    ((((c : Thread nD τ).loc cc1_scratch0) ↦{fullShare} X) : sProp 𝕄) = owns (c : Thread nD τ) mAcc fullShare X := by
  simp only [mAcc, owns_whole]
theorem ss_pt (c : Dev nD) (X : Vec F S1024x1 .f32) :
    ((((c : Thread nD τ).loc cc1_scratch1) ↦{fullShare} X) : sProp 𝕄) = owns (c : Thread nD τ) mSs fullShare X := by
  simp only [mSs, owns_whole]

/-- What the body is called with at point `t`: the invariant, the core's dues, every window's current buffer. -/
def bodyPre (c : Dev nD) (t : Fin cfg1.N) : sProp 𝕄 :=
  iprop((dat V c).Φ t.castSucc ∗ (dat V c).owesAt () t.castSucc
    ∗ (∃ d, owns (c : Thread nD τ) (mK t) fullShare ((dat V c).before 0 t d))
    ∗ (∃ d, owns (c : Thread nD τ) (mQ t) fullShare ((dat V c).before 1 t d))
    ∗ (∃ d, owns (c : Thread nD τ) (mVj t) fullShare ((dat V c).before 2 t d))
    ∗ (∃ d, owns (c : Thread nD τ) (mVi t) fullShare ((dat V c).before 3 t d))
    ∗ (∃ d, owns (c : Thread nD τ) (mO t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt N_eq
  rw [show (dat V c).leavesExact 0 t = owns (c : Thread nD τ) (mK t) fullShare ((dat V c).after 0 t) from by
    unfold Dat.leavesExact; rw [live0 t], dat_after0]
  rw [show (dat V c).leavesExact 1 t = owns (c : Thread nD τ) (mQ t) fullShare ((dat V c).after 1 t) from by
    unfold Dat.leavesExact; rw [live1 t], dat_after1]
  rw [show (dat V c).leavesExact 2 t = owns (c : Thread nD τ) (mVj t) fullShare ((dat V c).after 2 t) from by
    unfold Dat.leavesExact; rw [live2 t], dat_after2]
  rw [show (dat V c).leavesExact 3 t = owns (c : Thread nD τ) (mVi t) fullShare ((dat V c).after 3 t) from by
    unfold Dat.leavesExact; rw [live3 t], dat_after3]
  by_cases h0 : t.val % 8 = 0
  · -- the first column tile of a row tile
    have hf : atFirst (grid1.coords t) := (atFirst_iff t).mpr h0
    have hl : ¬atLast (grid1.coords t) := fun h => by have := (atLast_iff t).mp h; omega
    rw [Dat.leavesExact_idle (dat V c) 4 t (idleOut t hl) (noFlushOut t hl)]
    rw [stateAt_first V c t h0 hf hl]
    (try dsimp only)
    by_cases hz : t.val = 0
    · rw [dat_Phi_castSucc, PhiS_zero V c _ _ hz, PhiA_eq, any_acc, any_ss]
      iintro ⟨⟨⟨R1, R2, R3, R4, R5, R6, R7, R8, R9, R10, R11, R12, R13, R14, HS0, HS1⟩, Hg⟩, Ho, ⟨%d0, H0⟩, ⟨%d1, H1⟩, ⟨%d2, H2⟩, ⟨%d3, H3⟩, ⟨%d4, H4⟩⟩
      · iapply ((stepA (F := F) c t hf hl (blk V c 0 t) (blk V c 1 t) (blk V c 2 t) (blk V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%e7, HS0⟩, ⟨%e8, HS1⟩⟩
        isplitl [R1 R2 R3 R4 R5 R6 R7 R8 R9 R10 R11 R12 R13 R14 HS0 HS1 Hg]
        · isplitr [Hg]
          swap; · iexact Hg
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [HS0]
          · rw [acc_pt]; unfold owns; iexists _; isplitr
            swap; · iexact HS0
            ipureintro; exact View.read_writes_of_cover _ _ _ _ _ (coverA_acc (F := F) c t hf hl _ _ _ _)
          rw [ss_pt]; unfold owns; iexists _; isplitr
          swap; · iexact HS1
          ipureintro; exact View.read_writes_of_cover _ _ _ _ _ (coverA_ss (F := F) c t hf hl _ _ _ _)
        isplitl [Ho]; · iexact Ho
        isplitl [H0]; · iexact H0
        isplitl [H1]; · iexact H1
        isplitl [H2]; · iexact H2
        isplitl [H3]; · iexact H3
        iexists _; iexact H4
    · rw [dat_Phi_castSucc, PhiS_pos V c _ _ hz, acc_pt, ss_pt]
      iintro ⟨⟨⟨R1, R2, R3, R4, R5, R6, R7, R8, R9, R10, R11, R12, R13, R14, HS0, HS1⟩, Hg⟩, Ho, ⟨%d0, H0⟩, ⟨%d1, H1⟩, ⟨%d2, H2⟩, ⟨%d3, H3⟩, ⟨%d4, H4⟩⟩
      · iapply ((stepA (F := F) c t hf hl (blk V c 0 t) (blk V c 1 t) (blk V c 2 t) (blk V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%e7, HS0⟩, ⟨%e8, HS1⟩⟩
        isplitl [R1 R2 R3 R4 R5 R6 R7 R8 R9 R10 R11 R12 R13 R14 HS0 HS1 Hg]
        · isplitr [Hg]
          swap; · iexact Hg
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [HS0]
          · rw [acc_pt]; unfold owns; iexists _; isplitr
            swap; · iexact HS0
            ipureintro; exact View.read_writes_of_cover _ _ _ _ _ (coverA_acc (F := F) c t hf hl _ _ _ _)
          rw [ss_pt]; unfold owns; iexists _; isplitr
          swap; · iexact HS1
          ipureintro; exact View.read_writes_of_cover _ _ _ _ _ (coverA_ss (F := F) c t hf hl _ _ _ _)
        isplitl [Ho]; · iexact Ho
        isplitl [H0]; · iexact H0
        isplitl [H1]; · iexact H1
        isplitl [H2]; · iexact H2
        isplitl [H3]; · iexact H3
        iexists _; iexact H4
  · have hf : ¬atFirst (grid1.coords t) := fun h => h0 ((atFirst_iff t).mp h)
    have hz : t.val ≠ 0 := fun e => h0 (by rw [e])
    by_cases h1 : t.val % 8 = 7
    · -- the last column tile
      have hl : atLast (grid1.coords t) := (atLast_iff t).mpr h1
      rw [show (dat V c).leavesExact 4 t = owns (c : Thread nD τ) (mO t) fullShare ((dat V c).after 4 t) from by
        unfold Dat.leavesExact; rw [liveOut t hl], dat_after4]
      rw [stateAt_last V c t h0 h1 hf hl]
      (try dsimp only)
      rw [dat_Phi_castSucc, PhiS_pos V c _ _ hz, acc_pt, ss_pt]
      iintro ⟨⟨⟨R1, R2, R3, R4, R5, R6, R7, R8, R9, R10, R11, R12, R13, R14, HS0, HS1⟩, Hg⟩, Ho, ⟨%d0, H0⟩, ⟨%d1, H1⟩, ⟨%d2, H2⟩, ⟨%d3, H3⟩, ⟨%d4, H4⟩⟩
      · iapply ((stepC (F := F) c t hf hl (blk V c 0 t) (blk V c 1 t) (blk V c 2 t) (blk V c 3 t) (prevAt V c t).2.1 (prevAt V c t).2.2).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%e7, HS0⟩, ⟨%e8, HS1⟩⟩
        isplitl [R1 R2 R3 R4 R5 R6 R7 R8 R9 R10 R11 R12 R13 R14 HS0 HS1 Hg]
        · isplitr [Hg]
          swap; · iexact Hg
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [HS0]
          · rw [acc_pt]; unfold owns; iexists _; isplitr
            swap; · iexact HS0
            ipureintro; exact View.read_writes_of_cover _ _ _ _ _ (coverC_acc (F := F) c t hf hl _ _ _ _ _ _)
          rw [ss_pt]; unfold owns; iexists _; isplitr
          swap; · iexact HS1
          ipureintro; exact View.read_writes_of_cover _ _ _ _ _ (coverC_ss (F := F) c t hf hl _ _ _ _ _ _)
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverC_out (F := F) c t hf hl _ _ _ _ _ _)
    · -- a middle column tile
      have hl : ¬atLast (grid1.coords t) := fun h => h1 ((atLast_iff t).mp h)
      rw [Dat.leavesExact_idle (dat V c) 4 t (idleOut t hl) (noFlushOut t hl)]
      rw [stateAt_middle V c t h0 h1 hf hl]
      (try dsimp only)
      rw [dat_Phi_castSucc, PhiS_pos V c _ _ hz, acc_pt, ss_pt]
      iintro ⟨⟨⟨R1, R2, R3, R4, R5, R6, R7, R8, R9, R10, R11, R12, R13, R14, HS0, HS1⟩, Hg⟩, Ho, ⟨%d0, H0⟩, ⟨%d1, H1⟩, ⟨%d2, H2⟩, ⟨%d3, H3⟩, ⟨%d4, H4⟩⟩
      · iapply ((stepB (F := F) c t hf hl (blk V c 0 t) (blk V c 1 t) (blk V c 2 t) (blk V c 3 t) (prevAt V c t).2.1 (prevAt V c t).2.2).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%e7, HS0⟩, ⟨%e8, HS1⟩⟩
        isplitl [R1 R2 R3 R4 R5 R6 R7 R8 R9 R10 R11 R12 R13 R14 HS0 HS1 Hg]
        · isplitr [Hg]
          swap; · iexact Hg
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [HS0]
          · rw [acc_pt]; unfold owns; iexists _; isplitr
            swap; · iexact HS0
            ipureintro; exact View.read_writes_of_cover _ _ _ _ _ (coverB_acc (F := F) c t hf hl _ _ _ _ _ _)
          rw [ss_pt]; unfold owns; iexists _; isplitr
          swap; · iexact HS1
          ipureintro; exact View.read_writes_of_cover _ _ _ _ _ (coverB_ss (F := F) c t hf hl _ _ _ _ _ _)
        isplitl [Ho]; · iexact Ho
        isplitl [H0]; · iexact H0
        isplitl [H1]; · iexact H1
        isplitl [H2]; · iexact H2
        isplitl [H3]; · iexact H3
        iexists _; iexact H4

/-- The library's body obligation, at every point. -/
theorem obligation (c : Dev nD) : BodyObligation (dat (F := F) V c) (defs₀ (F := F)) Variants.none () Set.univ := fun t => by
  rw [bigSep_W1, bigSep_W1]
  exact sound_body V c t

/-- What the launch hands the region is the invariant before the first point. -/
theorem phi_in (c : Dev nD) : (Pipeline.ΦA spec1 c : sProp 𝕄) ⊢ (dat (F := F) V c).Φ 0 := by
  rw [show (dat V c).Φ 0 = PhiS V c 0 (Nat.zero_le _) from rfl, PhiS_zero V c 0 _ rfl]
  try exact Idealize.SL.BI.Entails.refl _

/-- After the last point the invariant gives the class invariant back: the accumulators' contents are forgotten. -/
theorem phi_out (c : Dev nD) : (dat (F := F) V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 64 := N_eq; omega), PhiA_eq]
  iintro ⟨⟨R1, R2, R3, R4, R5, R6, R7, R8, R9, R10, R11, R12, R13, R14, HS0, HS1⟩, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [HS0]; · iexists _; iexact HS0
  iexists _; iexact HS1

end Cert.Kernel.Acc

end
-- ==== Proof.KRunVals.lean ====
/-
  The whole program: what the core's buffers hold between its items, and the array two windows share.

  @main is a stretch of three reshapes, the projection region and the accumulation region.  Between items every unscoped
  buffer of a core is held at a valuation: the launch memory, then the reshapes' results, then the three projected arrays
  at what the first region's write-backs leave, then the result array at what the second region's write-backs leave.
  The second region reads the projected values array through TWO windows; at its entry the array's full share is dealt
  half to each, and at its exit the halves, which still hold the same contents, are joined again.
-/
import proofs.«178563_j25151328485711_1_alg».proof.Proof.Gen.Kernel.Launch
import proofs.«178563_j25151328485711_1_alg».proof.Proof.Gen.Kernel.Skeleton
import proofs.«178563_j25151328485711_1_alg».proof.Proof.Gen.Kernel.Points
import proofs.«178563_j25151328485711_1_alg».proof.Proof.Gen.Kernel.Regions
import proofs.«178563_j25151328485711_1_alg».proof.Proof.KProjFrame
import proofs.«178563_j25151328485711_1_alg».proof.Proof.KAccBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents between items -/

/-- After the reshapes (the first region's entry), read at the TensorCore's references. -/
abbrev E1 : (c : Dev nD) → (b : Ref sig .tc) → Buf (Elt F) ((c : Thread nD τ).loc b) := fun c b => V1 m c b

/-- At the first region's exit: its arrays at what its write-backs leave, every other buffer as entered. -/
def W2 (c : Dev nD) : Valuation τ sig (Elt F) :=
  Pipeline.withArrays spec0 c (V1 m c) fun w => (Proj.dat (E1 m) c).arrAt w cfg0.N
theorem W2_arr (c : Dev nD) (w : Fin cfg0.W) :
    W2 m c (Proc.devRef .tc (Pipeline.arrRef spec0 w)) = (Proj.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
/-- The same read at the TensorCore's references (the second region's entry). -/
abbrev E2 : (c : Dev nD) → (b : Ref sig .tc) → Buf (Elt F) ((c : Thread nD τ).loc b) := fun c b => W2 m c b
theorem E2_arr (c : Dev nD) (w : Fin cfg0.W) : (Proj.dat (E1 m) c).arrAt w cfg0.N = E2 m c (Pipeline.arrRef spec0 w) :=
  (W2_arr m c w).symm
theorem E2_rest (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the second region's exit: the result array at what its write-backs leave, every other buffer as entered. -/
def W3 (c : Dev nD) : Valuation τ sig (Elt F) :=
  Function.update (W2 m c) main_v4 ((Acc.dat (E2 m) c).arrAt 4 cfg1.N)
abbrev E3 : (c : Dev nD) → (b : Ref sig .tc) → Buf (Elt F) ((c : Thread nD τ).loc b) := fun c b => W3 m c b
theorem E3_out (c : Dev nD) : E3 m c main_v4 = (Acc.dat (E2 m) c).arrAt 4 cfg1.N := by
  show W3 m c (Proc.devRef .tc main_v4) = _
  unfold W3; exact Function.update_self ..
theorem E3_of_ne (c : Dev nD) (b : Ref sig .tc) (hb : b ≠ main_v4) : E3 m c b = E2 m c b := by
  show W3 m c (Proc.devRef .tc b) = W2 m c (Proc.devRef .tc b)
  unfold W3; exact Function.update_of_ne (StableHlo.devRef_ne_of_ne hb) ..

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (E1 m) c
  | ⟨1, _⟩ => fun c => Acc.dat (E2 m) c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The array two windows share -/

/-- The second region's arrays at contents `G`, window by window: the keys, the queries, the values twice at half the
    full share each, the result. -/
theorem arrays1_eq (c : Dev nD) (G : (w : Fin cfg1.W) → Buf (Elt F) ((cfg1.win w).arr.view.loc (c : Thread nD τ))) :
    ((Acc.dat (E2 m) c).arrays G : sProp 𝕄)
      = iprop((((c : Thread nD τ).loc main_v3_0) ↦{fullShare} G 0) ∗ (((c : Thread nD τ).loc main_v3_1) ↦{fullShare} G 1)
          ∗ (((c : Thread nD τ).loc main_v3_2) ↦{fullShare.left} G 2) ∗ (((c : Thread nD τ).loc main_v3_2) ↦{fullShare.right} G 3)
          ∗ (((c : Thread nD τ).loc main_v4) ↦{fullShare} G 4)) := by
  unfold Dat.arrays
  rw [bigSep_W1, (arr_whole1 0).set_eq_univ, (arr_whole1 1).set_eq_univ, (arr_whole1 2).set_eq_univ, (arr_whole1 4).set_eq_univ]
  rfl

/-- The distinct buffers behind the second region's windows, one by one. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v3_0) ↦{fullShare} X main_v3_0) ∗ (((c : Thread nD τ).loc main_v3_1) ↦{fullShare} X main_v3_1)
          ∗ (((c : Thread nD τ).loc main_v3_2) ↦{fullShare} X main_v3_2) ∗ (((c : Thread nD τ).loc main_v4) ↦{fullShare} X main_v4)) := by
  unfold Pipeline.arrBufs
  exact bigSep_eq_bigSepL_of_eq [main_v3_0, main_v3_1, main_v3_2, main_v4] (by decide) (by decide) _

/-- ENTRY: a core's unscoped buffers at the second region's entry contents are its arrays at those contents, the shared
    array's share dealt half and half, and the unscoped rest. -/
theorem arrays_in1 (c : Dev nD) :
    (unscopedBufs c (E2 m c) : sProp 𝕄)
      ⊢ iprop((Acc.dat (E2 m) c).arrays ((Acc.dat (E2 m) c).arrAt · 0) ∗ Pipeline.unscopedRest spec1 c (E2 m c)) := by
  rw [Pipeline.unscopedBufs_split₀ (Pipeline.pin (pcfgs (F := F)) adm) 1 winFacts₀1.arr_unscoped c (E2 m c)]
  refine sep_mono ?_ .rfl
  show (Pipeline.arrBufs spec1 c (E2 m c) : sProp 𝕄) ⊢ _
  rw [arrBufs1_eq, arrays1_eq]
  iintro ⟨Hk, Hq, Hv, Ho⟩
  ihave Hv2 := (pointsTo_share (PosShare.mem_left_op_right fullShare)).1 $$ Hv
  icases Hv2 with ⟨Hl, Hr⟩
  isplitl [Hk]; · iexact Hk
  isplitl [Hq]; · iexact Hq
  isplitl [Hl]; · iexact Hl
  isplitl [Hr]; · iexact Hr
  iexact Ho

/-- EXIT: the arrays at what the region leaves — the inputs as entered, the halves of the shared array still at one
    contents, the result at its write-backs — and the unscoped rest are the core's unscoped buffers at the exit contents. -/
theorem arrays_out1 (c : Dev nD) :
    iprop((Acc.dat (E2 m) c).arrays ((Acc.dat (E2 m) c).arrAt · cfg1.N) ∗ Pipeline.unscopedRest spec1 c (E2 m c))
      ⊢ (unscopedBufs c (E3 m c) : sProp 𝕄) := by
  rw [Pipeline.unscopedBufs_split₀ (Pipeline.pin (pcfgs (F := F)) adm) 1 winFacts₀1.arr_unscoped c (E3 m c)]
  refine sep_mono ?_ (Entails.of_eq ?_)
  · show _ ⊢ (Pipeline.arrBufs spec1 c (E3 m c) : sProp 𝕄)
    rw [arrBufs1_eq, arrays1_eq,
      (Acc.dat (E2 m) c).arrAt_in 0 rfl _, (Acc.dat (E2 m) c).arrAt_in 1 rfl _, (Acc.dat (E2 m) c).arrAt_in 2 rfl _, (Acc.dat (E2 m) c).arrAt_in 3 rfl _,
      Acc.dat_A, Acc.dat_A, Acc.dat_A, Acc.dat_A, E3_out, E3_of_ne m c main_v3_0 (by decide), E3_of_ne m c main_v3_1 (by decide), E3_of_ne m c main_v3_2 (by decide)]
    iintro ⟨Hk, Hq, Hl, Hr, Ho⟩
    isplitl [Hk]; · iexact Hk
    isplitl [Hq]; · iexact Hq
    isplitl [Hl Hr]
    · iapply (pointsTo_share (PosShare.mem_left_op_right fullShare)).2
      isplitl [Hl]; · iexact Hl
      iexact Hr
    iexact Ho
  · unfold Pipeline.unscopedRest
    exact bigSep_congr fun b hb => by
      rw [E3_of_ne m c b (fun e => (Finset.mem_sdiff.mp hb).2 (Finset.mem_image.mpr ⟨4, Finset.mem_univ _, e.symm⟩))]

end Cert.Kernel.Whole

end
-- ==== Proof.KRunSegs.lean ====
/-
  The whole program: its two kernel regions as segments between the thread states of RunVals, and the run.

  Every weakly fair execution of @main from a memory with zero counters terminates without a fault, and in every final
  memory the result array holds what the second region's write-backs leave and every argument array what it held at
  launch.
-/
import proofs.«178563_j25151328485711_1_alg».proof.Proof.Gen.Kernel.Launch
import proofs.«178563_j25151328485711_1_alg».proof.Proof.Gen.Kernel.Skeleton
import proofs.«178563_j25151328485711_1_alg».proof.Proof.Gen.Kernel.Points
import proofs.«178563_j25151328485711_1_alg».proof.Proof.KRunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The reshapes as a segment: from every unscoped buffer at the launch contents, `R` riding along. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

/-- The last thread state without the dues: every unscoped buffer at the last contents, the generator register at some state. -/
abbrev Tₙ (c : Dev nD) : sProp 𝕄 := iprop(StableHlo.held (c : Thread nD τ) (Pipeline.ucRefs τ sig) (W3 m c) ∗ ∃ r, prngReg c r)

set_option backward.isDefEq.respectTransparency.types false in
/-- The projection region: entered from every unscoped buffer at the reshapes' results, left with its three result arrays at
    what its write-backs leave.  Its arrays are distinct, each held whole; the generator register goes into the class
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.obligation (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Proj.dat_Phi (E1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Proj.dat_Phi (E1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (E2_arr m c) (E2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulation region: entered from every unscoped buffer at the first region's exit contents, left with the result
    array at what its write-backs leave.  Two of its windows read one array: the entry deals that array's share between
    them and the exit joins the halves (RunVals); the rest as for the projection region. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Acc.obligation (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄)
        ⊢ iprop((pdats m 1 c).arrays ((pdats m 1 c).arrAt · 0) ∗ Pipeline.unscopedRest (Ix := Unit) (Name := ℕ) (U := UR sig nD τ) (Lvl := ℕ) spec1 c (E2 m c)) := arrays_in1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Acc.phi_in (E2 m) c)
    unfold Pipeline.ΦA
    iintro ⟨Hp, -, Hr⟩
    isplitl [Hr]; · iexact Hr
    iexact Hp
  hout c := by
    refine (show (pdats m 1 c).Φ (Fin.last (Pipeline.pin (pcfgs (F := F)) adm 1).N) ⊢ (Pipeline.ΦA spec1 c : sProp 𝕄) from Acc.phi_out (E2 m) c).trans ?_
    rw [Pipeline.ownSems0_none]; unfold Pipeline.ΦA
    iintro ⟨Hr, Hp⟩
    isplitl [Hp]; · iexact Hp
    isplitr; · iempintro
    iexact Hr
  hexit c := by
    have hjoin : iprop((pdats m 1 c).arrays ((pdats m 1 c).arrAt · (Pipeline.pin (pcfgs (F := F)) adm 1).N) ∗ Pipeline.unscopedRest (Ix := Unit) (Name := ℕ) (U := UR sig nD τ) (Lvl := ℕ) spec1 c (E2 m c))
        ⊢ (unscopedBufs c (E3 m c) : sProp 𝕄) := arrays_out1 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments in order. -/
abbrev segs : List (Pipeline.Seg (pcfgs (F := F)) adm (pdats m) () defs₀ 𝒱₀ L lv) :=
  [ .host (hseg0 m), .region (reg0 m), .region (reg1 m) ]

/-- @main IS the run of the segments. -/
theorem main_run (c : Dev nD) : main (F := F) c = Pipeline.Seg.run (segs m) := (main_chain c).trans (by chain_rfl)

/-- No host operation and no region writes an argument array: the last valuation at an argument is the launch memory. -/
theorem W3_arg (c : Dev nD) (b : Ref sig .tc) (h4 : b ≠ main_v4) (h0 : ∀ w, Pipeline.arrRef spec0 w ≠ b) (hh : b ∉ hostOps0_W) :
    W3 m c (Proc.devRef .tc b) = m ((c : Thread nD τ).loc b) :=
  (E3_of_ne m c b h4).trans ((W2_of_ne m c b h0).trans ((V1_of m c b hh).trans rfl))

/-- An argument the first region reads through an input window is not written there either: an input array ends as entered. -/
theorem W3_argIn (c : Dev nD) (w : Fin cfg0.W) (hin : (cfg0.win w).isOut = false) (h4 : Pipeline.arrRef spec0 w ≠ main_v4)
    (hh : Pipeline.arrRef spec0 w ∉ hostOps0_W) :
    W3 m c (Proc.devRef .tc (Pipeline.arrRef spec0 w)) = m ((c : Thread nD τ).loc (Pipeline.arrRef spec0 w)) :=
  (E3_of_ne m c _ h4).trans ((W2_arr m c w).trans (((Proj.dat (E1 m) c).arrAt_in w hin _).trans
    ((Proj.dat_A (E1 m) c w).trans ((V1_of m c _ hh).trans rfl))))

variable (ρ : Dev nD → PrngReg)

set_option backward.isDefEq.respectTransparency.types false in
/-- THE RUN. -/
theorem run : θ_run defs (onTc (τ := τ) (main (F := F))) ⟨m, fun _ => 0, ρ⟩ (fun r => ∀ c : Dev nD,
      r.2.mem ((c.tc : Thread nD τ).loc main_v4) = (Acc.dat (E2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v4 (by decide))).trans (E3_out m c),
       (h c _ (mem_uc main_arg0 (by decide))).trans (W3_argIn m c 0 rfl (by decide) (by decide)),
       (h c _ (mem_uc main_arg1 (by decide))).trans (W3_argIn m c 1 rfl (by decide) (by decide)),
       (h c _ (mem_uc main_arg2 (by decide))).trans (W3_arg m c main_arg2 (by decide) (by decide) (by decide)),
       (h c _ (mem_uc main_arg3 (by decide))).trans (W3_argIn m c 3 rfl (by decide) (by decide)),
       (h c _ (mem_uc main_arg4 (by decide))).trans (W3_arg m c main_arg4 (by decide) (by decide) (by decide)),
       (h c _ (mem_uc main_arg5 (by decide))).trans (W3_argIn m c 5 rfl (by decide) (by decide)),
       (h c _ (mem_uc main_arg6 (by decide))).trans (W3_arg m c main_arg6 (by decide) (by decide) (by decide))⟩)

end Cert.Kernel.Whole

end
-- ==== Proof.Spec.lean ====
/-
  Attention with an L2-normalised score matrix and a residual, entry by entry on the extended reals.

  From an array `X` of `g` rows and three affine maps of rows, `K = X·Wkᵀ + bk`, `Q = X·Wqᵀ + bq`, `V = X·Wvᵀ + bv`
  (`linE`: entry `(p, a)` is the sum over `l` of `X (p, l) · W (a, l)`, plus `b a`), the scores are `S = K·Qᵀ`
  (`scoreE`), each row `p` of `S` has the sum of its squares `sqE p` and the divisor `den p = max (√(sqE p)) ε`, and
  the result is, at `(p, c)`,

      `quotSum`  : (the sum over `j` of `S (p, j) · V (j, c)`) / den p + V (p, c)     — the sum first, then one division
      `sumQuot`  : the sum over `j` of (S (p, j) / den p) · V (j, c), + V (p, c)        — every score divided, then the sum

  The two agree when every entry of `K`, `Q`, `V` is a real number and `ε` is a positive real: the divisor is then a
  real number at least `ε`, dividing by it is multiplying by its reciprocal, and a real factor moves across a finite
  sum of reals.  On the extended reals without those hypotheses the factor does not move (an infinite score against a
  zero value).  Everything is over generic extents; indices are built from coordinates.
-/
import Idealize.ShloMosaic.Lib.ValueIdx
import Idealize.ShloMosaic.PureOps.Ideal

noncomputable section

open scoped BigOperators

namespace Attn

open Idealize.ShloMosaic Idealize.ShloMosaic.ValueIdx

/-- A rank-2 array of extended reals. -/
abbrev Mat (n m : ℕ) : Type := (⟨2, ![n, m]⟩ : Shape).Idx → EReal
/-- A rank-1 array of extended reals. -/
abbrev Vec1 (n : ℕ) : Type := (⟨1, ![n]⟩ : Shape).Idx → EReal

/-- Entry `(p, a)` of `X·Wᵀ + b`: row `p` of `X` against row `a` of `W`, plus `b a`. -/
def linE {n d k : ℕ} (X : Mat n d) (W : Mat k d) (b : Vec1 k) (p : Fin n) (a : Fin k) : EReal :=
  (∑ l : Fin d, X (ix2 p l) * W (ix2 a l)) + b (ix1 a)

/-- `X·Wᵀ + b` as an array. -/
def lin {n d k : ℕ} (X : Mat n d) (W : Mat k d) (b : Vec1 k) : Mat n k :=
  fun i => linE X W b ⟨(i 0).val, idx2_lt0 i⟩ ⟨(i 1).val, idx2_lt1 i⟩

theorem lin_ix2 {n d k : ℕ} (X : Mat n d) (W : Mat k d) (b : Vec1 k) (p : Fin n) (a : Fin k) :
    lin X W b (ix2 p a) = linE X W b p a := rfl

/-- Entry `(p, j)` of `K·Qᵀ`: row `p` of `K` against row `j` of `Q`. -/
def scoreE {n g a : ℕ} (K : Mat n a) (Q : Mat g a) (p : Fin n) (j : Fin g) : EReal :=
  ∑ l : Fin a, K (ix2 p l) * Q (ix2 j l)

/-- The sum of the squares of row `p` of the scores. -/
def sqE {n g a : ℕ} (K : Mat n a) (Q : Mat g a) (p : Fin n) : EReal :=
  ∑ j : Fin g, scoreE K Q p j * scoreE K Q p j

/-- The divisor of row `p`: the row's Euclidean norm, or `ε` if that is larger. -/
def den {n g a : ℕ} (ε : EReal) (K : Mat n a) (Q : Mat g a) (p : Fin n) : EReal :=
  max (Ideal.sqrt (sqE K Q p)) ε

/-- Row `p` of the scores against column `c` of `V`. -/
def dotE {n g a o : ℕ} (K : Mat n a) (Q : Mat g a) (V : Mat g o) (p : Fin n) (c : Fin o) : EReal :=
  ∑ j : Fin g, scoreE K Q p j * V (ix2 j c)

/-- The result with ONE division per entry: the sum first. `R` is the residual array (the rows of `V` at the result's rows). -/
def quotSum {n g a o : ℕ} (ε : EReal) (K : Mat n a) (Q : Mat g a) (V : Mat g o) (R : Mat n o) (p : Fin n) (c : Fin o) : EReal :=
  Ideal.div (dotE K Q V p c) (den ε K Q p) + R (ix2 p c)

/-- The result with every score divided before the sum. -/
def sumQuot {n g a o : ℕ} (ε : EReal) (K : Mat n a) (Q : Mat g a) (V : Mat g o) (R : Mat n o) (p : Fin n) (c : Fin o) : EReal :=
  (∑ j : Fin g, Ideal.div (scoreE K Q p j) (den ε K Q p) * V (ix2 j c)) + R (ix2 p c)

/-- Every entry a real number. -/
def IsReal {s : Shape} (A : s.Idx → EReal) : Prop := ∀ i, ∃ r : ℝ, A i = (r : EReal)

end Attn

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.ProjEntry.lean ====
/-
  One entry of what the projection body stores, on the extended reals. The body rounds x and a weight matrix W to
  the narrow format (the identity here), multiplies x by the transpose of W on the matrix unit into a zero
  accumulator, adds the bias row broadcast over the 1024 rows, and (for k and q) rounds again. So the entry at
  (r, a) is the sum over l of x (r, l) · W (a, l), plus b (0, a): the affine map of row r of x.
-/
import proofs.«178563_j25151328485711_1_alg».proof.Proof.Gen.KernelIdeal.Skeleton
import proofs.«178563_j25151328485711_1_alg».proof.Proof.Spec
import proofs.«178563_j25151328485711_1_alg».proof.Proof.LibMatProd
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ProjValue

open Cert.KernelIdeal Cert.KernelIdeal.Gen
open Idealize.ShloMosaic Idealize.ShloMosaic.ValueIdx

/-- A one-row array read as a vector. -/
def rowVec {k : ℕ} (b : (⟨2, ![1, k]⟩ : Shape).Idx → EReal) : Attn.Vec1 k := fun i => b (ix2 (0 : Fin 1) ⟨(i 0).val, (i 0).isLt⟩)

theorem rowVec_ix1 {k : ℕ} (b : (⟨2, ![1, k]⟩ : Shape).Idx → EReal) (a : Fin k) : rowVec b (ix1 a) = b (ix2 (0 : Fin 1) a) := rfl

/-! ## Where the matrix unit reads its operands: the left one at (row, contracted), the right one at (contracted, column) -/

theorem dotk_l0 (j : S1024x128.Idx) (q : dot_S1024x512_S512x128_S1024x128_1_0_0_1_n_n.contr.Idx) : (dot_S1024x512_S512x128_S1024x128_1_0_0_1_n_n.lhsIdx j q 0).val = (j 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem dotk_l1 (j : S1024x128.Idx) (q : dot_S1024x512_S512x128_S1024x128_1_0_0_1_n_n.contr.Idx) : (dot_S1024x512_S512x128_S1024x128_1_0_0_1_n_n.lhsIdx j q 1).val = (q ⟨0, by decide⟩).val :=
  dot_S1024x512_S512x128_S1024x128_1_0_0_1_n_n.lhsIdx_val_of_single rfl j q
theorem dotk_r0 (j : S1024x128.Idx) (q : dot_S1024x512_S512x128_S1024x128_1_0_0_1_n_n.contr.Idx) : (dot_S1024x512_S512x128_S1024x128_1_0_0_1_n_n.rhsIdx j q 0).val = (q ⟨0, by decide⟩).val :=
  dot_S1024x512_S512x128_S1024x128_1_0_0_1_n_n.rhsIdx_val_of_single rfl j q
theorem dotk_r1 (j : S1024x128.Idx) (q : dot_S1024x512_S512x128_S1024x128_1_0_0_1_n_n.contr.Idx) : (dot_S1024x512_S512x128_S1024x128_1_0_0_1_n_n.rhsIdx j q 1).val = (j 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

theorem dotv_l0 (j : S1024x512.Idx) (q : dot_S1024x512_S512x512_S1024x512_1_0_0_1_n_n.contr.Idx) : (dot_S1024x512_S512x512_S1024x512_1_0_0_1_n_n.lhsIdx j q 0).val = (j 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem dotv_l1 (j : S1024x512.Idx) (q : dot_S1024x512_S512x512_S1024x512_1_0_0_1_n_n.contr.Idx) : (dot_S1024x512_S512x512_S1024x512_1_0_0_1_n_n.lhsIdx j q 1).val = (q ⟨0, by decide⟩).val :=
  dot_S1024x512_S512x512_S1024x512_1_0_0_1_n_n.lhsIdx_val_of_single rfl j q
theorem dotv_r0 (j : S1024x512.Idx) (q : dot_S1024x512_S512x512_S1024x512_1_0_0_1_n_n.contr.Idx) : (dot_S1024x512_S512x512_S1024x512_1_0_0_1_n_n.rhsIdx j q 0).val = (q ⟨0, by decide⟩).val :=
  dot_S1024x512_S512x512_S1024x512_1_0_0_1_n_n.rhsIdx_val_of_single rfl j q
theorem dotv_r1 (j : S1024x512.Idx) (q : dot_S1024x512_S512x512_S1024x512_1_0_0_1_n_n.contr.Idx) : (dot_S1024x512_S512x512_S1024x512_1_0_0_1_n_n.rhsIdx j q 1).val = (j 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-! ## The three stored values at an entry -/

/-- The product part: x against the transposed, rounded weights, onto zero. -/
theorem prod_k (x : Vec Ideal S1024x512 .f32) (w : Vec Ideal S128x512 .f32) (r : Fin 1024) (a : Fin 128) :
    FloatOps.matmul dot_S1024x512_S512x128_S1024x128_1_0_0_1_n_n none (k0_pay1 (F := Ideal) x)
        (transpose S512x128 [1, 0] (truncf (F := Ideal) .bf16 w bitsLt_bf16_f32) transposes_S128x512_p1_0_S512x128)
        (constant (F := Ideal) S1024x128 .f32 0x00000000#32) (ix2 r a)
      = ∑ l : Fin 512, x (ix2 r l) * w (ix2 a l) := by
  refine (MatProd.matmul_zero_entry dot_S1024x512_S512x128_S1024x128_1_0_0_1_n_n none rfl rfl dotk_l0 dotk_l1 dotk_r0 dotk_r1 _ _ r a).trans ?_
  unfold MatProd.entry
  refine Finset.sum_congr rfl fun l _ => ?_
  refine congrArg (x (ix2 r l) * ·) ?_
  exact transpose_ix2_apply (truncf (F := Ideal) .bf16 w bitsLt_bf16_f32) transposes_S128x512_p1_0_S512x128 l a

theorem prod_v (x : Vec Ideal S1024x512 .f32) (w : Vec Ideal S512x512 .f32) (r : Fin 1024) (a : Fin 512) :
    FloatOps.matmul dot_S1024x512_S512x512_S1024x512_1_0_0_1_n_n none (k0_pay1 (F := Ideal) x)
        (transpose S512x512 [1, 0] (truncf (F := Ideal) .bf16 w bitsLt_bf16_f32) transposes_S512x512_p1_0_S512x512)
        (constant (F := Ideal) S1024x512 .f32 0x00000000#32) (ix2 r a)
      = ∑ l : Fin 512, x (ix2 r l) * w (ix2 a l) := by
  refine (MatProd.matmul_zero_entry dot_S1024x512_S512x512_S1024x512_1_0_0_1_n_n none rfl rfl dotv_l0 dotv_l1 dotv_r0 dotv_r1 _ _ r a).trans ?_
  unfold MatProd.entry
  refine Finset.sum_congr rfl fun l _ => ?_
  refine congrArg (x (ix2 r l) * ·) ?_
  exact transpose_ix2_apply (truncf (F := Ideal) .bf16 w bitsLt_bf16_f32) transposes_S512x512_p1_0_S512x512 l a

/-- The bias part: the one row, cast to its own shape and broadcast over the rows. -/
theorem bias_k (b : Vec Ideal S1x128 .f32) (r : Fin 1024) (a : Fin 128) :
    broadcastTo S1024x128 (shapeCast S1x128 b shapeCasts_S1x128_S1x128) broadcasts_S1x128_S1024x128 (ix2 r a) = b (ix2 (0 : Fin 1) a) :=
  (broadcastTo_1b_ab_apply _ broadcasts_S1x128_S1024x128 r a).trans (congrFun (shapeCast_self b shapeCasts_S1x128_S1x128) _)

theorem bias_v (b : Vec Ideal S1x512 .f32) (r : Fin 1024) (a : Fin 512) :
    broadcastTo S1024x512 (shapeCast S1x512 b shapeCasts_S1x512_S1x512) broadcasts_S1x512_S1024x512 (ix2 r a) = b (ix2 (0 : Fin 1) a) :=
  (broadcastTo_1b_ab_apply _ broadcasts_S1x512_S1024x512 r a).trans (congrFun (shapeCast_self b shapeCasts_S1x512_S1x512) _)

/-- The stored k at (r, a) is the affine map of row r of the block of x. -/
theorem k_entry (x : Vec Ideal S1024x512 .f32) (w : Vec Ideal S128x512 .f32) (b : Vec Ideal S1x128 .f32) (r : Fin 1024) (a : Fin 128) :
    k0_pay3 (F := Ideal) x w b (ix2 r a) = Attn.linE (n := 1024) (d := 512) (k := 128) x w (rowVec b) r a := by
  unfold k0_pay3 Attn.linE
  exact congrArg₂ (· + ·) (prod_k x w r a) (bias_k b r a)

/-- The stored q likewise. -/
theorem q_entry (x : Vec Ideal S1024x512 .f32) (w : Vec Ideal S128x512 .f32) (b : Vec Ideal S1x128 .f32) (r : Fin 1024) (a : Fin 128) :
    k0_pay4 (F := Ideal) x w b (ix2 r a) = Attn.linE (n := 1024) (d := 512) (k := 128) x w (rowVec b) r a := by
  unfold k0_pay4 Attn.linE
  exact congrArg₂ (· + ·) (prod_k x w r a) (bias_k b r a)

/-- The stored v likewise, with 512 columns. -/
theorem v_entry (x : Vec Ideal S1024x512 .f32) (w : Vec Ideal S512x512 .f32) (b : Vec Ideal S1x512 .f32) (r : Fin 1024) (a : Fin 512) :
    k0_pay2 (F := Ideal) x w b (ix2 r a) = Attn.linE (n := 1024) (d := 512) (k := 512) x w (rowVec b) r a := by
  unfold k0_pay2 Attn.linE
  exact congrArg₂ (· + ·) (prod_v x w r a) (bias_v b r a)

end Cert.KernelIdeal.ProjValue

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.ProjValue.lean ====
/-
  From the blocks to the arrays. At grid point t the projection call stores, for each of k, q and v, the affine map of
  rows 1024·t … 1024·t + 1023 of x (the block of x at t) under the whole weight matrix and the whole bias row, and
  writes them back to the same rows of the output. Row r of an output is therefore written at point r / 1024, the
  eight blocks tile the 8192 rows, and after the call each output array is the affine map of x, entry by entry.
-/
import proofs.«178563_j25151328485711_1_alg».proof.Proof.ProjFrame
import proofs.«178563_j25151328485711_1_alg».proof.Proof.ProjEntry
import proofs.«178563_j25151328485711_1_alg».proof.Proof.Spec
import proofs.«178563_j25151328485711_1_alg».proof.Proof.LibMatProd
import proofs.«178563_j25151328485711_1_alg».proof.Proof.LibRowCol
import proofs.«178563_j25151328485711_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ProjValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the core's buffer contents when the projection call is entered
variable (V : (c : Dev nD) → (b : Ref sig .tc) → Buf (Elt Ideal) ((c : Thread nD τ).loc b))

/-! ## Which block each window is on -/

/-- At point t: x and the three outputs are on row block t; the weights and the biases are on their one block. -/
theorem index_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0 :=
  (by decide +kernel : ∀ t : Fin grid0.N, _)

/-- The block of x at point t is rows 1024·t … of x. -/
theorem blk_x (c : Dev nD) (t : Fin cfg0.N) (ht : t.val < 8) (r : Fin 1024) (l : Fin 512) :
    (Proj.blk V c 0 t : S1024x512.Idx → EReal) (ix2 r l) = V c main_arg0 (ix2 (⟨t.val * 1024 + r.val, by omega⟩ : Fin 8192) l) := by
  obtain ⟨x0, x1, f10, f11, f20, f21, f30, f31, f40, f41, f50, f51, f60, f61, o70, o71, o80, o81, o90, o91⟩ := index_facts t
  have h : ((cfg0.win 0).blk t).view.emb (ix2 r l) = ix2 (⟨t.val * 1024 + r.val, by omega⟩ : Fin 8192) l := funext fun a => Fin.ext (by
    match a with
    | ⟨0, _⟩ => show win0_0.index t (0 : Fin 2) * 1024 + 1 * r.val = t.val * 1024 + r.val; omega
    | ⟨1, _⟩ => show win0_0.index t (1 : Fin 2) * 512 + 1 * l.val = l.val; omega)
  show V c main_arg0 (((cfg0.win 0).blk t).view.emb (ix2 r l)) = _
  rw [h]

/-- Window 1 has one block: its whole array. -/
theorem blk_wk (c : Dev nD) (t : Fin cfg0.N) : (Proj.blk V c 1 t : S128x512.Idx → EReal) = V c main_arg1 := by
  funext y
  obtain ⟨x0, x1, f10, f11, f20, f21, f30, f31, f40, f41, f50, f51, f60, f61, o70, o71, o80, o81, o90, o91⟩ := index_facts t
  have h : ((cfg0.win 1).blk t).view.emb y = y := funext fun a => Fin.ext (by
    match a with
    | ⟨0, _⟩ => show win0_1.index t (0 : Fin 2) * 128 + 1 * (y 0).val = (y 0).val; omega
    | ⟨1, _⟩ => show win0_1.index t (1 : Fin 2) * 512 + 1 * (y 1).val = (y 1).val; omega)
  show V c main_arg1 (((cfg0.win 1).blk t).view.emb y) = V c main_arg1 y
  rw [h]

/-- Window 2 has one block: its whole array. -/
theorem blk_bk (c : Dev nD) (t : Fin cfg0.N) : (Proj.blk V c 2 t : S1x128.Idx → EReal) = V c main_v0 := by
  funext y
  obtain ⟨x0, x1, f10, f11, f20, f21, f30, f31, f40, f41, f50, f51, f60, f61, o70, o71, o80, o81, o90, o91⟩ := index_facts t
  have h : ((cfg0.win 2).blk t).view.emb y = y := funext fun a => Fin.ext (by
    match a with
    | ⟨0, _⟩ => show win0_2.index t (0 : Fin 2) * 1 + 1 * (y 0).val = (y 0).val; omega
    | ⟨1, _⟩ => show win0_2.index t (1 : Fin 2) * 128 + 1 * (y 1).val = (y 1).val; omega)
  show V c main_v0 (((cfg0.win 2).blk t).view.emb y) = V c main_v0 y
  rw [h]

/-- Window 3 has one block: its whole array. -/
theorem blk_wq (c : Dev nD) (t : Fin cfg0.N) : (Proj.blk V c 3 t : S128x512.Idx → EReal) = V c main_arg3 := by
  funext y
  obtain ⟨x0, x1, f10, f11, f20, f21, f30, f31, f40, f41, f50, f51, f60, f61, o70, o71, o80, o81, o90, o91⟩ := index_facts t
  have h : ((cfg0.win 3).blk t).view.emb y = y := funext fun a => Fin.ext (by
    match a with
    | ⟨0, _⟩ => show win0_3.index t (0 : Fin 2) * 128 + 1 * (y 0).val = (y 0).val; omega
    | ⟨1, _⟩ => show win0_3.index t (1 : Fin 2) * 512 + 1 * (y 1).val = (y 1).val; omega)
  show V c main_arg3 (((cfg0.win 3).blk t).view.emb y) = V c main_arg3 y
  rw [h]

/-- Window 4 has one block: its whole array. -/
theorem blk_bq (c : Dev nD) (t : Fin cfg0.N) : (Proj.blk V c 4 t : S1x128.Idx → EReal) = V c main_v1 := by
  funext y
  obtain ⟨x0, x1, f10, f11, f20, f21, f30, f31, f40, f41, f50, f51, f60, f61, o70, o71, o80, o81, o90, o91⟩ := index_facts t
  have h : ((cfg0.win 4).blk t).view.emb y = y := funext fun a => Fin.ext (by
    match a with
    | ⟨0, _⟩ => show win0_4.index t (0 : Fin 2) * 1 + 1 * (y 0).val = (y 0).val; omega
    | ⟨1, _⟩ => show win0_4.index t (1 : Fin 2) * 128 + 1 * (y 1).val = (y 1).val; omega)
  show V c main_v1 (((cfg0.win 4).blk t).view.emb y) = V c main_v1 y
  rw [h]

/-- Window 5 has one block: its whole array. -/
theorem blk_wv (c : Dev nD) (t : Fin cfg0.N) : (Proj.blk V c 5 t : S512x512.Idx → EReal) = V c main_arg5 := by
  funext y
  obtain ⟨x0, x1, f10, f11, f20, f21, f30, f31, f40, f41, f50, f51, f60, f61, o70, o71, o80, o81, o90, o91⟩ := index_facts t
  have h : ((cfg0.win 5).blk t).view.emb y = y := funext fun a => Fin.ext (by
    match a with
    | ⟨0, _⟩ => show win0_5.index t (0 : Fin 2) * 512 + 1 * (y 0).val = (y 0).val; omega
    | ⟨1, _⟩ => show win0_5.index t (1 : Fin 2) * 512 + 1 * (y 1).val = (y 1).val; omega)
  show V c main_arg5 (((cfg0.win 5).blk t).view.emb y) = V c main_arg5 y
  rw [h]

/-- Window 6 has one block: its whole array. -/
theorem blk_bv (c : Dev nD) (t : Fin cfg0.N) : (Proj.blk V c 6 t : S1x512.Idx → EReal) = V c main_v2 := by
  funext y
  obtain ⟨x0, x1, f10, f11, f20, f21, f30, f31, f40, f41, f50, f51, f60, f61, o70, o71, o80, o81, o90, o91⟩ := index_facts t
  have h : ((cfg0.win 6).blk t).view.emb y = y := funext fun a => Fin.ext (by
    match a with
    | ⟨0, _⟩ => show win0_6.index t (0 : Fin 2) * 1 + 1 * (y 0).val = (y 0).val; omega
    | ⟨1, _⟩ => show win0_6.index t (1 : Fin 2) * 512 + 1 * (y 1).val = (y 1).val; omega)
  show V c main_v2 (((cfg0.win 6).blk t).view.emb y) = V c main_v2 y
  rw [h]

/-! ## k: window 7 -/

/-- What the body stores for k from a block of x that is rows 1024·o … of X, the whole weights and the whole bias row:
    rows 1024·o … of the affine map of X. -/
theorem k_rows (X : S8192x512.Idx → EReal) (W : S128x512.Idx → EReal) (B : S1x128.Idx → EReal)
    (x : Vec Ideal S1024x512 .f32) (w : Vec Ideal S128x512 .f32) (b : Vec Ideal S1x128 .f32) (o : ℕ) (ho : o < 8)
    (hx : ∀ (r : Fin 1024) (l : Fin 512), x (ix2 r l) = X (ix2 (⟨o * 1024 + r.val, by omega⟩ : Fin 8192) l)) (hw : w = W) (hb : b = B)
    (r : Fin 1024) (a : Fin 128) :
    k0_pay3 (F := Ideal) x w b (ix2 r a) = Attn.lin (n := 8192) (d := 512) (k := 128) X W (rowVec B) (ix2 (⟨o * 1024 + r.val, by omega⟩ : Fin 8192) a) := by
  subst hw hb
  rw [k_entry, Attn.lin_ix2]
  unfold Attn.linE
  refine congrArg (· + _) (Finset.sum_congr rfl fun l _ => ?_)
  rw [hx]

/-- Point t writes back rows 1024·t … 1024·t + 1023 of the affine map of x as the call finds it. -/
theorem flushed_k (c : Dev nD) (t : Fin cfg0.N) :
    (Proj.dat (F := Ideal) V c).flushed 7 t
      = ((cfg0.win 7).blk t).view.read (Elt Ideal) (Attn.lin (n := 8192) (d := 512) (k := 128) (V c main_arg0) (V c main_arg1) (rowVec (V c main_v0))) := by
  show (cfg0.win 7).cut (grid0.coords t) ((Proj.dat (F := Ideal) V c).after 7 t) = _
  rw [Proj.dat_after_k]
  funext j
  obtain ⟨r, a, rfl⟩ : ∃ (r : Fin 1024) (a : Fin 128), j = ix2 r a := ⟨j 0, j 1, eq_ix2 j⟩
  have ht : t.val < 8 := Nat.lt_of_lt_of_eq t.isLt N_0
  obtain ⟨x0, x1, f10, f11, f20, f21, f30, f31, f40, f41, f50, f51, f60, f61, o70, o71, o80, o81, o90, o91⟩ := index_facts t
  have h : ((cfg0.win 7).blk t).view.emb (ix2 r a) = ix2 (⟨t.val * 1024 + r.val, by omega⟩ : Fin 8192) a := funext fun ax => Fin.ext (by
    match ax with
    | ⟨0, _⟩ => show win0_7.index t (0 : Fin 2) * 1024 + 1 * r.val = t.val * 1024 + r.val; omega
    | ⟨1, _⟩ => show win0_7.index t (1 : Fin 2) * 128 + 1 * a.val = a.val; omega)
  show k0_pay3 (F := Ideal) (Proj.blk V c 0 t) (Proj.blk V c 1 t) (Proj.blk V c 2 t) (ix2 r a)
    = Attn.lin (n := 8192) (d := 512) (k := 128) (V c main_arg0) (V c main_arg1) (rowVec (V c main_v0)) (((cfg0.win 7).blk t).view.emb (ix2 r a))
  rw [h]
  exact k_rows (V c main_arg0) (V c main_arg1) (V c main_v0) (Proj.blk V c 0 t) (Proj.blk V c 1 t) (Proj.blk V c 2 t) t.val ht
    (blk_x V c t ht) (blk_wk V c t) (blk_bk V c t) r a

/-- An index of the array is in point t's block when each coordinate is in the block's range on its axis. -/
theorem mem_blk_k (t : Fin cfg0.N) (i : S8192x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v3_0).slice (win0_7.rect t)).set ↔ _
  rw [View.set_slice_whole, Rect.mem_set_unit]
  exact Iff.rfl

/-- Row r of the array is written back at point r / 1024. -/
theorem cover_k (i : S8192x128.Idx) : ∃ t : Fin cfg0.N, (cfg0.win 7).flush t = true ∧ i ∈ ((cfg0.win 7).blk t).view.set := by
  have hi0 : (i 0).val < 8192 := (i 0).isLt
  have hi1 : (i 1).val < 128 := (i 1).isLt
  obtain ⟨t, ht⟩ : ∃ t : Fin cfg0.N, t.val = (i 0).val / 1024 := ⟨⟨(i 0).val / 1024, by rw [show cfg0.N = 8 from N_0]; omega⟩, rfl⟩
  refine ⟨t, flush0_7 t, ?_⟩
  rw [mem_blk_k]
  obtain ⟨x0, x1, f10, f11, f20, f21, f30, f31, f40, f41, f50, f51, f60, f61, o70, o71, o80, o81, o90, o91⟩ := index_facts t
  intro ax
  match ax with
  | ⟨0, _⟩ => show win0_7.index t (0 : Fin 2) * 1024 ≤ (i 0).val ∧ (i 0).val < win0_7.index t (0 : Fin 2) * 1024 + 1024; omega
  | ⟨1, _⟩ => show win0_7.index t (1 : Fin 2) * 128 ≤ (i 1).val ∧ (i 1).val < win0_7.index t (1 : Fin 2) * 128 + 128; omega

/-- After the call the array of k holds the affine map of x, whole. -/
theorem arr_k (c : Dev nD) :
    ((Proj.dat (F := Ideal) V c).arrAt 7 cfg0.N : S8192x128.Idx → EReal)
      = Attn.lin (V c main_arg0) (V c main_arg1) (fun i => V c main_v0 (ix2 0 (i 0))) :=
  (Proj.dat (F := Ideal) V c).arrAt_eq_of_cover 7 _ (fun t _ => flushed_k V c t) cover_k

/-! ## q: window 8 -/

/-- What the body stores for q from a block of x that is rows 1024·o … of X, the whole weights and the whole bias row:
    rows 1024·o … of the affine map of X. -/
theorem q_rows (X : S8192x512.Idx → EReal) (W : S128x512.Idx → EReal) (B : S1x128.Idx → EReal)
    (x : Vec Ideal S1024x512 .f32) (w : Vec Ideal S128x512 .f32) (b : Vec Ideal S1x128 .f32) (o : ℕ) (ho : o < 8)
    (hx : ∀ (r : Fin 1024) (l : Fin 512), x (ix2 r l) = X (ix2 (⟨o * 1024 + r.val, by omega⟩ : Fin 8192) l)) (hw : w = W) (hb : b = B)
    (r : Fin 1024) (a : Fin 128) :
    k0_pay4 (F := Ideal) x w b (ix2 r a) = Attn.lin (n := 8192) (d := 512) (k := 128) X W (rowVec B) (ix2 (⟨o * 1024 + r.val, by omega⟩ : Fin 8192) a) := by
  subst hw hb
  rw [q_entry, Attn.lin_ix2]
  unfold Attn.linE
  refine congrArg (· + _) (Finset.sum_congr rfl fun l _ => ?_)
  rw [hx]

/-- Point t writes back rows 1024·t … 1024·t + 1023 of the affine map of x as the call finds it. -/
theorem flushed_q (c : Dev nD) (t : Fin cfg0.N) :
    (Proj.dat (F := Ideal) V c).flushed 8 t
      = ((cfg0.win 8).blk t).view.read (Elt Ideal) (Attn.lin (n := 8192) (d := 512) (k := 128) (V c main_arg0) (V c main_arg3) (rowVec (V c main_v1))) := by
  show (cfg0.win 8).cut (grid0.coords t) ((Proj.dat (F := Ideal) V c).after 8 t) = _
  rw [Proj.dat_after_q]
  funext j
  obtain ⟨r, a, rfl⟩ : ∃ (r : Fin 1024) (a : Fin 128), j = ix2 r a := ⟨j 0, j 1, eq_ix2 j⟩
  have ht : t.val < 8 := Nat.lt_of_lt_of_eq t.isLt N_0
  obtain ⟨x0, x1, f10, f11, f20, f21, f30, f31, f40, f41, f50, f51, f60, f61, o70, o71, o80, o81, o90, o91⟩ := index_facts t
  have h : ((cfg0.win 8).blk t).view.emb (ix2 r a) = ix2 (⟨t.val * 1024 + r.val, by omega⟩ : Fin 8192) a := funext fun ax => Fin.ext (by
    match ax with
    | ⟨0, _⟩ => show win0_8.index t (0 : Fin 2) * 1024 + 1 * r.val = t.val * 1024 + r.val; omega
    | ⟨1, _⟩ => show win0_8.index t (1 : Fin 2) * 128 + 1 * a.val = a.val; omega)
  show k0_pay4 (F := Ideal) (Proj.blk V c 0 t) (Proj.blk V c 3 t) (Proj.blk V c 4 t) (ix2 r a)
    = Attn.lin (n := 8192) (d := 512) (k := 128) (V c main_arg0) (V c main_arg3) (rowVec (V c main_v1)) (((cfg0.win 8).blk t).view.emb (ix2 r a))
  rw [h]
  exact q_rows (V c main_arg0) (V c main_arg3) (V c main_v1) (Proj.blk V c 0 t) (Proj.blk V c 3 t) (Proj.blk V c 4 t) t.val ht
    (blk_x V c t ht) (blk_wq V c t) (blk_bq V c t) r a

/-- An index of the array is in point t's block when each coordinate is in the block's range on its axis. -/
theorem mem_blk_q (t : Fin cfg0.N) (i : S8192x128.Idx) :
    i ∈ ((cfg0.win 8).blk t).view.set ↔ ∀ a : Fin 2, win0_8.index t a * S1024x128.size a ≤ (i a).val ∧ (i a).val < win0_8.index t a * S1024x128.size a + S1024x128.size a := by
  show i ∈ ((View.whole main_v3_1).slice (win0_8.rect t)).set ↔ _
  rw [View.set_slice_whole, Rect.mem_set_unit]
  exact Iff.rfl

/-- Row r of the array is written back at point r / 1024. -/
theorem cover_q (i : S8192x128.Idx) : ∃ t : Fin cfg0.N, (cfg0.win 8).flush t = true ∧ i ∈ ((cfg0.win 8).blk t).view.set := by
  have hi0 : (i 0).val < 8192 := (i 0).isLt
  have hi1 : (i 1).val < 128 := (i 1).isLt
  obtain ⟨t, ht⟩ : ∃ t : Fin cfg0.N, t.val = (i 0).val / 1024 := ⟨⟨(i 0).val / 1024, by rw [show cfg0.N = 8 from N_0]; omega⟩, rfl⟩
  refine ⟨t, flush0_8 t, ?_⟩
  rw [mem_blk_q]
  obtain ⟨x0, x1, f10, f11, f20, f21, f30, f31, f40, f41, f50, f51, f60, f61, o70, o71, o80, o81, o90, o91⟩ := index_facts t
  intro ax
  match ax with
  | ⟨0, _⟩ => show win0_8.index t (0 : Fin 2) * 1024 ≤ (i 0).val ∧ (i 0).val < win0_8.index t (0 : Fin 2) * 1024 + 1024; omega
  | ⟨1, _⟩ => show win0_8.index t (1 : Fin 2) * 128 ≤ (i 1).val ∧ (i 1).val < win0_8.index t (1 : Fin 2) * 128 + 128; omega

/-- After the call the array of q holds the affine map of x, whole. -/
theorem arr_q (c : Dev nD) :
    ((Proj.dat (F := Ideal) V c).arrAt 8 cfg0.N : S8192x128.Idx → EReal)
      = Attn.lin (V c main_arg0) (V c main_arg3) (fun i => V c main_v1 (ix2 0 (i 0))) :=
  (Proj.dat (F := Ideal) V c).arrAt_eq_of_cover 8 _ (fun t _ => flushed_q V c t) cover_q

/-! ## v: window 9 -/

/-- What the body stores for v from a block of x that is rows 1024·o … of X, the whole weights and the whole bias row:
    rows 1024·o … of the affine map of X. -/
theorem v_rows (X : S8192x512.Idx → EReal) (W : S512x512.Idx → EReal) (B : S1x512.Idx → EReal)
    (x : Vec Ideal S1024x512 .f32) (w : Vec Ideal S512x512 .f32) (b : Vec Ideal S1x512 .f32) (o : ℕ) (ho : o < 8)
    (hx : ∀ (r : Fin 1024) (l : Fin 512), x (ix2 r l) = X (ix2 (⟨o * 1024 + r.val, by omega⟩ : Fin 8192) l)) (hw : w = W) (hb : b = B)
    (r : Fin 1024) (a : Fin 512) :
    k0_pay2 (F := Ideal) x w b (ix2 r a) = Attn.lin (n := 8192) (d := 512) (k := 512) X W (rowVec B) (ix2 (⟨o * 1024 + r.val, by omega⟩ : Fin 8192) a) := by
  subst hw hb
  rw [v_entry, Attn.lin_ix2]
  unfold Attn.linE
  refine congrArg (· + _) (Finset.sum_congr rfl fun l _ => ?_)
  rw [hx]

/-- Point t writes back rows 1024·t … 1024·t + 1023 of the affine map of x as the call finds it. -/
theorem flushed_v (c : Dev nD) (t : Fin cfg0.N) :
    (Proj.dat (F := Ideal) V c).flushed 9 t
      = ((cfg0.win 9).blk t).view.read (Elt Ideal) (Attn.lin (n := 8192) (d := 512) (k := 512) (V c main_arg0) (V c main_arg5) (rowVec (V c main_v2))) := by
  show (cfg0.win 9).cut (grid0.coords t) ((Proj.dat (F := Ideal) V c).after 9 t) = _
  rw [Proj.dat_after_v]
  funext j
  obtain ⟨r, a, rfl⟩ : ∃ (r : Fin 1024) (a : Fin 512), j = ix2 r a := ⟨j 0, j 1, eq_ix2 j⟩
  have ht : t.val < 8 := Nat.lt_of_lt_of_eq t.isLt N_0
  obtain ⟨x0, x1, f10, f11, f20, f21, f30, f31, f40, f41, f50, f51, f60, f61, o70, o71, o80, o81, o90, o91⟩ := index_facts t
  have h : ((cfg0.win 9).blk t).view.emb (ix2 r a) = ix2 (⟨t.val * 1024 + r.val, by omega⟩ : Fin 8192) a := funext fun ax => Fin.ext (by
    match ax with
    | ⟨0, _⟩ => show win0_9.index t (0 : Fin 2) * 1024 + 1 * r.val = t.val * 1024 + r.val; omega
    | ⟨1, _⟩ => show win0_9.index t (1 : Fin 2) * 512 + 1 * a.val = a.val; omega)
  show k0_pay2 (F := Ideal) (Proj.blk V c 0 t) (Proj.blk V c 5 t) (Proj.blk V c 6 t) (ix2 r a)
    = Attn.lin (n := 8192) (d := 512) (k := 512) (V c main_arg0) (V c main_arg5) (rowVec (V c main_v2)) (((cfg0.win 9).blk t).view.emb (ix2 r a))
  rw [h]
  exact v_rows (V c main_arg0) (V c main_arg5) (V c main_v2) (Proj.blk V c 0 t) (Proj.blk V c 5 t) (Proj.blk V c 6 t) t.val ht
    (blk_x V c t ht) (blk_wv V c t) (blk_bv V c t) r a

/-- An index of the array is in point t's block when each coordinate is in the block's range on its axis. -/
theorem mem_blk_v (t : Fin cfg0.N) (i : S8192x512.Idx) :
    i ∈ ((cfg0.win 9).blk t).view.set ↔ ∀ a : Fin 2, win0_9.index t a * S1024x512.size a ≤ (i a).val ∧ (i a).val < win0_9.index t a * S1024x512.size a + S1024x512.size a := by
  show i ∈ ((View.whole main_v3_2).slice (win0_9.rect t)).set ↔ _
  rw [View.set_slice_whole, Rect.mem_set_unit]
  exact Iff.rfl

/-- Row r of the array is written back at point r / 1024. -/
theorem cover_v (i : S8192x512.Idx) : ∃ t : Fin cfg0.N, (cfg0.win 9).flush t = true ∧ i ∈ ((cfg0.win 9).blk t).view.set := by
  have hi0 : (i 0).val < 8192 := (i 0).isLt
  have hi1 : (i 1).val < 512 := (i 1).isLt
  obtain ⟨t, ht⟩ : ∃ t : Fin cfg0.N, t.val = (i 0).val / 1024 := ⟨⟨(i 0).val / 1024, by rw [show cfg0.N = 8 from N_0]; omega⟩, rfl⟩
  refine ⟨t, flush0_9 t, ?_⟩
  rw [mem_blk_v]
  obtain ⟨x0, x1, f10, f11, f20, f21, f30, f31, f40, f41, f50, f51, f60, f61, o70, o71, o80, o81, o90, o91⟩ := index_facts t
  intro ax
  match ax with
  | ⟨0, _⟩ => show win0_9.index t (0 : Fin 2) * 1024 ≤ (i 0).val ∧ (i 0).val < win0_9.index t (0 : Fin 2) * 1024 + 1024; omega
  | ⟨1, _⟩ => show win0_9.index t (1 : Fin 2) * 512 ≤ (i 1).val ∧ (i 1).val < win0_9.index t (1 : Fin 2) * 512 + 512; omega

/-- After the call the array of v holds the affine map of x, whole. -/
theorem arr_v (c : Dev nD) :
    ((Proj.dat (F := Ideal) V c).arrAt 9 cfg0.N : S8192x512.Idx → EReal)
      = Attn.lin (V c main_arg0) (V c main_arg5) (fun i => V c main_v2 (ix2 0 (i 0))) :=
  (Proj.dat (F := Ideal) V c).arrAt_eq_of_cover 9 _ (fun t _ => flushed_v V c t) cover_v

end Cert.KernelIdeal.ProjValue

end
-- ==== Proof.AccPieces.lean ====
/-
  The second kernel region: what each control case's stores leave, as explicit terms of what the case finds.

  In every case the body makes one whole-buffer store into the squares accumulator and then one into the product
  accumulator, each of a value computed from the loaded blocks of k, q and v and from what the accumulator held: the
  row sums of the squared scores added to the old sums, and the scores times the block of v added to the old product.
  At the first column tile both accumulators are first stored with zeros and loaded back, so "what the accumulator held"
  is the zero array; at the last column tile the two accumulators are loaded back after their stores and the output
  block is stored with their quotient plus the residual block. A whole-buffer store read back through the whole buffer
  is its value, and a load of a whole buffer reads its contents: that is all that is used.
-/
import proofs.«178563_j25151328485711_1_alg».proof.Proof.AccData
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every access of the body is at offset (0, 0) and of the buffer's full extent. -/
theorem origin2 : (![0, 0] : Fin 2 → Nat) = fun _ => 0 := funext fun a => by fin_cases a <;> rfl

/-- A load of the full extent from a whole buffer that holds X reads X. -/
theorem load_unread {S : Shape} {e : EltTy} {κ : Kind} {sp : Space} (m : Memref sig κ sp S e) (h : m.IsWhole) (X : S.Idx → Elt F e)
    (off : Fin S.rank → Nat) (hoff : off = fun _ => 0) (inb : ∀ a, off a + S.size a ≤ S.size a) :
    View.readAt (Elt F) m.view (Rect.unit off S.size inb).toLoadRect (h.unread X) = X :=
  (show View.ld (m.view.read (Elt F) (h.unread X)) (Rect.unit off S.size inb) = _ from View.ld_unit_zero (S := S) hoff inb _).trans
    (h.read_unread X)

/-! ## A middle column tile -/

theorem ssB_eq (c : Dev nD) (t : Fin cfg1.N) (hf : ¬atFirst (grid1.coords t)) (hl : ¬atLast (grid1.coords t))
    (xk xq : Vec F S1024x128 .bf16) (xvj xvi xa : Vec F S1024x512 .f32) (xs : Vec F S1024x1 .f32) :
    ssOf (stepB (F := F) c t hf hl xk xq xvj xvi xa xs).2.1 = k1_pay4 xk xq xs := by
  dsimp only [ssOf]
  rw [View.read_writes_eq_canon _ _ _ (coverB_ss c t hf hl xk xq xvj xvi xa xs)]
  unfold stepB runB
  dsimp only
  sl_unfold_words
  refine (View.canon_unit_zero (S := S1024x1) origin2 _ _).trans ?_
  exact congr (congr (congrArg (k1_pay4 (F := F)) (load_unread (mK t) (hK t) xk ![0, 0] origin2 inb_S1024x128_S1024x128_0_0)) (load_unread (mQ t) (hQ t) xq ![0, 0] origin2 inb_S1024x128_S1024x128_0_0)) (load_unread mSs (Memref.isWhole_whole _) xs ![0, 0] origin2 inb_S1024x1_S1024x1_0_0)

theorem accB_eq (c : Dev nD) (t : Fin cfg1.N) (hf : ¬atFirst (grid1.coords t)) (hl : ¬atLast (grid1.coords t))
    (xk xq : Vec F S1024x128 .bf16) (xvj xvi xa : Vec F S1024x512 .f32) (xs : Vec F S1024x1 .f32) :
    accOf (stepB (F := F) c t hf hl xk xq xvj xvi xa xs).1 = k1_pay5 xk xq xvj xa := by
  dsimp only [accOf]
  rw [View.read_writes_eq_canon _ _ _ (coverB_acc c t hf hl xk xq xvj xvi xa xs)]
  unfold stepB runB
  dsimp only
  sl_unfold_words
  refine (View.canon_unit_zero (S := S1024x512) origin2 _ _).trans ?_
  exact congr (congr (congr (congrArg (k1_pay5 (F := F)) (load_unread (mK t) (hK t) xk ![0, 0] origin2 inb_S1024x128_S1024x128_0_0)) (load_unread (mQ t) (hQ t) xq ![0, 0] origin2 inb_S1024x128_S1024x128_0_0)) (load_unread (mVj t) (hVj t) xvj ![0, 0] origin2 inb_S1024x512_S1024x512_0_0)) (load_unread mAcc (Memref.isWhole_whole _) xa ![0, 0] origin2 inb_S1024x512_S1024x512_0_0)

/-! ## The first column tile -/

theorem ssA_eq (c : Dev nD) (t : Fin cfg1.N) (hf : atFirst (grid1.coords t)) (hl : ¬atLast (grid1.coords t))
    (xk xq : Vec F S1024x128 .bf16) (xvj xvi : Vec F S1024x512 .f32) :
    ssOf (stepA (F := F) c t hf hl xk xq xvj xvi).2.1 = k1_pay4 xk xq (k1_pay2 (F := F)) := by
  dsimp only [ssOf]
  rw [View.read_writes_eq_canon _ _ _ (coverA_ss c t hf hl xk xq xvj xvi)]
  unfold stepA runA
  dsimp only
  sl_unfold_words
  refine (View.canon_cons_unit_zero (S := S1024x1) origin2 _ _ _).trans ?_
  exact congr (congr (congrArg (k1_pay4 (F := F)) (load_unread (mK t) (hK t) xk ![0, 0] origin2 inb_S1024x128_S1024x128_0_0)) (load_unread (mQ t) (hQ t) xq ![0, 0] origin2 inb_S1024x128_S1024x128_0_0))
    (View.readCov_unit_zero (S := S1024x1) mSs.view origin2 inb_S1024x1_S1024x1_0_0 _)

theorem accA_eq (c : Dev nD) (t : Fin cfg1.N) (hf : atFirst (grid1.coords t)) (hl : ¬atLast (grid1.coords t))
    (xk xq : Vec F S1024x128 .bf16) (xvj xvi : Vec F S1024x512 .f32) :
    accOf (stepA (F := F) c t hf hl xk xq xvj xvi).1 = k1_pay5 xk xq xvj (k1_pay1 (F := F)) := by
  dsimp only [accOf]
  rw [View.read_writes_eq_canon _ _ _ (coverA_acc c t hf hl xk xq xvj xvi)]
  unfold stepA runA
  dsimp only
  sl_unfold_words
  refine (View.canon_cons_unit_zero (S := S1024x512) origin2 _ _ _).trans ?_
  exact congr (congr (congr (congrArg (k1_pay5 (F := F)) (load_unread (mK t) (hK t) xk ![0, 0] origin2 inb_S1024x128_S1024x128_0_0)) (load_unread (mQ t) (hQ t) xq ![0, 0] origin2 inb_S1024x128_S1024x128_0_0)) (load_unread (mVj t) (hVj t) xvj ![0, 0] origin2 inb_S1024x512_S1024x512_0_0))
    (View.readCov_unit_zero (S := S1024x512) mAcc.view origin2 inb_S1024x512_S1024x512_0_0 _)

/-! ## The last column tile -/

theorem ssC_eq (c : Dev nD) (t : Fin cfg1.N) (hf : ¬atFirst (grid1.coords t)) (hl : atLast (grid1.coords t))
    (xk xq : Vec F S1024x128 .bf16) (xvj xvi xa : Vec F S1024x512 .f32) (xs : Vec F S1024x1 .f32) :
    ssOf (stepC (F := F) c t hf hl xk xq xvj xvi xa xs).2.2.1 = k1_pay4 xk xq xs := by
  dsimp only [ssOf]
  rw [View.read_writes_eq_canon _ _ _ (coverC_ss c t hf hl xk xq xvj xvi xa xs)]
  unfold stepC runC
  dsimp only
  sl_unfold_words
  refine (View.canon_unit_zero (S := S1024x1) origin2 _ _).trans ?_
  exact congr (congr (congrArg (k1_pay4 (F := F)) (load_unread (mK t) (hK t) xk ![0, 0] origin2 inb_S1024x128_S1024x128_0_0)) (load_unread (mQ t) (hQ t) xq ![0, 0] origin2 inb_S1024x128_S1024x128_0_0)) (load_unread mSs (Memref.isWhole_whole _) xs ![0, 0] origin2 inb_S1024x1_S1024x1_0_0)

theorem accC_eq (c : Dev nD) (t : Fin cfg1.N) (hf : ¬atFirst (grid1.coords t)) (hl : atLast (grid1.coords t))
    (xk xq : Vec F S1024x128 .bf16) (xvj xvi xa : Vec F S1024x512 .f32) (xs : Vec F S1024x1 .f32) :
    accOf (stepC (F := F) c t hf hl xk xq xvj xvi xa xs).2.1 = k1_pay5 xk xq xvj xa := by
  dsimp only [accOf]
  rw [View.read_writes_eq_canon _ _ _ (coverC_acc c t hf hl xk xq xvj xvi xa xs)]
  unfold stepC runC
  dsimp only
  sl_unfold_words
  refine (View.canon_unit_zero (S := S1024x512) origin2 _ _).trans ?_
  exact congr (congr (congr (congrArg (k1_pay5 (F := F)) (load_unread (mK t) (hK t) xk ![0, 0] origin2 inb_S1024x128_S1024x128_0_0)) (load_unread (mQ t) (hQ t) xq ![0, 0] origin2 inb_S1024x128_S1024x128_0_0)) (load_unread (mVj t) (hVj t) xvj ![0, 0] origin2 inb_S1024x512_S1024x512_0_0)) (load_unread mAcc (Memref.isWhole_whole _) xa ![0, 0] origin2 inb_S1024x512_S1024x512_0_0)

theorem outC_eq (c : Dev nD) (t : Fin cfg1.N) (hf : ¬atFirst (grid1.coords t)) (hl : atLast (grid1.coords t))
    (xk xq : Vec F S1024x128 .bf16) (xvj xvi xa : Vec F S1024x512 .f32) (xs : Vec F S1024x1 .f32) :
    outOf (stepC (F := F) c t hf hl xk xq xvj xvi xa xs).1 = k1_pay6 (k1_pay4 xk xq xs) (k1_pay5 xk xq xvj xa) xvi := by
  dsimp only [outOf]
  rw [View.read_writes_eq_canon _ _ _ (coverC_out c t hf hl xk xq xvj xvi xa xs)]
  unfold stepC runC
  dsimp only
  sl_unfold_words
  refine (View.canon_unit_zero (S := S1024x512) origin2 _ _).trans ?_
  refine congr (congr (congrArg (k1_pay6 (F := F)) ?_) ?_) (load_unread (mVi t) (hVi t) xvi ![0, 0] origin2 inb_S1024x512_S1024x512_0_0)
  · refine (View.readCov_unit_zero (S := S1024x1) mSs.view origin2 inb_S1024x1_S1024x1_0_0 _).trans ?_
    exact congr (congr (congrArg (k1_pay4 (F := F)) (load_unread (mK t) (hK t) xk ![0, 0] origin2 inb_S1024x128_S1024x128_0_0)) (load_unread (mQ t) (hQ t) xq ![0, 0] origin2 inb_S1024x128_S1024x128_0_0)) (load_unread mSs (Memref.isWhole_whole _) xs ![0, 0] origin2 inb_S1024x1_S1024x1_0_0)
  · refine (View.readCov_unit_zero (S := S1024x512) mAcc.view origin2 inb_S1024x512_S1024x512_0_0 _).trans ?_
    exact congr (congr (congr (congrArg (k1_pay5 (F := F)) (load_unread (mK t) (hK t) xk ![0, 0] origin2 inb_S1024x128_S1024x128_0_0)) (load_unread (mQ t) (hQ t) xq ![0, 0] origin2 inb_S1024x128_S1024x128_0_0)) (load_unread (mVj t) (hVj t) xvj ![0, 0] origin2 inb_S1024x512_S1024x512_0_0)) (load_unread mAcc (Memref.isWhole_whole _) xa ![0, 0] origin2 inb_S1024x512_S1024x512_0_0)

end Cert.KernelIdeal.Acc

end
-- ==== Proof.AccBlocks.lean ====
/-
  The second kernel region: which rows of the arrays each block is.

  Point `t` of the 8 × 8 grid is row tile `t / 8` and column tile `t % 8`.  The block of `K` and the block of the
  residual values are rows 1024·(t / 8) … of their arrays; the block of `Q` and the block of the values that are
  multiplied are rows 1024·(t % 8) … ; the output block is rows 1024·(t / 8) … of the output, written back at the last
  column tile.  Row `p` of the output is therefore written back at point 8·(p / 1024) + 7.
-/
import proofs.«178563_j25151328485711_1_alg».proof.Proof.AccData
import Idealize.ShloMosaic.Lib.Pipeline.Value
import Idealize.ShloMosaic.Lib.ValueIdx

set_option maxRecDepth 16384

noncomputable section

namespace Cert.KernelIdeal.AccValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the core's buffer contents when the region is entered
variable (V : (c : Dev nD) → (b : Ref sig .tc) → Buf (Elt Ideal) ((c : Thread nD τ).loc b))

/-! ## Which block each window is on -/

/-- At point `t`: the keys, the residual values and the output are on row block `t / 8`; the queries and the multiplied
    values on row block `t % 8`; every window is on its one column block. -/
theorem index_facts : ∀ t : Fin cfg1.N,
    win1_0.index t (0 : Fin 2) = t.val / 8
    ∧ win1_0.index t (1 : Fin 2) = 0
    ∧ win1_1.index t (0 : Fin 2) = t.val % 8
    ∧ win1_1.index t (1 : Fin 2) = 0
    ∧ win1_2.index t (0 : Fin 2) = t.val % 8
    ∧ win1_2.index t (1 : Fin 2) = 0
    ∧ win1_3.index t (0 : Fin 2) = t.val / 8
    ∧ win1_3.index t (1 : Fin 2) = 0
    ∧ win1_4.index t (0 : Fin 2) = t.val / 8
    ∧ win1_4.index t (1 : Fin 2) = 0 :=
  (by decide +kernel : ∀ t : Fin grid1.N, _)

/-- A point of the grid is below 64. -/
theorem point_lt (t : Fin cfg1.N) : t.val < 64 := Nat.lt_of_lt_of_eq t.isLt N_1

/-! ## The four input blocks -/

/-- The block of `K` at point `t` is rows 1024·(t / 8) … of `K`. -/
theorem blk_k (c : Dev nD) (t : Fin cfg1.N) (r : Fin 1024) (l : Fin 128) :
    (Acc.blk V c 0 t : S1024x128.Idx → EReal) (ix2 r l)
      = V c main_v3_0 (ix2 (⟨t.val / 8 * 1024 + r.val, by have := point_lt t; omega⟩ : Fin 8192) l) := by
  have ht := point_lt t
  obtain ⟨k0, k1, q0, q1, v0, v1, w0, w1, o0, o1⟩ := index_facts t
  have h : ((cfg1.win 0).blk t).view.emb (ix2 r l) = ix2 (⟨t.val / 8 * 1024 + r.val, by omega⟩ : Fin 8192) l :=
    funext fun a => Fin.ext (by
      match a with
      | ⟨0, _⟩ => show win1_0.index t (0 : Fin 2) * 1024 + 1 * r.val = t.val / 8 * 1024 + r.val; omega
      | ⟨1, _⟩ => show win1_0.index t (1 : Fin 2) * 128 + 1 * l.val = l.val; omega)
  show V c main_v3_0 (((cfg1.win 0).blk t).view.emb (ix2 r l)) = _
  rw [h]

/-- The block of `Q` at point `t` is rows 1024·(t % 8) … of `Q`. -/
theorem blk_q (c : Dev nD) (t : Fin cfg1.N) (r : Fin 1024) (l : Fin 128) :
    (Acc.blk V c 1 t : S1024x128.Idx → EReal) (ix2 r l)
      = V c main_v3_1 (ix2 (⟨t.val % 8 * 1024 + r.val, by omega⟩ : Fin 8192) l) := by
  obtain ⟨k0, k1, q0, q1, v0, v1, w0, w1, o0, o1⟩ := index_facts t
  have h : ((cfg1.win 1).blk t).view.emb (ix2 r l) = ix2 (⟨t.val % 8 * 1024 + r.val, by omega⟩ : Fin 8192) l :=
    funext fun a => Fin.ext (by
      match a with
      | ⟨0, _⟩ => show win1_1.index t (0 : Fin 2) * 1024 + 1 * r.val = t.val % 8 * 1024 + r.val; omega
      | ⟨1, _⟩ => show win1_1.index t (1 : Fin 2) * 128 + 1 * l.val = l.val; omega)
  show V c main_v3_1 (((cfg1.win 1).blk t).view.emb (ix2 r l)) = _
  rw [h]

/-- The block of the multiplied values at point `t` is rows 1024·(t % 8) … of the values. -/
theorem blk_vj (c : Dev nD) (t : Fin cfg1.N) (r : Fin 1024) (l : Fin 512) :
    (Acc.blk V c 2 t : S1024x512.Idx → EReal) (ix2 r l)
      = V c main_v3_2 (ix2 (⟨t.val % 8 * 1024 + r.val, by omega⟩ : Fin 8192) l) := by
  obtain ⟨k0, k1, q0, q1, v0, v1, w0, w1, o0, o1⟩ := index_facts t
  have h : ((cfg1.win 2).blk t).view.emb (ix2 r l) = ix2 (⟨t.val % 8 * 1024 + r.val, by omega⟩ : Fin 8192) l :=
    funext fun a => Fin.ext (by
      match a with
      | ⟨0, _⟩ => show win1_2.index t (0 : Fin 2) * 1024 + 1 * r.val = t.val % 8 * 1024 + r.val; omega
      | ⟨1, _⟩ => show win1_2.index t (1 : Fin 2) * 512 + 1 * l.val = l.val; omega)
  show V c main_v3_2 (((cfg1.win 2).blk t).view.emb (ix2 r l)) = _
  rw [h]

/-- The block of the residual values at point `t` is rows 1024·(t / 8) … of the values. -/
theorem blk_vi (c : Dev nD) (t : Fin cfg1.N) (r : Fin 1024) (l : Fin 512) :
    (Acc.blk V c 3 t : S1024x512.Idx → EReal) (ix2 r l)
      = V c main_v3_2 (ix2 (⟨t.val / 8 * 1024 + r.val, by have := point_lt t; omega⟩ : Fin 8192) l) := by
  have ht := point_lt t
  obtain ⟨k0, k1, q0, q1, v0, v1, w0, w1, o0, o1⟩ := index_facts t
  have h : ((cfg1.win 3).blk t).view.emb (ix2 r l) = ix2 (⟨t.val / 8 * 1024 + r.val, by omega⟩ : Fin 8192) l :=
    funext fun a => Fin.ext (by
      match a with
      | ⟨0, _⟩ => show win1_3.index t (0 : Fin 2) * 1024 + 1 * r.val = t.val / 8 * 1024 + r.val; omega
      | ⟨1, _⟩ => show win1_3.index t (1 : Fin 2) * 512 + 1 * l.val = l.val; omega)
  show V c main_v3_2 (((cfg1.win 3).blk t).view.emb (ix2 r l)) = _
  rw [h]

/-! ## The output block -/

/-- Entry `(r, a)` of the output block at point `t` is entry `(1024·(t / 8) + r, a)` of the output. -/
theorem emb_out (t : Fin cfg1.N) (r : Fin 1024) (a : Fin 512) :
    ((cfg1.win 4).blk t).view.emb (ix2 r a)
      = ix2 (⟨t.val / 8 * 1024 + r.val, by have := point_lt t; omega⟩ : Fin 8192) a := by
  have ht := point_lt t
  obtain ⟨k0, k1, q0, q1, v0, v1, w0, w1, o0, o1⟩ := index_facts t
  exact funext fun ax => Fin.ext (by
    match ax with
    | ⟨0, _⟩ => show win1_4.index t (0 : Fin 2) * 1024 + 1 * r.val = t.val / 8 * 1024 + r.val; omega
    | ⟨1, _⟩ => show win1_4.index t (1 : Fin 2) * 512 + 1 * a.val = a.val; omega)

/-- An index of the output is in point `t`'s block when each coordinate is in the block's range on its axis. -/
theorem mem_blk_out (t : Fin cfg1.N) (i : S8192x512.Idx) :
    i ∈ ((cfg1.win 4).blk t).view.set
      ↔ ∀ a : Fin 2, win1_4.index t a * S1024x512.size a ≤ (i a).val
          ∧ (i a).val < win1_4.index t a * S1024x512.size a + S1024x512.size a := by
  show i ∈ ((View.whole main_v4).slice (win1_4.rect t)).set ↔ _
  rw [View.set_slice_whole, Rect.mem_set_unit]
  exact Iff.rfl

/-- Row `p` of the output is written back at the last column tile of row tile `p / 1024`: point 8·(p / 1024) + 7. -/
theorem cover_out (i : S8192x512.Idx) :
    ∃ t : Fin cfg1.N, (cfg1.win 4).flush t = true ∧ i ∈ ((cfg1.win 4).blk t).view.set := by
  have hi0 : (i 0).val < 8192 := (i 0).isLt
  have hi1 : (i 1).val < 512 := (i 1).isLt
  obtain ⟨t, ht⟩ : ∃ t : Fin cfg1.N, t.val = (i 0).val / 1024 * 8 + 7 :=
    ⟨⟨(i 0).val / 1024 * 8 + 7, by rw [show cfg1.N = 64 from N_1]; omega⟩, rfl⟩
  refine ⟨t, (flush1_4 t).mpr (by omega), ?_⟩
  rw [mem_blk_out]
  obtain ⟨k0, k1, q0, q1, v0, v1, w0, w1, o0, o1⟩ := index_facts t
  intro ax
  match ax with
  | ⟨0, _⟩ =>
    show win1_4.index t (0 : Fin 2) * 1024 ≤ (i 0).val ∧ (i 0).val < win1_4.index t (0 : Fin 2) * 1024 + 1024
    omega
  | ⟨1, _⟩ =>
    show win1_4.index t (1 : Fin 2) * 512 ≤ (i 1).val ∧ (i 1).val < win1_4.index t (1 : Fin 2) * 512 + 512
    omega

end Cert.KernelIdeal.AccValue

end
-- ==== Proof.AccPayload.lean ====
/-
  The values the accumulating kernel stores, entry by entry on the extended reals.

  Per grid point the kernel holds a block of 1024 rows of `K` (`xk`), a block of 1024 rows of `Q` (`xq`), the matching
  block of `V` (`xvj`), and two running totals: `xa`, 1024 × 512, and `xs`, one number per row.  It stores
    • zero into both totals at the first column block;
    • the score block `S = xk · xqᵀ`: entry `(r, j)` is the sum over `l` of `xk (r, l) · xq (j, l)`;
    • `xs (r) +` the sum over `j` of `S (r, j)²`;
    • `xa (r, c) +` the sum over `j` of `S (r, j) · xvj (j, c)`;
    • at the last column block, `xa (r, c) / max (√(xs r)) ε + xvi (r, c)`, with `xvi` the block of `V` at the result's rows.
  Changes of float format and casts to the same shape are the identity here; a matrix product onto the zero array is
  the plain sum over the contracted coordinate.
-/
import proofs.«178563_j25151328485711_1_alg».proof.Proof.Gen.KernelIdeal.Skeleton
import proofs.«178563_j25151328485711_1_alg».proof.Proof.Spec
import proofs.«178563_j25151328485711_1_alg».proof.Proof.LibMatProd
import proofs.«178563_j25151328485711_1_alg».proof.Proof.LibLayout
import proofs.«178563_j25151328485711_1_alg».proof.Proof.LibRowCol
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.AccValue

open Cert.KernelIdeal Cert.KernelIdeal.Gen Idealize.ShloMosaic Idealize.ShloMosaic.ValueIdx

/-! ## Where the two matrix products read their operands -/

section ScoreProduct

/-- The score product reads its left operand at the result's row … -/
theorem score_lhs0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
/-- … and the contracted coordinate; … -/
theorem score_lhs1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
/-- … its right operand at the contracted coordinate … -/
theorem score_rhs0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
/-- … and the result's column. -/
theorem score_rhs1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

end ScoreProduct

section ValueProduct

/-- The product with `V` reads its left operand at the result's row … -/
theorem value_lhs0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
/-- … and the contracted coordinate; … -/
theorem value_lhs1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
/-- … its right operand at the contracted coordinate … -/
theorem value_rhs0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
/-- … and the result's column. -/
theorem value_rhs1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

end ValueProduct

/-! ## The stored values at an index -/

/-- The running total of the products starts at zero. -/
theorem pay1_apply (i : S1024x512.Idx) : k1_pay1 (F := Ideal) i = 0 := by
  unfold k1_pay1
  refine (congrFun (shapeCast_self _ _) i).trans ?_
  show Ideal.ofBits .f32 0x00000000#32 = 0
  exact Ideal.ofBits_zero_f32

/-- The running total of the squares starts at zero. -/
theorem pay2_apply (i : S1024x1.Idx) : k1_pay2 (F := Ideal) i = 0 := by
  unfold k1_pay2
  refine (congrFun (shapeCast_self _ _) i).trans ?_
  show Ideal.ofBits .f32 0x00000000#32 = 0
  exact Ideal.ofBits_zero_f32

/-- The score block: row `r` of the `K` block against row `j` of the `Q` block. -/
theorem pay3_ix2 (xk xq : FVec Ideal S1024x128 .bf16) (r j : Fin 1024) :
    k1_pay3 (F := Ideal) xk xq (ix2 r j) = ∑ l : Fin 128, xk (ix2 r l) * xq (ix2 j l) := by
  unfold k1_pay3
  dsimp only
  refine (MatProd.matmul_zero_entry (n := 1024) (k := 128) (m := 1024)
    dot_S1024x128_S128x1024_S1024x1024_1_0_0_1_n_n none rfl rfl score_lhs0 score_lhs1 score_rhs0 score_rhs1 _ _ r j).trans ?_
  unfold MatProd.entry
  refine Finset.sum_congr rfl fun l _ => ?_
  refine congrArg₂ (· * ·) (congrFun (shapeCast_self xk _) _) ?_
  refine (transpose_apply [1, 0] _ _ (ix2 l j) (ix2 j l) (fun b => match b with
    | ⟨0, _⟩ => rfl
    | ⟨1, _⟩ => rfl)).trans ?_
  exact congrFun (shapeCast_self xq _) _

/-- The running total of the squares: the total so far plus the sum of the squared scores of the row. -/
theorem pay4_ix2 (xk xq : FVec Ideal S1024x128 .bf16) (xs : FVec Ideal S1024x1 .f32) (r : Fin 1024) (u : Fin 1) :
    k1_pay4 (F := Ideal) xk xq xs (ix2 r u)
      = xs (ix2 r u) + ∑ j : Fin 1024, k1_pay3 (F := Ideal) xk xq (ix2 r j) * k1_pay3 (F := Ideal) xk xq (ix2 r j) := by
  unfold k1_pay4
  dsimp only
  generalize k1_pay3 (F := Ideal) xk xq = P
  refine (congrFun (shapeCast_self _ _) _).trans ?_
  show xs (ix2 r u) + _ = _
  refine congrArg (xs (ix2 r u) + ·) ?_
  refine (RowCol.shapeCast_a_a1_apply _ _ r u).trans ?_
  exact PushPull.Layout.sum_ab_1 (mulf P P) _ _ _ _ r

/-- The running total of the products: the total so far plus the scores of the row against column `c` of the `V` block. -/
theorem pay5_ix2 (xk xq : FVec Ideal S1024x128 .bf16) (xvj xa : FVec Ideal S1024x512 .f32) (r : Fin 1024) (c : Fin 512) :
    k1_pay5 (F := Ideal) xk xq xvj xa (ix2 r c)
      = xa (ix2 r c) + ∑ j : Fin 1024, k1_pay3 (F := Ideal) xk xq (ix2 r j) * xvj (ix2 j c) := by
  unfold k1_pay5
  generalize k1_pay3 (F := Ideal) xk xq = P
  refine (congrFun (shapeCast_self _ _) _).trans ?_
  show xa (ix2 r c) + _ = _
  refine congrArg (xa (ix2 r c) + ·) ?_
  refine (MatProd.matmul_zero_entry (n := 1024) (k := 1024) (m := 512)
    dot_S1024x1024_S1024x512_S1024x512_1_0_0_1_n_n none rfl rfl value_lhs0 value_lhs1 value_rhs0 value_rhs1 _ _ r c).trans ?_
  unfold MatProd.entry
  refine Finset.sum_congr rfl fun j _ => ?_
  exact congrArg (P (ix2 r j) * ·) (congrFun (shapeCast_self xvj _) _)

/-- The result block: the total of the products divided by the row's divisor, plus the `V` block at the result's rows. -/
theorem pay6_ix2 (xs : FVec Ideal S1024x1 .f32) (xa xvi : FVec Ideal S1024x512 .f32) (r : Fin 1024) (c : Fin 512) :
    k1_pay6 (F := Ideal) xs xa xvi (ix2 r c)
      = Ideal.div (xa (ix2 r c)) (max (Ideal.sqrt (xs (ix2 r 0))) (Ideal.ofBits .f32 0x2B8CBCCC#32)) + xvi (ix2 r c) := by
  unfold k1_pay6
  show Ideal.div (xa (ix2 r c)) _ + _ = _
  refine congrArg₂ (· + ·) (congrArg (Ideal.div (xa (ix2 r c))) ?_) (congrFun (shapeCast_self xvi _) _)
  refine (RowCol.broadcastTo_a1_ab_apply _ _ r c).trans ?_
  rfl

end Cert.KernelIdeal.AccValue

end
-- ==== Proof.LibTiles.lean ====
/-
  A sum over `T · B` consecutive indices, cut into `T` tiles of `B`, and a running total over tiles.

  `sum_tiles`: index `j < T · B` is `J · B + b` for exactly one tile `J < T` and one offset `b < B`, so the sum over all
  `j` is the sum over tiles of the sums over offsets.  `fold_tiles`: the running total that starts at `0 + a 0` and
  adds `a 1`, `a 2`, … in turn is, after `n` further steps, the sum of `a 0 … a n`.
-/
import Mathlib.Algebra.BigOperators.Fin
import Mathlib.Tactic.Ring

open scoped BigOperators

namespace Tiles

/-- The sum over tiles of the sums inside each tile is the sum over all indices. -/
theorem sum_tiles {M : Type*} [AddCommMonoid M] (T B : ℕ) (f : ℕ → M) :
    ∑ J : Fin T, ∑ b : Fin B, f (J.val * B + b.val) = ∑ j : Fin (T * B), f j.val := by
  rw [← (finProdFinEquiv (m := T) (n := B)).sum_comp (fun j => f j.val), Fintype.sum_prod_type]
  refine Finset.sum_congr rfl fun J _ => Finset.sum_congr rfl fun b _ => ?_
  refine congrArg f ?_
  show J.val * B + b.val = b.val + B * J.val
  ring

/-- The running total over tiles, started from `0 + a 0`, is the sum of the tiles' contributions. -/
theorem fold_tiles {M : Type*} [AddCommMonoid M] (a : ℕ → M) (n : ℕ) :
    (Nat.rec (motive := fun _ => M) (0 + a 0) (fun k x => x + a (k + 1)) n) = ∑ J ∈ Finset.range (n + 1), a J := by
  induction n with
  | zero => simp
  | succ k ih =>
    show (Nat.rec (motive := fun _ => M) (0 + a 0) (fun k x => x + a (k + 1)) k) + a (k + 1) = _
    rw [ih, Finset.sum_range_succ _ (k + 1)]

end Tiles
-- ==== Proof.AccSums.lean ====
/-
  One row of the result, tile by tile.

  Row `p` of the scores has 8192 entries, cut into 8 tiles of 1024.  The contribution of tile `J` to the product with
  column `c` of the values is the sum over the tile's 1024 columns `j` of `S (p, j) · Vals (j, c)`, and to the row's sum
  of squares the sum of `S (p, j)²`.  The eight contributions add up to the full sums (`dotE`, `sqE`).  A kernel block
  computes one contribution from its blocks of `K`, `Q` and the values, adds it to the running total, and at the last
  tile divides the total product by the larger of the root of the total of squares and the small constant, and adds
  the residual: the specification's entry with one division.
-/
import proofs.«178563_j25151328485711_1_alg».proof.Proof.AccPayload
import proofs.«178563_j25151328485711_1_alg».proof.Proof.LibTiles
import proofs.«178563_j25151328485711_1_alg».proof.Proof.Spec

noncomputable section

open scoped BigOperators

namespace Cert.KernelIdeal.AccValue

open Cert.KernelIdeal Cert.KernelIdeal.Gen Idealize.ShloMosaic Idealize.ShloMosaic.ValueIdx
open Attn

variable (K Q : Mat 8192 128) (Vals : Mat 8192 512)

/-! ## The terms and the tiles of a row's sums -/

/-- Term `j` of row `p`'s product with column `c` of the values (zero past the last column). -/
def termV (p : Fin 8192) (c : Fin 512) (j : ℕ) : EReal :=
  if h : j < 8192 then scoreE K Q p ⟨j, h⟩ * Vals (ix2 ⟨j, h⟩ c) else 0
/-- Term `j` of row `p`'s sum of squares (zero past the last column). -/
def termS (p : Fin 8192) (j : ℕ) : EReal :=
  if h : j < 8192 then scoreE K Q p ⟨j, h⟩ * scoreE K Q p ⟨j, h⟩ else 0

/-- The contribution of column tile `J` to the product. -/
def tileV (p : Fin 8192) (c : Fin 512) (J : ℕ) : EReal := ∑ jj : Fin 1024, termV K Q Vals p c (J * 1024 + jj.val)
/-- The contribution of column tile `J` to the sum of squares. -/
def tileS (p : Fin 8192) (J : ℕ) : EReal := ∑ jj : Fin 1024, termS K Q p (J * 1024 + jj.val)

/-- The eight tiles' contributions make up the product of the row with the column. -/
theorem sum_tileV (p : Fin 8192) (c : Fin 512) : ∑ J ∈ Finset.range 8, tileV K Q Vals p c J = dotE K Q Vals p c := by
  rw [Finset.sum_range]
  unfold tileV
  rw [Tiles.sum_tiles 8 1024 (termV K Q Vals p c)]
  unfold dotE
  show ∑ j : Fin 8192, termV K Q Vals p c j.val = _
  refine Finset.sum_congr rfl fun j _ => ?_
  unfold termV
  rw [dif_pos j.isLt]

/-- The eight tiles' contributions make up the row's sum of squares. -/
theorem sum_tileS (p : Fin 8192) : ∑ J ∈ Finset.range 8, tileS K Q p J = sqE K Q p := by
  rw [Finset.sum_range]
  unfold tileS
  rw [Tiles.sum_tiles 8 1024 (termS K Q p)]
  unfold sqE
  show ∑ j : Fin 8192, termS K Q p j.val = _
  refine Finset.sum_congr rfl fun j _ => ?_
  unfold termS
  rw [dif_pos j.isLt]

/-! ## One block of the kernel: row tile `I`, column tile `J` -/

section Block

variable (xk xq : FVec Ideal S1024x128 .bf16) (xvj : FVec Ideal S1024x512 .f32) (I J : ℕ) (hI : I < 8) (hJ : J < 8)
  (hk : ∀ (r : Fin 1024) (l : Fin 128), xk (ix2 r l) = K (ix2 (⟨I * 1024 + r.val, by omega⟩ : Fin 8192) l))
  (hq : ∀ (r : Fin 1024) (l : Fin 128), xq (ix2 r l) = Q (ix2 (⟨J * 1024 + r.val, by omega⟩ : Fin 8192) l))

include hk hq in
/-- The block's scores are the scores of rows 1024·I … against columns 1024·J …. -/
theorem score_block (r jj : Fin 1024) :
    k1_pay3 (F := Ideal) xk xq (ix2 r jj)
      = scoreE K Q (⟨I * 1024 + r.val, by omega⟩ : Fin 8192) (⟨J * 1024 + jj.val, by omega⟩ : Fin 8192) := by
  rw [pay3_ix2]
  unfold scoreE
  exact Finset.sum_congr rfl fun l _ => by rw [hk, hq]

variable (hv : ∀ (r : Fin 1024) (c : Fin 512), xvj (ix2 r c) = Vals (ix2 (⟨J * 1024 + r.val, by omega⟩ : Fin 8192) c))

include hk hq hv in
/-- The block's product with its block of the values is tile `J`'s contribution to the row's product. -/
theorem prod_block (r : Fin 1024) (c : Fin 512) :
    ∑ jj : Fin 1024, k1_pay3 (F := Ideal) xk xq (ix2 r jj) * xvj (ix2 jj c)
      = tileV K Q Vals (⟨I * 1024 + r.val, by omega⟩ : Fin 8192) c J := by
  unfold tileV
  refine Finset.sum_congr rfl fun jj _ => ?_
  unfold termV
  rw [dif_pos (show J * 1024 + jj.val < 8192 by omega), score_block K Q xk xq I J hI hJ hk hq r jj, hv]

include hk hq in
/-- The block's squared scores, summed along a row, are tile `J`'s contribution to the row's sum of squares. -/
theorem sq_block (r : Fin 1024) :
    ∑ jj : Fin 1024, k1_pay3 (F := Ideal) xk xq (ix2 r jj) * k1_pay3 (F := Ideal) xk xq (ix2 r jj)
      = tileS K Q (⟨I * 1024 + r.val, by omega⟩ : Fin 8192) J := by
  unfold tileS
  refine Finset.sum_congr rfl fun jj _ => ?_
  unfold termS
  rw [dif_pos (show J * 1024 + jj.val < 8192 by omega), score_block K Q xk xq I J hI hJ hk hq r jj]

include hk hq hv in
/-- Adding the block's product to a running total that holds tiles `0 … J - 1` gives tiles `0 … J`. -/
theorem acc_next (xa : FVec Ideal S1024x512 .f32) (r : Fin 1024) (c : Fin 512)
    (ha : xa (ix2 r c) = ∑ J' ∈ Finset.range J, tileV K Q Vals (⟨I * 1024 + r.val, by omega⟩ : Fin 8192) c J') :
    k1_pay5 (F := Ideal) xk xq xvj xa (ix2 r c)
      = ∑ J' ∈ Finset.range (J + 1), tileV K Q Vals (⟨I * 1024 + r.val, by omega⟩ : Fin 8192) c J' := by
  rw [pay5_ix2, ha, prod_block K Q Vals xk xq xvj I J hI hJ hk hq hv r c, Finset.sum_range_succ]

include hk hq in
/-- Adding the block's squares to a running total that holds tiles `0 … J - 1` gives tiles `0 … J`. -/
theorem ss_next (xs : FVec Ideal S1024x1 .f32) (r : Fin 1024) (u : Fin 1)
    (hs : xs (ix2 r u) = ∑ J' ∈ Finset.range J, tileS K Q (⟨I * 1024 + r.val, by omega⟩ : Fin 8192) J') :
    k1_pay4 (F := Ideal) xk xq xs (ix2 r u)
      = ∑ J' ∈ Finset.range (J + 1), tileS K Q (⟨I * 1024 + r.val, by omega⟩ : Fin 8192) J' := by
  rw [pay4_ix2, hs, sq_block K Q xk xq I J hI hJ hk hq r, Finset.sum_range_succ]

end Block

/-- The result block from the full totals: the specification's entry with one division. -/
theorem out_last (xs : FVec Ideal S1024x1 .f32) (xa xvi : FVec Ideal S1024x512 .f32) (p : Fin 8192) (r : Fin 1024) (c : Fin 512)
    (ha : xa (ix2 r c) = dotE K Q Vals p c) (hs : xs (ix2 r (0 : Fin 1)) = sqE K Q p) (hvi : xvi (ix2 r c) = Vals (ix2 p c)) :
    k1_pay6 (F := Ideal) xs xa xvi (ix2 r c) = quotSum (Ideal.ofBits .f32 0x2B8CBCCC#32) K Q Vals Vals p c := by
  rw [pay6_ix2, ha, hs, hvi]
  rfl

end Cert.KernelIdeal.AccValue

end
-- ==== Proof.AccFold.lean ====
/-
  The second kernel region: the two running totals after every grid point.

  Within row tile `I`, after the point at column tile `J` the product total at `(r, c)` is the sum of the contributions
  of column tiles `0 … J` to row `1024·I + r`'s product with column `c` of the values, and the squares total at `r` the
  sum of their contributions to that row's sum of squares.  By induction along the points: the first column tile adds
  its contribution to zero, every later one to what the point before left.  At the last column tile the output block
  is the quotient of the two new totals plus the residual block.
-/
import proofs.«178563_j25151328485711_1_alg».proof.Proof.AccData
import proofs.«178563_j25151328485711_1_alg».proof.Proof.AccPieces
import proofs.«178563_j25151328485711_1_alg».proof.Proof.AccBlocks
import proofs.«178563_j25151328485711_1_alg».proof.Proof.AccSums

set_option maxRecDepth 16384

noncomputable section

open scoped BigOperators

namespace Cert.KernelIdeal.AccValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Attn

variable (V : (c : Dev nD) → (b : Ref sig .tc) → Buf (Elt Ideal) ((c : Thread nD τ).loc b))

/-! ## What each point leaves, as the stored values of its blocks -/

/-- A first column tile: the product total is the block's product added to zero. -/
theorem acc_first_eq (c : Dev nD) (t : Fin cfg1.N) (h0 : t.val % 8 = 0) (hf : Acc.atFirst (grid1.coords t))
    (hl : ¬Acc.atLast (grid1.coords t)) :
    (Acc.stateAt V c t.val t.isLt).2.1
      = k1_pay5 (F := Ideal) (Acc.blk V c 0 t) (Acc.blk V c 1 t) (Acc.blk V c 2 t) (k1_pay1 (F := Ideal)) := by
  rw [Acc.stateAt_first V c t h0 hf hl]
  dsimp only
  exact Acc.accA_eq (F := Ideal) c t hf hl (Acc.blk V c 0 t) (Acc.blk V c 1 t) (Acc.blk V c 2 t) (Acc.blk V c 3 t)

/-- A first column tile: the squares total is the block's squares added to zero. -/
theorem ss_first_eq (c : Dev nD) (t : Fin cfg1.N) (h0 : t.val % 8 = 0) (hf : Acc.atFirst (grid1.coords t))
    (hl : ¬Acc.atLast (grid1.coords t)) :
    (Acc.stateAt V c t.val t.isLt).2.2
      = k1_pay4 (F := Ideal) (Acc.blk V c 0 t) (Acc.blk V c 1 t) (k1_pay2 (F := Ideal)) := by
  rw [Acc.stateAt_first V c t h0 hf hl]
  dsimp only
  exact Acc.ssA_eq (F := Ideal) c t hf hl (Acc.blk V c 0 t) (Acc.blk V c 1 t) (Acc.blk V c 2 t) (Acc.blk V c 3 t)

/-- A middle column tile: the block's product added to what the point before left. -/
theorem acc_mid_eq (c : Dev nD) (t : Fin cfg1.N) (h0 : ¬t.val % 8 = 0) (h1 : ¬t.val % 8 = 7)
    (hf : ¬Acc.atFirst (grid1.coords t)) (hl : ¬Acc.atLast (grid1.coords t)) :
    (Acc.stateAt V c t.val t.isLt).2.1
      = k1_pay5 (F := Ideal) (Acc.blk V c 0 t) (Acc.blk V c 1 t) (Acc.blk V c 2 t) (Acc.prevAt V c t).2.1 := by
  rw [Acc.stateAt_middle V c t h0 h1 hf hl]
  dsimp only
  exact Acc.accB_eq (F := Ideal) c t hf hl (Acc.blk V c 0 t) (Acc.blk V c 1 t) (Acc.blk V c 2 t) (Acc.blk V c 3 t)
    (Acc.prevAt V c t).2.1 (Acc.prevAt V c t).2.2

/-- A middle column tile: the block's squares added to what the point before left. -/
theorem ss_mid_eq (c : Dev nD) (t : Fin cfg1.N) (h0 : ¬t.val % 8 = 0) (h1 : ¬t.val % 8 = 7)
    (hf : ¬Acc.atFirst (grid1.coords t)) (hl : ¬Acc.atLast (grid1.coords t)) :
    (Acc.stateAt V c t.val t.isLt).2.2
      = k1_pay4 (F := Ideal) (Acc.blk V c 0 t) (Acc.blk V c 1 t) (Acc.prevAt V c t).2.2 := by
  rw [Acc.stateAt_middle V c t h0 h1 hf hl]
  dsimp only
  exact Acc.ssB_eq (F := Ideal) c t hf hl (Acc.blk V c 0 t) (Acc.blk V c 1 t) (Acc.blk V c 2 t) (Acc.blk V c 3 t)
    (Acc.prevAt V c t).2.1 (Acc.prevAt V c t).2.2

/-- The last column tile: the totals as at a middle one … -/
theorem acc_last_eq (c : Dev nD) (t : Fin cfg1.N) (h0 : ¬t.val % 8 = 0) (h1 : t.val % 8 = 7)
    (hf : ¬Acc.atFirst (grid1.coords t)) (hl : Acc.atLast (grid1.coords t)) :
    (Acc.stateAt V c t.val t.isLt).2.1
      = k1_pay5 (F := Ideal) (Acc.blk V c 0 t) (Acc.blk V c 1 t) (Acc.blk V c 2 t) (Acc.prevAt V c t).2.1 := by
  rw [Acc.stateAt_last V c t h0 h1 hf hl]
  dsimp only
  exact Acc.accC_eq (F := Ideal) c t hf hl (Acc.blk V c 0 t) (Acc.blk V c 1 t) (Acc.blk V c 2 t) (Acc.blk V c 3 t)
    (Acc.prevAt V c t).2.1 (Acc.prevAt V c t).2.2

theorem ss_last_eq (c : Dev nD) (t : Fin cfg1.N) (h0 : ¬t.val % 8 = 0) (h1 : t.val % 8 = 7)
    (hf : ¬Acc.atFirst (grid1.coords t)) (hl : Acc.atLast (grid1.coords t)) :
    (Acc.stateAt V c t.val t.isLt).2.2
      = k1_pay4 (F := Ideal) (Acc.blk V c 0 t) (Acc.blk V c 1 t) (Acc.prevAt V c t).2.2 := by
  rw [Acc.stateAt_last V c t h0 h1 hf hl]
  dsimp only
  exact Acc.ssC_eq (F := Ideal) c t hf hl (Acc.blk V c 0 t) (Acc.blk V c 1 t) (Acc.blk V c 2 t) (Acc.blk V c 3 t)
    (Acc.prevAt V c t).2.1 (Acc.prevAt V c t).2.2

/-- … and the output block is the quotient of the new totals plus the residual block. -/
theorem out_last_eq (c : Dev nD) (t : Fin cfg1.N) (h0 : ¬t.val % 8 = 0) (h1 : t.val % 8 = 7)
    (hf : ¬Acc.atFirst (grid1.coords t)) (hl : Acc.atLast (grid1.coords t)) :
    (Acc.stateAt V c t.val t.isLt).1
      = k1_pay6 (F := Ideal) (Acc.stateAt V c t.val t.isLt).2.2 (Acc.stateAt V c t.val t.isLt).2.1 (Acc.blk V c 3 t) := by
  rw [ss_last_eq V c t h0 h1 hf hl, acc_last_eq V c t h0 h1 hf hl, Acc.stateAt_last V c t h0 h1 hf hl]
  dsimp only
  exact Acc.outC_eq (F := Ideal) c t hf hl (Acc.blk V c 0 t) (Acc.blk V c 1 t) (Acc.blk V c 2 t) (Acc.blk V c 3 t)
    (Acc.prevAt V c t).2.1 (Acc.prevAt V c t).2.2

/-- The two totals hold column tiles `0 … J` of the rows of row tile `I`. -/
def TotalsAre (c : Dev nD) (A : S1024x512.Idx → EReal) (S : S1024x1.Idx → EReal) (I J : ℕ) (hI : I < 8) : Prop :=
  (∀ (r : Fin 1024) (cc : Fin 512), A (ix2 r cc)
      = ∑ J' ∈ Finset.range J, tileV (V c main_v3_0) (V c main_v3_1) (V c main_v3_2) (⟨I * 1024 + r.val, by omega⟩ : Fin 8192) cc J')
  ∧ (∀ (r : Fin 1024) (u : Fin 1), S (ix2 r u)
      = ∑ J' ∈ Finset.range J, tileS (V c main_v3_0) (V c main_v3_1) (⟨I * 1024 + r.val, by omega⟩ : Fin 8192) J')

/-! ## The blocks by row tile `I` and column tile `J` of the point -/

section AtTile

variable (c : Dev nD) (t : Fin cfg1.N) (I J : ℕ) (h : t.val = I * 8 + J) (hJ : J < 8) (hI : I < 8)

include h hJ hI in
theorem blk_k_at (r : Fin 1024) (l : Fin 128) :
    (Acc.blk V c 0 t : S1024x128.Idx → EReal) (ix2 r l) = V c main_v3_0 (ix2 (⟨I * 1024 + r.val, by omega⟩ : Fin 8192) l) :=
  (blk_k V c t r l).trans (congrArg (fun p : Fin 8192 => V c main_v3_0 (ix2 p l))
    (Fin.ext (by show t.val / 8 * 1024 + r.val = I * 1024 + r.val; omega)))

include h hJ hI in
theorem blk_q_at (r : Fin 1024) (l : Fin 128) :
    (Acc.blk V c 1 t : S1024x128.Idx → EReal) (ix2 r l) = V c main_v3_1 (ix2 (⟨J * 1024 + r.val, by omega⟩ : Fin 8192) l) :=
  (blk_q V c t r l).trans (congrArg (fun p : Fin 8192 => V c main_v3_1 (ix2 p l))
    (Fin.ext (by show t.val % 8 * 1024 + r.val = J * 1024 + r.val; omega)))

include h hJ hI in
theorem blk_vj_at (r : Fin 1024) (l : Fin 512) :
    (Acc.blk V c 2 t : S1024x512.Idx → EReal) (ix2 r l) = V c main_v3_2 (ix2 (⟨J * 1024 + r.val, by omega⟩ : Fin 8192) l) :=
  (blk_vj V c t r l).trans (congrArg (fun p : Fin 8192 => V c main_v3_2 (ix2 p l))
    (Fin.ext (by show t.val % 8 * 1024 + r.val = J * 1024 + r.val; omega)))

include h hJ hI in
theorem blk_vi_at (r : Fin 1024) (l : Fin 512) :
    (Acc.blk V c 3 t : S1024x512.Idx → EReal) (ix2 r l) = V c main_v3_2 (ix2 (⟨I * 1024 + r.val, by omega⟩ : Fin 8192) l) :=
  (blk_vi V c t r l).trans (congrArg (fun p : Fin 8192 => V c main_v3_2 (ix2 p l))
    (Fin.ext (by show t.val / 8 * 1024 + r.val = I * 1024 + r.val; omega)))

include h hJ in
/-- One point: from the totals the point before left (tiles `0 … J - 1`; nothing is asked at the first column tile) to
    the totals it leaves (tiles `0 … J`). -/
theorem totals_step
    (prev : J ≠ 0 → TotalsAre V c (Acc.prevAt V c t).2.1 (Acc.prevAt V c t).2.2 I J hI) :
    TotalsAre V c (Acc.stateAt V c t.val t.isLt).2.1 (Acc.stateAt V c t.val t.isLt).2.2 I (J + 1) hI := by
  by_cases hJ0 : J = 0
  · have h0 : t.val % 8 = 0 := by omega
    have hf : Acc.atFirst (grid1.coords t) := (Acc.atFirst_iff t).mpr h0
    have hl : ¬Acc.atLast (grid1.coords t) := fun hh => absurd ((Acc.atLast_iff t).mp hh) (by omega)
    refine ⟨fun r cc => ?_, fun r u => ?_⟩
    · rw [acc_first_eq V c t h0 hf hl]
      exact acc_next (V c main_v3_0) (V c main_v3_1) (V c main_v3_2) (Acc.blk V c 0 t) (Acc.blk V c 1 t) (Acc.blk V c 2 t)
        I J hI hJ (blk_k_at V c t I J h hJ hI) (blk_q_at V c t I J h hJ hI) (blk_vj_at V c t I J h hJ hI)
        (k1_pay1 (F := Ideal)) r cc ((pay1_apply _).trans (by rw [hJ0, Finset.sum_range_zero]))
    · rw [ss_first_eq V c t h0 hf hl]
      exact ss_next (V c main_v3_0) (V c main_v3_1) (Acc.blk V c 0 t) (Acc.blk V c 1 t)
        I J hI hJ (blk_k_at V c t I J h hJ hI) (blk_q_at V c t I J h hJ hI)
        (k1_pay2 (F := Ideal)) r u ((pay2_apply _).trans (by rw [hJ0, Finset.sum_range_zero]))
  · have h0 : ¬t.val % 8 = 0 := by omega
    have hf : ¬Acc.atFirst (grid1.coords t) := fun hh => h0 ((Acc.atFirst_iff t).mp hh)
    obtain ⟨pA, pS⟩ := prev hJ0
    by_cases h1 : t.val % 8 = 7
    · have hl : Acc.atLast (grid1.coords t) := (Acc.atLast_iff t).mpr h1
      refine ⟨fun r cc => ?_, fun r u => ?_⟩
      · rw [acc_last_eq V c t h0 h1 hf hl]
        exact acc_next (V c main_v3_0) (V c main_v3_1) (V c main_v3_2) (Acc.blk V c 0 t) (Acc.blk V c 1 t) (Acc.blk V c 2 t)
          I J hI hJ (blk_k_at V c t I J h hJ hI) (blk_q_at V c t I J h hJ hI) (blk_vj_at V c t I J h hJ hI)
          (Acc.prevAt V c t).2.1 r cc (pA r cc)
      · rw [ss_last_eq V c t h0 h1 hf hl]
        exact ss_next (V c main_v3_0) (V c main_v3_1) (Acc.blk V c 0 t) (Acc.blk V c 1 t)
          I J hI hJ (blk_k_at V c t I J h hJ hI) (blk_q_at V c t I J h hJ hI)
          (Acc.prevAt V c t).2.2 r u (pS r u)
    · have hl : ¬Acc.atLast (grid1.coords t) := fun hh => h1 ((Acc.atLast_iff t).mp hh)
      refine ⟨fun r cc => ?_, fun r u => ?_⟩
      · rw [acc_mid_eq V c t h0 h1 hf hl]
        exact acc_next (V c main_v3_0) (V c main_v3_1) (V c main_v3_2) (Acc.blk V c 0 t) (Acc.blk V c 1 t) (Acc.blk V c 2 t)
          I J hI hJ (blk_k_at V c t I J h hJ hI) (blk_q_at V c t I J h hJ hI) (blk_vj_at V c t I J h hJ hI)
          (Acc.prevAt V c t).2.1 r cc (pA r cc)
      · rw [ss_mid_eq V c t h0 h1 hf hl]
        exact ss_next (V c main_v3_0) (V c main_v3_1) (Acc.blk V c 0 t) (Acc.blk V c 1 t)
          I J hI hJ (blk_k_at V c t I J h hJ hI) (blk_q_at V c t I J h hJ hI)
          (Acc.prevAt V c t).2.2 r u (pS r u)

end AtTile

/-- After the point at row tile `I`, column tile `J`, the two totals hold column tiles `0 … J`: along the points. -/
theorem totals_at (c : Dev nD) : ∀ (n : ℕ) (t : Fin cfg1.N) (I J : ℕ), t.val = n → t.val = I * 8 + J → J < 8 → ∀ hI : I < 8,
    TotalsAre V c (Acc.stateAt V c t.val t.isLt).2.1 (Acc.stateAt V c t.val t.isLt).2.2 I (J + 1) hI := by
  intro n
  induction n with
  | zero =>
    intro t I J hn h hJ hI
    exact totals_step V c t I J h hJ hI (fun hJ0 => absurd (by omega) hJ0)
  | succ m ih =>
    intro t I J hn h hJ hI
    refine totals_step V c t I J h hJ hI (fun hJ0 => ?_)
    have ht1 : t.val - 1 < cfg1.N := Nat.lt_of_le_of_lt (Nat.sub_le _ _) t.isLt
    have hp := ih ⟨t.val - 1, ht1⟩ I (J - 1) (by show t.val - 1 = m; omega) (by show t.val - 1 = I * 8 + (J - 1); omega)
      (by omega) hI
    rw [Nat.sub_add_cancel (Nat.pos_of_ne_zero hJ0)] at hp
    exact hp

end Cert.KernelIdeal.AccValue

end
-- ==== Proof.AccValue.lean ====
/-
  The second kernel region: the output array after the region.

  The output block is written back at the last column tile of each row tile, and then holds, at `(r, c)`, the product
  total divided by the larger of the root of the squares total and the small constant, plus the residual block: with
  the totals complete (all eight column tiles) this is the specification's entry at row `1024·(t / 8) + r` with one
  division.  The eight written-back blocks tile the 8192 rows, so the whole array is the specification.
-/
import proofs.«178563_j25151328485711_1_alg».proof.Proof.AccFold

set_option maxRecDepth 16384

noncomputable section

open scoped BigOperators

namespace Cert.KernelIdeal.AccValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Attn

variable (V : (c : Dev nD) → (b : Ref sig .tc) → Buf (Elt Ideal) ((c : Thread nD τ).loc b))

/-- What point `t` writes back, at a last column tile: rows 1024·(t / 8) … of the result with one division per entry. -/
theorem flushed_out (c : Dev nD) (t : Fin cfg1.N) (hfl : (cfg1.win 4).flush t = true) :
    (Acc.dat (F := Ideal) V c).flushed 4 t
      = ((cfg1.win 4).blk t).view.read (Elt Ideal)
          (fun i : S8192x512.Idx => Attn.quotSum (Ideal.ofBits .f32 0x2B8CBCCC#32) (V c main_v3_0) (V c main_v3_1) (V c main_v3_2)
            (V c main_v3_2) ⟨(i 0).val, idx2_lt0 i⟩ ⟨(i 1).val, idx2_lt1 i⟩) := by
  have h7 : t.val % 8 = 7 := (flush1_4 t).mp hfl
  have ht := point_lt t
  have h0 : ¬t.val % 8 = 0 := by omega
  have hf : ¬Acc.atFirst (grid1.coords t) := fun hh => h0 ((Acc.atFirst_iff t).mp hh)
  have hl : Acc.atLast (grid1.coords t) := (Acc.atLast_iff t).mpr h7
  show (cfg1.win 4).cut (grid1.coords t) ((Acc.dat (F := Ideal) V c).after 4 t) = _
  rw [Acc.dat_after4]
  funext j
  obtain ⟨r, a, rfl⟩ : ∃ (r : Fin 1024) (a : Fin 512), j = ix2 r a := ⟨j 0, j 1, eq_ix2 j⟩
  obtain ⟨tA, tS⟩ := totals_at V c t.val t (t.val / 8) 7 rfl (by omega) (by omega) (by omega)
  show ((Acc.stateAt V c t.val t.isLt).1 : S1024x512.Idx → EReal) (ix2 r a)
    = (fun i : S8192x512.Idx => Attn.quotSum (Ideal.ofBits .f32 0x2B8CBCCC#32) (V c main_v3_0) (V c main_v3_1) (V c main_v3_2)
        (V c main_v3_2) ⟨(i 0).val, idx2_lt0 i⟩ ⟨(i 1).val, idx2_lt1 i⟩) (((cfg1.win 4).blk t).view.emb (ix2 r a))
  rw [emb_out, out_last_eq V c t h0 h7 hf hl]
  exact out_last (V c main_v3_0) (V c main_v3_1) (V c main_v3_2) _ _ (Acc.blk V c 3 t)
    (⟨t.val / 8 * 1024 + r.val, by omega⟩ : Fin 8192) r a
    ((tA r a).trans (sum_tileV _ _ _ _ _)) ((tS r 0).trans (sum_tileS _ _ _)) (blk_vi V c t r a)

/-- After the region the output array holds, entry by entry, the specification with one division. -/
theorem arr_out (c : Dev nD) :
    ((Acc.dat (F := Ideal) V c).arrAt 4 cfg1.N : S8192x512.Idx → EReal)
      = fun i => Attn.quotSum (Ideal.ofBits .f32 0x2B8CBCCC#32) (V c main_v3_0) (V c main_v3_1) (V c main_v3_2) (V c main_v3_2)
          ⟨(i 0).val, idx2_lt0 i⟩ ⟨(i 1).val, idx2_lt1 i⟩ :=
  (Acc.dat (F := Ideal) V c).arrAt_eq_of_cover 4 _ (fun t hfl => flushed_out V c t hfl) cover_out

end Cert.KernelIdeal.AccValue

end
-- ==== Proof.HostVals.lean ====
/-
  Before the first kernel runs, the host turns each of the three bias vectors into a one-row array (a reshape of [k]
  into [1, k]) and touches nothing else. So when the kernels start, entry (0, a) of a bias row is entry a of the bias
  vector the program was launched with, and x and the three weight matrices are as launched.
-/
import proofs.«178563_j25151328485711_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostVals

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ) (c : Dev nD)

/-! ## The three bias rows -/

/-- The row of k's bias is the launched bias vector with a unit axis put in front. -/
theorem row_k : (V1 m c main_v0 : S1x128.Idx → Elt F .f32)
    = shapeCast S1x128 (m ((c : Thread nD τ).loc main_arg2) : S128.Idx → Elt F .f32) shapeCasts_S128_S1x128 := by
  dsimp only [V1, hostOps0]; after_results; rfl

theorem row_q : (V1 m c main_v1 : S1x128.Idx → Elt F .f32)
    = shapeCast S1x128 (m ((c : Thread nD τ).loc main_arg4) : S128.Idx → Elt F .f32) shapeCasts_S128_S1x128 := by
  dsimp only [V1, hostOps0]; after_results; rfl

theorem row_v : (V1 m c main_v2 : S1x512.Idx → Elt F .f32)
    = shapeCast S1x512 (m ((c : Thread nD τ).loc main_arg6) : S512.Idx → Elt F .f32) shapeCasts_S512_S1x512 := by
  dsimp only [V1, hostOps0]; after_results; rfl

/-- Entry (0, a) of the row is entry a of the vector. -/
theorem bias_k (a : Fin 128) : (V1 m c main_v0 : S1x128.Idx → Elt F .f32) (ix2 0 a)
    = (m ((c : Thread nD τ).loc main_arg2) : S128.Idx → Elt F .f32) (ix1 a) := by
  rw [row_k]; exact shapeCast_a_1a_apply _ shapeCasts_S128_S1x128 0 a

theorem bias_q (a : Fin 128) : (V1 m c main_v1 : S1x128.Idx → Elt F .f32) (ix2 0 a)
    = (m ((c : Thread nD τ).loc main_arg4) : S128.Idx → Elt F .f32) (ix1 a) := by
  rw [row_q]; exact shapeCast_a_1a_apply _ shapeCasts_S128_S1x128 0 a

theorem bias_v (a : Fin 512) : (V1 m c main_v2 : S1x512.Idx → Elt F .f32) (ix2 0 a)
    = (m ((c : Thread nD τ).loc main_arg6) : S512.Idx → Elt F .f32) (ix1 a) := by
  rw [row_v]; exact shapeCast_a_1a_apply _ shapeCasts_S512_S1x512 0 a

/-! ## The four matrices are as launched -/

theorem arg_x : V1 m c main_arg0 = m ((c : Thread nD τ).loc main_arg0) := (V1_of m c main_arg0 (by decide)).trans rfl
theorem arg_wk : V1 m c main_arg1 = m ((c : Thread nD τ).loc main_arg1) := (V1_of m c main_arg1 (by decide)).trans rfl
theorem arg_wq : V1 m c main_arg3 = m ((c : Thread nD τ).loc main_arg3) := (V1_of m c main_arg3 (by decide)).trans rfl
theorem arg_wv : V1 m c main_arg5 = m ((c : Thread nD τ).loc main_arg5) := (V1_of m c main_arg5 (by decide)).trans rfl

end Cert.KernelIdeal.HostVals

end
-- ==== Proof.RefIsSpec.lean ====
/-
  The reference program, read entry by entry, is the specification with every score divided before the sum.

  Its three affine maps are `lin` of the rows against the weight rows plus the offsets (the weights are transposed and
  contracted on their second axis, the offset row is broadcast down the rows); the score matrix is the contraction of
  the `K` rows with the transposed `Q` rows; the row sum of the squared scores starts from zero; its square root,
  bounded below by the small constant, is broadcast along each row and divides every score; the result is the
  contraction of the quotients with `V`, plus `V`.
-/
import proofs.«178563_j25151328485711_1_alg».proof.Proof.Gen.ReferenceIdeal.Read
import proofs.«178563_j25151328485711_1_alg».proof.Proof.Spec

noncomputable section

open scoped BigOperators

namespace Attn.Ref

open Cert.ReferenceIdeal Cert.ReferenceIdeal.Read Idealize.ShloMosaic Idealize.ShloMosaic.ValueIdx

set_option quotPrecheck false in
local notation "T8192x512" => (⟨S8192x512, .f32⟩ : BufTy).Contents (Elt Ideal)
set_option quotPrecheck false in
local notation "T128x512" => (⟨S128x512, .f32⟩ : BufTy).Contents (Elt Ideal)
set_option quotPrecheck false in
local notation "T512x512" => (⟨S512x512, .f32⟩ : BufTy).Contents (Elt Ideal)
set_option quotPrecheck false in
local notation "T128" => (⟨S128, .f32⟩ : BufTy).Contents (Elt Ideal)
set_option quotPrecheck false in
local notation "T512" => (⟨S512, .f32⟩ : BufTy).Contents (Elt Ideal)

/-- Entry `(p, a)` of the first affine map (`K`): row `p` of the input against row `a` of the weights, plus offset `a`. -/
theorem k_at (x0 : T8192x512) (x1 : T128x512) (x2 : T128) (p : Fin 8192) (a : Fin 128) :
    val_main_v4 (F := Ideal) x0 x1 x2 (ix2 p a) = Attn.linE x0 x1 x2 p a := by
  rw [val_main_v4_apply, val_main_v1_apply, val_main_v3_apply, val_main_v2_apply]
  unfold Attn.linE
  show (_ : EReal) + _ = _
  refine congrArg₂ (· + ·) (Finset.sum_congr rfl fun l _ => ?_) ?_
  · rw [val_main_v0_apply]
    refine congrArg₂ (· * ·) (congrArg x0 ?_) (congrArg x1 ?_)
    · exact funext fun d => Fin.ext (by match d with | ⟨0, _⟩ => rfl | ⟨1, _⟩ => rfl)
    · exact funext fun d => Fin.ext (by match d with | ⟨0, _⟩ => rfl | ⟨1, _⟩ => rfl)
  · exact congrArg x2 (funext fun d => Fin.ext (by match d with | ⟨0, _⟩ => rfl))

/-- Entry `(p, a)` of the second affine map (`Q`). -/
theorem q_at (x0 : T8192x512) (x3 : T128x512) (x4 : T128) (p : Fin 8192) (a : Fin 128) :
    val_main_v9 (F := Ideal) x0 x3 x4 (ix2 p a) = Attn.linE x0 x3 x4 p a := by
  rw [val_main_v9_apply, val_main_v6_apply, val_main_v8_apply, val_main_v7_apply]
  unfold Attn.linE
  show (_ : EReal) + _ = _
  refine congrArg₂ (· + ·) (Finset.sum_congr rfl fun l _ => ?_) ?_
  · rw [val_main_v5_apply]
    refine congrArg₂ (· * ·) (congrArg x0 ?_) (congrArg x3 ?_)
    · exact funext fun d => Fin.ext (by match d with | ⟨0, _⟩ => rfl | ⟨1, _⟩ => rfl)
    · exact funext fun d => Fin.ext (by match d with | ⟨0, _⟩ => rfl | ⟨1, _⟩ => rfl)
  · exact congrArg x4 (funext fun d => Fin.ext (by match d with | ⟨0, _⟩ => rfl))

/-- Entry `(p, c)` of the third affine map (`V`). -/
theorem v_at (x0 : T8192x512) (x5 : T512x512) (x6 : T512) (p : Fin 8192) (c : Fin 512) :
    val_main_v14 (F := Ideal) x0 x5 x6 (ix2 p c) = Attn.linE x0 x5 x6 p c := by
  rw [val_main_v14_apply, val_main_v11_apply, val_main_v13_apply, val_main_v12_apply]
  unfold Attn.linE
  show (_ : EReal) + _ = _
  refine congrArg₂ (· + ·) (Finset.sum_congr rfl fun l _ => ?_) ?_
  · rw [val_main_v10_apply]
    refine congrArg₂ (· * ·) (congrArg x0 ?_) (congrArg x5 ?_)
    · exact funext fun d => Fin.ext (by match d with | ⟨0, _⟩ => rfl | ⟨1, _⟩ => rfl)
    · exact funext fun d => Fin.ext (by match d with | ⟨0, _⟩ => rfl | ⟨1, _⟩ => rfl)
  · exact congrArg x6 (funext fun d => Fin.ext (by match d with | ⟨0, _⟩ => rfl))

/-- Entry `(p, j)` of the score matrix: row `p` of `K` against row `j` of `Q` (the transposed `Q` read back). -/
theorem score_at (x0 : T8192x512) (x1 : T128x512) (x2 : T128) (x3 : T128x512) (x4 : T128) (p j : Fin 8192) :
    val_main_v16 (F := Ideal) x0 x1 x2 x3 x4 (ix2 p j)
      = Attn.scoreE (Attn.lin x0 x1 x2) (Attn.lin x0 x3 x4) p j := by
  rw [val_main_v16_apply]
  unfold Attn.scoreE
  refine Finset.sum_congr rfl fun l _ => ?_
  rw [val_main_v15_apply]
  have e1 : lidx_main_v16 (ix2 p j) l = ix2 p l :=
    funext fun d => Fin.ext (by match d with | ⟨0, _⟩ => rfl | ⟨1, _⟩ => rfl)
  have e2 : idx_main_v15 (ridx_main_v16 (ix2 p j) l) = ix2 j l :=
    funext fun d => Fin.ext (by match d with | ⟨0, _⟩ => rfl | ⟨1, _⟩ => rfl)
  rw [e1, e2, k_at, q_at, Attn.lin_ix2, Attn.lin_ix2]

/-- The sum of the squares of row `p` of the scores; the sum starts from the zero constant. -/
theorem sq_at (x0 : T8192x512) (x1 : T128x512) (x2 : T128) (x3 : T128x512) (x4 : T128) (p : Fin 8192) :
    val_main_v18 (F := Ideal) x0 x1 x2 x3 x4 (ix1 p)
      = Attn.sqE (Attn.lin x0 x1 x2) (Attn.lin x0 x3 x4) p := by
  rw [val_main_v18_apply, val_main_cst_apply, Ideal.ofBits_def, Ideal.ofBits_zero_f32, zero_add]
  unfold Attn.sqE
  refine Finset.sum_congr rfl fun j _ => ?_
  have e : idx_main_v18 (ix1 p) j = ix2 p j :=
    funext fun d => Fin.ext (by match d with | ⟨0, _⟩ => rfl | ⟨1, _⟩ => rfl)
  rw [e, val_main_v17_apply, score_at, Ideal.mulf_def]

/-- The divisor of row `p`, the same along the row: the square root of the row's sum of squares, or the small
    constant if that is larger. -/
theorem den_at (x0 : T8192x512) (x1 : T128x512) (x2 : T128) (x3 : T128x512) (x4 : T128) (p j : Fin 8192) :
    val_main_v23 (F := Ideal) x0 x1 x2 x3 x4 (ix2 p j)
      = Attn.den (Ideal.ofBits .f32 0x2B8CBCCC#32) (Attn.lin x0 x1 x2) (Attn.lin x0 x3 x4) p := by
  rw [val_main_v23_apply, val_main_v22_apply, val_main_v20_apply, val_main_v19_apply, val_main_v21_apply,
    val_main_cst_0_apply]
  have e : idx_main_v19 (idx_main_v23 (ix2 p j)) = ix1 p :=
    funext fun d => Fin.ext (by match d with | ⟨0, _⟩ => rfl)
  rw [e, sq_at, Ideal.maximumf_def, Ideal.hostUnary_sqrt_def, Ideal.ofBits_def]
  rfl

/-- Entry `(p, j)` of the divided scores. -/
theorem quot_at (x0 : T8192x512) (x1 : T128x512) (x2 : T128) (x3 : T128x512) (x4 : T128) (p j : Fin 8192) :
    val_main_v24 (F := Ideal) x0 x1 x2 x3 x4 (ix2 p j)
      = Ideal.div (Attn.scoreE (Attn.lin x0 x1 x2) (Attn.lin x0 x3 x4) p j)
          (Attn.den (Ideal.ofBits .f32 0x2B8CBCCC#32) (Attn.lin x0 x1 x2) (Attn.lin x0 x3 x4) p) := by
  rw [val_main_v24_apply, score_at, den_at, Ideal.hostDivf_def]

/-- The reference's result at `(p, c)`: every score of row `p` divided by the row's divisor, the quotients
    contracted with column `c` of `V`, plus `V (p, c)`. -/
theorem ref_apply (x0 : (⟨S8192x512, .f32⟩ : BufTy).Contents (Elt Ideal)) (x1 : (⟨S128x512, .f32⟩ : BufTy).Contents (Elt Ideal))
    (x2 : (⟨S128, .f32⟩ : BufTy).Contents (Elt Ideal)) (x3 : (⟨S128x512, .f32⟩ : BufTy).Contents (Elt Ideal))
    (x4 : (⟨S128, .f32⟩ : BufTy).Contents (Elt Ideal)) (x5 : (⟨S512x512, .f32⟩ : BufTy).Contents (Elt Ideal))
    (x6 : (⟨S512, .f32⟩ : BufTy).Contents (Elt Ideal)) (p : Fin 8192) (c : Fin 512) :
    Cert.ReferenceIdeal.Read.val_main_v26 (F := Ideal) x0 x1 x2 x3 x4 x5 x6 (ix2 p c)
      = Attn.sumQuot (Ideal.ofBits .f32 0x2B8CBCCC#32) (Attn.lin x0 x1 x2) (Attn.lin x0 x3 x4) (Attn.lin x0 x5 x6)
          (Attn.lin x0 x5 x6) p c := by
  rw [val_main_v26_apply, val_main_v25_apply, v_at]
  unfold Attn.sumQuot
  show (_ : EReal) + _ = _
  refine congrArg₂ (· + ·) (Finset.sum_congr rfl fun j _ => ?_) (Attn.lin_ix2 x0 x5 x6 p c).symm
  have e1 : lidx_main_v25 (ix2 p c) j = ix2 p j :=
    funext fun d => Fin.ext (by match d with | ⟨0, _⟩ => rfl | ⟨1, _⟩ => rfl)
  have e2 : ridx_main_v25 (ix2 p c) j = ix2 j c :=
    funext fun d => Fin.ext (by match d with | ⟨0, _⟩ => rfl | ⟨1, _⟩ => rfl)
  rw [e1, e2, quot_at, v_at, Attn.lin_ix2]

end Attn.Ref

end
-- ==== Proof.LibRealSums.lean ====
/-
  Finite sums of real numbers, read on the extended reals.

  Coercion from the reals to the extended reals commutes with a finite sum (`coe_sum_real`: by induction on the index
  set, the coercion being additive), and a finite sum of products of extended reals each of which is a real number is the
  coercion of the real sum of the real products (`sum_mul_of_real`).  With these a computation on extended reals whose
  inputs are all finite can be carried out in the reals, where a factor moves across a sum and a nonzero divisor cancels.
-/
import Mathlib.Data.EReal.Operations
import Mathlib.Algebra.BigOperators.Fin

open scoped BigOperators

namespace RealSums

/-- A finite sum of real numbers, read on the extended reals, is the sum of the readings. -/
theorem coe_sum_real {ι : Type*} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A finite sum of products of entries that are real numbers is the real sum of the real products. -/
theorem sum_mul_of_real {ι : Type*} [Fintype ι] (A B : ι → EReal) (a b : ι → ℝ)
    (hA : ∀ i, A i = (a i : EReal)) (hB : ∀ i, B i = (b i : EReal)) :
    ∑ i, A i * B i = ((∑ i, a i * b i : ℝ) : EReal) := by
  rw [coe_sum_real]
  exact Finset.sum_congr rfl (fun i _ => by rw [hA, hB, EReal.coe_mul])

end RealSums
-- ==== Proof.Law.lean ====
/-
  Dividing every score and then summing is the same as summing and then dividing once, when everything is real.

  With every entry of `K` and `Q` a real number each score is a real number (a finite sum of products of reals), so
  the sum of squares of a row is a real `r`; its square root on the extended reals is a real, or the bottom element if
  `r` were negative, and the larger of that and a positive real `ε` is in either case a real `d ≥ ε > 0`.  Dividing by a
  nonzero real is multiplying by its reciprocal, and with every entry of `V` real as well the reciprocal is a real
  factor of every term of a finite sum of reals: it moves across the sum.  The residual is added on both sides.
-/
import proofs.«178563_j25151328485711_1_alg».proof.Proof.Spec
import proofs.«178563_j25151328485711_1_alg».proof.Proof.LibRealSums

noncomputable section

open scoped BigOperators

namespace Attn

open Idealize.ShloMosaic Idealize.ShloMosaic.ValueIdx RealSums

/-- An affine image of real rows under a real matrix and a real offset is real. -/
theorem lin_isReal {n d k : ℕ} (X : Mat n d) (W : Mat k d) (b : Vec1 k) (hX : IsReal X) (hW : IsReal W)
    (hb : IsReal b) : IsReal (lin X W b) := by
  have hX' : ∀ i, ∃ r : ℝ, X i = (r : EReal) := hX
  have hW' : ∀ i, ∃ r : ℝ, W i = (r : EReal) := hW
  have hb' : ∀ i, ∃ r : ℝ, b i = (r : EReal) := hb
  choose x hx using hX'
  choose w hw using hW'
  choose β hβ using hb'
  intro i
  refine ⟨(∑ l : Fin d, x (ix2 ⟨(i 0).val, idx2_lt0 i⟩ l) * w (ix2 ⟨(i 1).val, idx2_lt1 i⟩ l))
      + β (ix1 ⟨(i 1).val, idx2_lt1 i⟩), ?_⟩
  show linE X W b _ _ = _
  unfold linE
  rw [EReal.coe_add, hβ, sum_mul_of_real _ _ _ _ (fun l => hx _) (fun l => hw _)]

/-- With real `K` and `Q` every score is a real number. -/
theorem scoreE_real {n g a : ℕ} (K : Mat n a) (Q : Mat g a) (hK : IsReal K) (hQ : IsReal Q) (p : Fin n) :
    ∃ s : Fin g → ℝ, ∀ j, scoreE K Q p j = (s j : EReal) := by
  have hK' : ∀ i, ∃ r : ℝ, K i = (r : EReal) := hK
  have hQ' : ∀ i, ∃ r : ℝ, Q i = (r : EReal) := hQ
  choose k hk using hK'
  choose q hq using hQ'
  refine ⟨fun j => ∑ l : Fin a, k (ix2 p l) * q (ix2 j l), fun j => ?_⟩
  unfold scoreE
  exact sum_mul_of_real _ _ _ _ (fun l => hk _) (fun l => hq _)

/-- The divisor of a row is a positive real: the larger of a real-or-bottom square root and the positive real `ε`. -/
theorem den_real {n g a : ℕ} (ε : EReal) (K : Mat n a) (Q : Mat g a) (hε : ∃ e : ℝ, 0 < e ∧ ε = (e : EReal))
    (hK : IsReal K) (hQ : IsReal Q) (p : Fin n) : ∃ d : ℝ, 0 < d ∧ den ε K Q p = (d : EReal) := by
  obtain ⟨e, he, rfl⟩ := hε
  obtain ⟨s, hs⟩ := scoreE_real K Q hK hQ p
  have hsq : sqE K Q p = ((∑ j : Fin g, s j * s j : ℝ) : EReal) := by
    unfold sqE
    exact sum_mul_of_real _ _ _ _ hs hs
  unfold den
  rw [hsq, Ideal.sqrt_coe]
  split_ifs with h
  · exact ⟨e, he, max_eq_right bot_le⟩
  · exact ⟨max (Real.sqrt (∑ j : Fin g, s j * s j)) e, lt_max_of_lt_right he,
      (EReal.coe_strictMono.monotone.map_max).symm⟩

/-- The law: dividing every score by the row's divisor before the sum gives what one division after the sum gives. -/
theorem sumQuot_eq_quotSum {n g a o : ℕ} (ε : EReal) (K : Mat n a) (Q : Mat g a) (V : Mat g o) (R : Mat n o)
    (hε : ∃ e : ℝ, 0 < e ∧ ε = (e : EReal)) (hK : IsReal K) (hQ : IsReal Q) (hV : IsReal V) (p : Fin n) (c : Fin o) :
    sumQuot ε K Q V R p c = quotSum ε K Q V R p c := by
  obtain ⟨d, hd, hden⟩ := den_real ε K Q hε hK hQ p
  obtain ⟨s, hs⟩ := scoreE_real K Q hK hQ p
  have hV' : ∀ i, ∃ r : ℝ, V i = (r : EReal) := hV
  choose v hv using hV'
  unfold sumQuot quotSum dotE
  rw [hden]
  congr 1
  have hl : ∀ j : Fin g, Ideal.div (scoreE K Q p j) (d : EReal) = ((s j * (1 / d) : ℝ) : EReal) := fun j => by
    rw [Ideal.div_coe hd.ne', hs, EReal.coe_mul]
  rw [Ideal.div_coe hd.ne', sum_mul_of_real _ _ _ _ hl (fun j => hv _), sum_mul_of_real _ _ _ _ hs (fun j => hv _),
    ← EReal.coe_mul, Finset.sum_mul]
  exact congrArg _ (Finset.sum_congr rfl (fun j _ => by ring))

end Attn

end
-- ==== Proof.Eps.lean ====
/-
  The small constant that bounds the row norm from below is a positive real number.

  The single-precision pattern 0x2B8CBCCC has sign bit 0, exponent field 87 and fraction field 834764, so it
  denotes the normal number (2^23 + 834764) · 2^(87 - 127 - 23), about 10⁻¹²: a real, and positive.
-/
import Idealize.ShloMosaic.PureOps.Ideal

namespace Attn

open Idealize.ShloMosaic

/-- The constant is a positive real: the three bit fields are evaluated, and the resulting product of a positive
    integer and a power of two is positive. -/
theorem eps_pos : ∃ e : ℝ, 0 < e ∧ Ideal.ofBits .f32 0x2B8CBCCC#32 = (e : EReal) := by
  refine ⟨(1 : ℝ) * ((2 ^ 23 + 834764 : ℕ) : ℝ) * (2 : ℝ) ^ ((87 : ℤ) - (2 ^ (8 - 1) - 1) - 23), by positivity, ?_⟩
  simp [Ideal.ofBits, Ideal.ieee, -EReal.coe_mul]

end Attn
-- ==== Proof.FiniteArgs.lean ====
/-
  The precondition "every entry of every argument is finite" makes every argument an array of real numbers.

  The predicate is, for each of the seven arguments, the conjunction over all entries of `|x| < +∞`, and the
  conjunction of the seven.  On the extended reals `|x| = max x (-x)` is `+∞` at both infinities, and the pattern
  0x7F800000 denotes `+∞`; so an entry passing the test is neither infinity: it is a real number.
-/
import proofs.«178563_j25151328485711_1_alg».proof.Pre_finite_inputs
import Idealize.ShloMosaic.Lib.ReduceAll
import Idealize.ShloMosaic.Lib.ValueIdx
import proofs.«178563_j25151328485711_1_alg».proof.Proof.Spec

noncomputable section

namespace Attn

open Idealize.ShloMosaic Idealize.ShloMosaic.ValueIdx

/-- An extended real whose absolute value compares below `+∞` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The scalar shape has one index. -/
instance subsingleton_scalarIdx : Subsingleton Cert.Pre_finite_inputs.S_.Idx :=
  ⟨fun a b => funext fun d => d.elim0⟩

/-- One argument: if the conjunction over all entries of `|x| < +∞` holds, every entry of `x` is real. -/
theorem isReal_of_all_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) : IsReal x := by
  intro i
  have hi := Host.reduce_andi_all _ _ hr hu ix0 e i
  exact real_of_abs_lt_inf (x i) hi

/-- The precondition gives: all seven arguments are arrays of real numbers. -/
theorem args_real [Cert.Pre_finite_inputs.Facts]
    (x0 : FVec Ideal Cert.Pre_finite_inputs.S8192x512 .f32) (x1 : FVec Ideal Cert.Pre_finite_inputs.S128x512 .f32)
    (x2 : FVec Ideal Cert.Pre_finite_inputs.S128 .f32) (x3 : FVec Ideal Cert.Pre_finite_inputs.S128x512 .f32)
    (x4 : FVec Ideal Cert.Pre_finite_inputs.S128 .f32) (x5 : FVec Ideal Cert.Pre_finite_inputs.S512x512 .f32)
    (x6 : FVec Ideal Cert.Pre_finite_inputs.S512 .f32)
    (h : Cert.Pre_finite_inputs.fn (F := Ideal) x0 x1 x2 x3 x4 x5 x6 = fun _ => 1#1) :
    IsReal x0 ∧ IsReal x1 ∧ IsReal x2 ∧ IsReal x3 ∧ IsReal x4 ∧ IsReal x5 ∧ IsReal x6 := by
  have h0 := congrFun h ix0
  simp only [Cert.Pre_finite_inputs.fn, Cert.Pre_finite_inputs.fn_part1, andi, IntOp.andi_eq_one] at h0
  obtain ⟨⟨⟨⟨⟨⟨e0, e1⟩, e2⟩, e3⟩, e4⟩, e5⟩, e6⟩ := h0
  exact ⟨isReal_of_all_finite x0 _ _ _ e0, isReal_of_all_finite x1 _ _ _ e1, isReal_of_all_finite x2 _ _ _ e2,
    isReal_of_all_finite x3 _ _ _ e3, isReal_of_all_finite x4 _ _ _ e4, isReal_of_all_finite x5 _ _ _ e5,
    isReal_of_all_finite x6 _ _ _ e6⟩

end Attn

end
-- ==== Proof.RefQuot.lean ====
/-
  Under the precondition the reference's result is the specification with ONE division per entry.

  Finite arguments are arrays of reals; affine images of real rows are real, so `K`, `Q` and `V` are real; the small
  constant is a positive real; hence dividing every score of a row and then summing against a column of `V` equals
  summing first and dividing the sum once.  The reference, entry by entry, is the former.
-/
import proofs.«178563_j25151328485711_1_alg».proof.Proof.RefIsSpec
import proofs.«178563_j25151328485711_1_alg».proof.Proof.Law
import proofs.«178563_j25151328485711_1_alg».proof.Proof.Eps
import proofs.«178563_j25151328485711_1_alg».proof.Proof.FiniteArgs
import proofs.«178563_j25151328485711_1_alg».proof.Proof.Gen.Pre_finite_inputs

noncomputable section

namespace Attn.Ref

open Cert.ReferenceIdeal Cert.ReferenceIdeal.Read Idealize.ShloMosaic Idealize.ShloMosaic.ValueIdx

/-- The reference's result at `(p, c)`, for finite arguments: the sum over the row's scores against column `c` of `V`,
    divided once by the row's divisor, plus `V (p, c)`. -/
theorem ref_quotSum (x0 : (⟨S8192x512, .f32⟩ : BufTy).Contents (Elt Ideal)) (x1 : (⟨S128x512, .f32⟩ : BufTy).Contents (Elt Ideal))
    (x2 : (⟨S128, .f32⟩ : BufTy).Contents (Elt Ideal)) (x3 : (⟨S128x512, .f32⟩ : BufTy).Contents (Elt Ideal))
    (x4 : (⟨S128, .f32⟩ : BufTy).Contents (Elt Ideal)) (x5 : (⟨S512x512, .f32⟩ : BufTy).Contents (Elt Ideal))
    (x6 : (⟨S512, .f32⟩ : BufTy).Contents (Elt Ideal))
    (h : Cert.Pre_finite_inputs.fn (F := Ideal) x0 x1 x2 x3 x4 x5 x6 = fun _ => 1#1) (p : Fin 8192) (c : Fin 512) :
    Cert.ReferenceIdeal.Read.val_main_v26 (F := Ideal) x0 x1 x2 x3 x4 x5 x6 (ix2 p c)
      = Attn.quotSum (Ideal.ofBits .f32 0x2B8CBCCC#32) (Attn.lin x0 x1 x2) (Attn.lin x0 x3 x4) (Attn.lin x0 x5 x6)
          (Attn.lin x0 x5 x6) p c := by
  obtain ⟨r0, r1, r2, r3, r4, r5, r6⟩ := Attn.args_real x0 x1 x2 x3 x4 x5 x6 h
  rw [ref_apply]
  exact Attn.sumQuot_eq_quotSum _ _ _ _ _ Attn.eps_pos (Attn.lin_isReal x0 x1 x2 r0 r1 r2)
    (Attn.lin_isReal x0 x3 x4 r0 r3 r4) (Attn.lin_isReal x0 x5 x6 r0 r5 r6) p c

end Attn.Ref

end
-- ==== Proof.Bridge.lean ====
/-
  The two programs compute one function.

  At the ideal instance the first region leaves, in the three arrays the second region reads, the affine images
  `X·Wkᵀ + bk`, `X·Wqᵀ + bq`, `X·Wvᵀ + bv` of the argument arrays (the biases reach the region through reshapes that only
  add a unit axis); the second region therefore leaves in the result array, at `(p, c)`, the sum over all 8192 columns
  of score times value, divided ONCE by the row's divisor, plus the residual value (`Attn.quotSum`).  The reference divides
  every score before the sum (`Attn.sumQuot`).  When every argument entry is a real number the two agree: the divisor is
  a positive real and moves across the finite sum.  That is the algebraic claim; the frames are the two programs' runs
  with the result dropped; the idealization rewrote nothing.
-/
import proofs.«178563_j25151328485711_1_alg».proof.Defs
import proofs.«178563_j25151328485711_1_alg».proof.Proof.Gen.Kernel
import proofs.«178563_j25151328485711_1_alg».proof.Proof.Gen.KernelIdeal
import proofs.«178563_j25151328485711_1_alg».proof.Proof.Gen.ReferenceIdeal
import proofs.«178563_j25151328485711_1_alg».proof.Proof.Gen.ReferenceIdeal.Run
import proofs.«178563_j25151328485711_1_alg».proof.Proof.Gen.ReferenceIdeal.Read
import proofs.«178563_j25151328485711_1_alg».proof.Proof.Gen.Pre_finite_inputs
import proofs.«178563_j25151328485711_1_alg».proof.Proof.RunSegs
import proofs.«178563_j25151328485711_1_alg».proof.Proof.ProjValue
import proofs.«178563_j25151328485711_1_alg».proof.Proof.AccValue
import proofs.«178563_j25151328485711_1_alg».proof.Proof.HostVals
import proofs.«178563_j25151328485711_1_alg».proof.Proof.RefQuot

noncomputable section

namespace Cert.KernelIdeal.Bridge

open Cert.KernelIdeal Cert.KernelIdeal.Gen Cert.KernelIdeal.Whole
open Idealize.ShloMosaic Idealize.ShloMosaic.TcCoe Idealize.ShloMosaic.ValueIdx Idealize.SL.Sem

variable (m : (ℓ : Loc nD τ sig) → Buf (Elt Ideal) ℓ) (c : Dev nD)

/-- The bias a region finds as a one-row array, read as a vector, is the argument vector. -/
theorem bias_k_eq : (fun i : (⟨1, ![128]⟩ : Shape).Idx => (E1 m c main_v0 : S1x128.Idx → EReal) (ix2 0 (i 0)))
    = (m ((c : Thread nD τ).loc main_arg2) : S128.Idx → EReal) :=
  funext fun i => (HostVals.bias_k m c (i 0)).trans (congrArg _ (eq_ix1 i).symm)
theorem bias_q_eq : (fun i : (⟨1, ![128]⟩ : Shape).Idx => (E1 m c main_v1 : S1x128.Idx → EReal) (ix2 0 (i 0)))
    = (m ((c : Thread nD τ).loc main_arg4) : S128.Idx → EReal) :=
  funext fun i => (HostVals.bias_q m c (i 0)).trans (congrArg _ (eq_ix1 i).symm)
theorem bias_v_eq : (fun i : (⟨1, ![512]⟩ : Shape).Idx => (E1 m c main_v2 : S1x512.Idx → EReal) (ix2 0 (i 0)))
    = (m ((c : Thread nD τ).loc main_arg6) : S512.Idx → EReal) :=
  funext fun i => (HostVals.bias_v m c (i 0)).trans (congrArg _ (eq_ix1 i).symm)

/-- The keys, the queries and the values as the second region finds them. -/
theorem keys_eq : (E2 m c main_v3_0 : S8192x128.Idx → EReal)
    = Attn.lin (m ((c : Thread nD τ).loc main_arg0)) (m ((c : Thread nD τ).loc main_arg1)) (m ((c : Thread nD τ).loc main_arg2)) := by
  refine ((E2_arr m c 7).symm.trans ?_)
  rw [ProjValue.arr_k (E1 m) c, bias_k_eq m c]
  show Attn.lin (V1 m c main_arg0) (V1 m c main_arg1) _ = _
  rw [HostVals.arg_x m c, HostVals.arg_wk m c]
theorem queries_eq : (E2 m c main_v3_1 : S8192x128.Idx → EReal)
    = Attn.lin (m ((c : Thread nD τ).loc main_arg0)) (m ((c : Thread nD τ).loc main_arg3)) (m ((c : Thread nD τ).loc main_arg4)) := by
  refine ((E2_arr m c 8).symm.trans ?_)
  rw [ProjValue.arr_q (E1 m) c, bias_q_eq m c]
  show Attn.lin (V1 m c main_arg0) (V1 m c main_arg3) _ = _
  rw [HostVals.arg_x m c, HostVals.arg_wq m c]
theorem values_eq : (E2 m c main_v3_2 : S8192x512.Idx → EReal)
    = Attn.lin (m ((c : Thread nD τ).loc main_arg0)) (m ((c : Thread nD τ).loc main_arg5)) (m ((c : Thread nD τ).loc main_arg6)) := by
  refine ((E2_arr m c 9).symm.trans ?_)
  rw [ProjValue.arr_v (E1 m) c, bias_v_eq m c]
  show Attn.lin (V1 m c main_arg0) (V1 m c main_arg5) _ = _
  rw [HostVals.arg_x m c, HostVals.arg_wv m c]

/-- What the kernel's program leaves in the result array: the one-division form, of the argument arrays. -/
theorem result_eq (p : Fin 8192) (q : Fin 512) :
    ((Acc.dat (F := Ideal) (E2 m) c).arrAt 4 cfg1.N : S8192x512.Idx → EReal) (ix2 p q)
      = Attn.quotSum (Ideal.ofBits .f32 0x2B8CBCCC#32)
          (Attn.lin (m ((c : Thread nD τ).loc main_arg0)) (m ((c : Thread nD τ).loc main_arg1)) (m ((c : Thread nD τ).loc main_arg2)))
          (Attn.lin (m ((c : Thread nD τ).loc main_arg0)) (m ((c : Thread nD τ).loc main_arg3)) (m ((c : Thread nD τ).loc main_arg4)))
          (Attn.lin (m ((c : Thread nD τ).loc main_arg0)) (m ((c : Thread nD τ).loc main_arg5)) (m ((c : Thread nD τ).loc main_arg6)))
          (Attn.lin (m ((c : Thread nD τ).loc main_arg0)) (m ((c : Thread nD τ).loc main_arg5)) (m ((c : Thread nD τ).loc main_arg6))) p q := by
  rw [AccValue.arr_out (E2 m) c, keys_eq m c, queries_eq m c, values_eq m c]

end Cert.KernelIdeal.Bridge

end
-- ==== Proof.lean ====
/-
  The certificate of the attention kernel against its reference, on the extended reals.

  The kernel's program is three reshapes and two kernel regions: the projections `K = X·Wkᵀ + bk`, `Q = X·Wqᵀ + bq`,
  `V = X·Wvᵀ + bv`, then, tile by tile over an 8 × 8 grid, the scores `S = K·Qᵀ` accumulated into `S·V` and into the
  rows' sums of squares, and at the last column tile of every row tile the quotient by `max (√(Σ S²)) ε` plus the
  residual rows of `V`.  The reference divides every score by that divisor before the product.  Each program's frame is
  its run with the result dropped (the kernel's run, at any float instance, is Proof/RunSegs.lean's; the reference's is
  its generated run); the idealization rewrote no operation; and at the ideal instance both result arrays are, entry by
  entry, one function of the arguments when these are finite (Proof/Bridge.lean: the kernel's array is `Attn.quotSum` of
  the projections; Proof/RefQuot.lean: so is the reference's, the divisor being a positive real that moves across the
  finite sum of reals).
-/
import proofs.«178563_j25151328485711_1_alg».proof.Defs
import proofs.«178563_j25151328485711_1_alg».proof.Proof.Gen.Kernel
import proofs.«178563_j25151328485711_1_alg».proof.Proof.Gen.Kernel.Skeleton
import proofs.«178563_j25151328485711_1_alg».proof.Proof.Gen.Kernel.Launch
import proofs.«178563_j25151328485711_1_alg».proof.Proof.Gen.Kernel.Regions
import proofs.«178563_j25151328485711_1_alg».proof.Proof.Gen.Kernel.Points
import proofs.«178563_j25151328485711_1_alg».proof.Proof.Gen.KernelIdeal
import proofs.«178563_j25151328485711_1_alg».proof.Proof.Gen.KernelIdeal.Skeleton
import proofs.«178563_j25151328485711_1_alg».proof.Proof.Gen.KernelIdeal.Launch
import proofs.«178563_j25151328485711_1_alg».proof.Proof.Gen.KernelIdeal.Regions
import proofs.«178563_j25151328485711_1_alg».proof.Proof.Gen.KernelIdeal.Points
import proofs.«178563_j25151328485711_1_alg».proof.Proof.Gen.ReferenceIdeal
import proofs.«178563_j25151328485711_1_alg».proof.Proof.Gen.ReferenceIdeal.Run
import proofs.«178563_j25151328485711_1_alg».proof.Proof.Gen.ReferenceIdeal.Read
import proofs.«178563_j25151328485711_1_alg».proof.Proof.Gen.Pre_finite_inputs
import proofs.«178563_j25151328485711_1_alg».proof.Proof.RunSegs
import proofs.«178563_j25151328485711_1_alg».proof.Proof.KRunSegs
import proofs.«178563_j25151328485711_1_alg».proof.Proof.Bridge
import Idealize.ShloMosaic.Adequacy
import Idealize.ShloMosaic.Init

noncomputable section

namespace Cert.Proof

open Idealize.ShloMosaic Idealize.SL.Sem Idealize.ShloMosaic.ValueIdx

/-- The word-level kernel runs to the end and leaves its arguments as launched. -/
theorem frame_k : Cert.frame_Kernel := fun m ρ _ =>
  (θ_run (Cert.Kernel.defs (F := Bits)) _ _).mono (fun _ h c => (h c).2) (Cert.Kernel.Whole.run (F := Bits) m ρ)

/-- So does the idealized kernel. -/
theorem frame_ki : Cert.frame_KernelIdeal := fun m ρ _ =>
  (θ_run (Cert.KernelIdeal.defs (F := Ideal)) _ _).mono (fun _ h c => (h c).2) (Cert.KernelIdeal.Whole.run (F := Ideal) m ρ)

/-- So does the idealized reference: its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote no operation. -/
theorem preserves : Cert.preserves_Kernel_KernelIdeal := trivial

/-- From memories agreeing on finite arguments both idealized programs end with the same result array: at `(p, q)` the
    sum over the 8192 columns of score times value, over the row's divisor, plus the residual value. -/
theorem algebraic : Cert.algebraic_KernelIdeal_ReferenceIdeal := by
  intro m ρ m' ρ' hpre hagree
  refine ⟨fun c => (Cert.KernelIdeal.Acc.dat (F := Ideal) (Cert.KernelIdeal.Whole.E2 m) c).arrAt 4 Cert.KernelIdeal.cfg1.N,
    Cert.KernelIdeal.Whole.run (F := Ideal) m ρ, ?_⟩
  refine (θ_run (Cert.ReferenceIdeal.defs (F := Ideal)) _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2.1,
    (hagree c).2.2.2.2.1, (hagree c).2.2.2.2.2.1, (hagree c).2.2.2.2.2.2]
  funext i
  obtain ⟨p, q, rfl⟩ : ∃ (p : Fin 8192) (q : Fin 512), i = ix2 p q := ⟨i 0, i 1, eq_ix2 i⟩
  exact (Attn.Ref.ref_quotSum _ _ _ _ _ _ _ (hpre c) p q).trans (Cert.KernelIdeal.Bridge.result_eq m c p q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
